-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x64 : Shape := ⟨4, ![4, 512, 64, 64]⟩
abbrev S4x512x16x16 : Shape := ⟨4, ![4, 512, 16, 16]⟩
abbrev S_ : Shape := ⟨0, ![]⟩

class Facts : Prop where
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  h_S_ : 0 < S_.numel
  bcast_S_S4x512x16x16 : S_.BroadcastsInDim S4x512x16x16 (![] : Fin 0 → Fin S4x512x16x16.rank)
  reducesTo_S4x512x16x16_S_d0_1_2_3 : S4x512x16x16.ReducesTo [0, 1, 2, 3] S_

variable [Facts]

def fn {F : FTy → Type} [FloatOps F] (main_arg0 : FVec F S4x512x64x64 .f32) (main_arg1 : FVec F S4x512x16x16 .f32) : IVec S_ 1 :=
  let main_v0 : FVec F S4x512x64x64 .f32 := Host.absf main_arg0
  let main_cst : FVec F S_ .f32 := constant S_ .f32 0x7F800000#32
  let main_v1 : FVec F S4x512x64x64 .f32 := broadcastInDim S4x512x64x64 ![] bcast_S_S4x512x64x64 main_cst
  let main_v2 : IVec S4x512x64x64 1 := cmpf .olt main_v0 main_v1
  let main_c : IVec S_ 1 := constantI S_ 1 1#1
  let main_v3 : IVec S_ 1 := (fun x v => Host.reduce IntOp.andi x v reducesTo_S4x512x64x64_S_d0_1_2_3 h_S_) main_v2 main_c
  let main_v4 : FVec F S4x512x16x16 .f32 := Host.absf main_arg1
  let main_cst_0 : FVec F S_ .f32 := constant S_ .f32 0x7F800000#32
  let main_v5 : FVec F S4x512x16x16 .f32 := broadcastInDim S4x512x16x16 ![] bcast_S_S4x512x16x16 main_cst_0
  let main_v6 : IVec S4x512x16x16 1 := cmpf .olt main_v4 main_v5
  let main_c_1 : IVec S_ 1 := constantI S_ 1 1#1
  let main_v7 : IVec S_ 1 := (fun x v => Host.reduce IntOp.andi x v reducesTo_S4x512x16x16_S_d0_1_2_3 h_S_) main_v6 main_c_1
  let main_v8 : IVec S_ 1 := andi main_v3 main_v7
  main_v8
-- ==== Kernel.lean ====
abbrev S4x512x64x64 : Shape := ⟨4, ![4, 512, 64, 64]⟩
abbrev S4x512x16x16 : Shape := ⟨4, ![4, 512, 16, 16]⟩
abbrev S4x1x64x64 : Shape := ⟨4, ![4, 1, 64, 64]⟩
abbrev S1x512x64x64 : Shape := ⟨4, ![1, 512, 64, 64]⟩
abbrev S1x1x64x64 : Shape := ⟨4, ![1, 1, 64, 64]⟩
abbrev S1x64x64 : Shape := ⟨3, ![1, 64, 64]⟩
abbrev S4x1x16x4x16x4 : Shape := ⟨6, ![4, 1, 16, 4, 16, 4]⟩
abbrev S_ : Shape := ⟨0, ![]⟩
abbrev S4x1x16x16 : Shape := ⟨4, ![4, 1, 16, 16]⟩
abbrev S4x1 : Shape := ⟨2, ![4, 1]⟩
abbrev S4x1x1x1 : Shape := ⟨4, ![4, 1, 1, 1]⟩
abbrev S4x4096 : Shape := ⟨2, ![4, 4096]⟩
abbrev S4 : Shape := ⟨1, ![4]⟩
abbrev S16384 : Shape := ⟨1, ![16384]⟩
abbrev S1024 : Shape := ⟨1, ![1024]⟩
abbrev S16384x1 : Shape := ⟨2, ![16384, 1]⟩
abbrev S4x1x256 : Shape := ⟨3, ![4, 1, 256]⟩
abbrev S4x1x1 : Shape := ⟨3, ![4, 1, 1]⟩
abbrev S256 : Shape := ⟨1, ![256]⟩
abbrev S4x16x16 : Shape := ⟨3, ![4, 16, 16]⟩
abbrev S4x16x16x1 : Shape := ⟨4, ![4, 16, 16, 1]⟩
abbrev S1x1x1x256 : Shape := ⟨4, ![1, 1, 1, 256]⟩
abbrev S4x16x16x256 : Shape := ⟨4, ![4, 16, 16, 256]⟩
abbrev S4x512x1 : Shape := ⟨3, ![4, 512, 1]⟩
abbrev S1x16x16x16 : Shape := ⟨4, ![1, 16, 16, 16]⟩
abbrev S1x16x16x256 : Shape := ⟨4, ![1, 16, 16, 256]⟩
abbrev S1x1x1 : Shape := ⟨3, ![1, 1, 1]⟩
abbrev S1x16x1 : Shape := ⟨3, ![1, 16, 1]⟩
abbrev S16x16x16 : Shape := ⟨3, ![16, 16, 16]⟩
abbrev S16 : Shape := ⟨1, ![16]⟩
abbrev S16x1x1 : Shape := ⟨3, ![16, 1, 1]⟩
abbrev S16x16x16x1 : Shape := ⟨4, ![16, 16, 16, 1]⟩
abbrev S16x16x16x256 : Shape := ⟨4, ![16, 16, 16, 256]⟩
abbrev S16x16x256 : Shape := ⟨3, ![16, 16, 256]⟩
abbrev S256x256 : Shape := ⟨2, ![256, 256]⟩
abbrev S1x1 : Shape := ⟨2, ![1, 1]⟩
abbrev S256x1 : Shape := ⟨2, ![256, 1]⟩
abbrev S1x256 : Shape := ⟨2, ![1, 256]⟩
abbrev S1 : Shape := ⟨1, ![1]⟩
abbrev S4x512x1x1 : Shape := ⟨4, ![4, 512, 1, 1]⟩

abbrev nBuf : Space → Nat
  | .hbm => 111
  | .vmem => 12
  | .smem => 0
  | _ => 0

abbrev bufTy : (tb : Table) → Fin (tcTables nBuf tb) → BufTy
  | .hbm, ⟨0, _⟩ => ⟨S4x512x64x64, .f32⟩
  | .hbm, ⟨1, _⟩ => ⟨S4x512x16x16, .f32⟩
  | .hbm, ⟨2, _⟩ => ⟨S4x1x64x64, .f32⟩
  | .hbm, ⟨3, _⟩ => ⟨S4x1x16x4x16x4, .f32⟩
  | .hbm, ⟨4, _⟩ => ⟨S_, .f32⟩
  | .hbm, ⟨5, _⟩ => ⟨S4x1x16x16, .f32⟩
  | .hbm, ⟨6, _⟩ => ⟨S_, .f32⟩
  | .hbm, ⟨7, _⟩ => ⟨S4x1x16x16, .f32⟩
  | .hbm, ⟨8, _⟩ => ⟨S4x1x16x16, .f32⟩
  | .hbm, ⟨9, _⟩ => ⟨S_, .f32⟩
  | .hbm, ⟨10, _⟩ => ⟨S4x1, .f32⟩
  | .hbm, ⟨11, _⟩ => ⟨S4x1x1x1, .f32⟩
  | .hbm, ⟨12, _⟩ => ⟨S_, .f32⟩
  | .hbm, ⟨13, _⟩ => ⟨S4x1, .f32⟩
  | .hbm, ⟨14, _⟩ => ⟨S4x1x1x1, .f32⟩
  | .hbm, ⟨15, _⟩ => ⟨S4x1x64x64, .f32⟩
  | .hbm, ⟨16, _⟩ => ⟨S4x1x64x64, .f32⟩
  | .hbm, ⟨17, _⟩ => ⟨S4x1x1x1, .f32⟩
  | .hbm, ⟨18, _⟩ => ⟨S4x1x64x64, .f32⟩
  | .hbm, ⟨19, _⟩ => ⟨S4x1x64x64, .f32⟩
  | .hbm, ⟨20, _⟩ => ⟨S_, .f32⟩
  | .hbm, ⟨21, _⟩ => ⟨S4x1x64x64, .f32⟩
  | .hbm, ⟨22, _⟩ => ⟨S4x1x64x64, .f32⟩
  | .hbm, ⟨23, _⟩ => ⟨S4x1x64x64, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4x1x64x64, .i32⟩
  | .hbm, ⟨28, _⟩ => ⟨S4x1x64x64, .i32⟩
  | .hbm, ⟨29, _⟩ => ⟨S_, .i32⟩
  | .hbm, ⟨30, _⟩ => ⟨S4x1x64x64, .i32⟩
  | .hbm, ⟨31, _⟩ => ⟨S4x1x64x64, .i32⟩
  | .hbm, ⟨32, _⟩ => ⟨S_, .f32⟩
  | .hbm, ⟨33, _⟩ => ⟨S4x1, .f32⟩
  | .hbm, ⟨34, _⟩ => ⟨S4x1x1x1, .f32⟩
  | .hbm, ⟨35, _⟩ => ⟨S_, .f32⟩
  | .hbm, ⟨36, _⟩ => ⟨S4x1, .f32⟩
  | .hbm, ⟨37, _⟩ => ⟨S4x1x1x1, .f32⟩
  | .hbm, ⟨38, _⟩ => ⟨S4x1x16x16, .f32⟩
  | .hbm, ⟨39, _⟩ => ⟨S4x1x16x16, .f32⟩
  | .hbm, ⟨40, _⟩ => ⟨S4x1x1x1, .f32⟩
  | .hbm, ⟨41, _⟩ => ⟨S4x1x16x16, .f32⟩
  | .hbm, ⟨42, _⟩ => ⟨S4x1x16x16, .f32⟩
  | .hbm, ⟨43, _⟩ => ⟨S_, .f32⟩
  | .hbm, ⟨44, _⟩ => ⟨S4x1x16x16, .f32⟩
  | .hbm, ⟨45, _⟩ => ⟨S4x1x16x16, .f32⟩
  | .hbm, ⟨46, _⟩ => ⟨S4x1x16x16, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4x1x16x16, .i32⟩
  | .hbm, ⟨51, _⟩ => ⟨S4x1x16x16, .i32⟩
  | .hbm, ⟨52, _⟩ => ⟨S_, .i32⟩
  | .hbm, ⟨53, _⟩ => ⟨S4x1x16x16, .i32⟩
  | .hbm, ⟨54, _⟩ => ⟨S4x1x16x16, .i32⟩
  | .hbm, ⟨55, _⟩ => ⟨S4x4096, .i32⟩
  | .hbm, ⟨56, _⟩ => ⟨S4, .i32⟩
  | .hbm, ⟨57, _⟩ => ⟨S4x1, .i32⟩
  | .hbm, ⟨58, _⟩ => ⟨S_, .i32⟩
  | .hbm, ⟨59, _⟩ => ⟨S4x1, .i32⟩
  | .hbm, ⟨60, _⟩ => ⟨S4x1, .i32⟩
  | .hbm, ⟨61, _⟩ => ⟨S4x4096, .i32⟩
  | .hbm, ⟨62, _⟩ => ⟨S4x4096, .i32⟩
  | .hbm, ⟨63, _⟩ => ⟨S16384, .i32⟩
  | .hbm, ⟨64, _⟩ => ⟨S_, .f32⟩
  | .hbm, ⟨65, _⟩ => ⟨S16384, .f32⟩
  | .hbm, ⟨66, _⟩ => ⟨S_, .f32⟩
  | .hbm, ⟨67, _⟩ => ⟨S1024, .f32⟩
  | .hbm, ⟨68, _⟩ => ⟨S16384x1, .i32⟩
  | .hbm, ⟨69, _⟩ => ⟨S1024, .f32⟩
  | .hbm, ⟨70, _⟩ => ⟨S4x1x256, .f32⟩
  | .hbm, ⟨71, _⟩ => ⟨S_, .f32⟩
  | .hbm, ⟨72, _⟩ => ⟨S4x1x256, .f32⟩
  | .hbm, ⟨73, _⟩ => ⟨S4x1x256, .f32⟩
  | .hbm, ⟨74, _⟩ => ⟨S_, .f32⟩
  | .hbm, ⟨75, _⟩ => ⟨S4x1x256, .f32⟩
  | .hbm, ⟨76, _⟩ => ⟨S4x1x256, .f32⟩
  | .hbm, ⟨77, _⟩ => ⟨S4x1x256, .f32⟩
  | .hbm, ⟨78, _⟩ => ⟨S4x1x256, .f32⟩
  | .hbm, ⟨79, _⟩ => ⟨S_, .f32⟩
  | .hbm, ⟨80, _⟩ => ⟨S4x1, .f32⟩
  | .hbm, ⟨81, _⟩ => ⟨S4x1, .f32⟩
  | .hbm, ⟨82, _⟩ => ⟨S4x1x1x1, .f32⟩
  | .hbm, ⟨83, _⟩ => ⟨S4x1x1, .f32⟩
  | .hbm, ⟨84, _⟩ => ⟨S256, .i32⟩
  | .hbm, ⟨85, _⟩ => ⟨S4x16x16, .i32⟩
  | .hbm, ⟨86, _⟩ => ⟨S4x16x16x1, .i32⟩
  | .hbm, ⟨87, _⟩ => ⟨S1x1x1x256, .i32⟩
  | .hbm, ⟨88, _⟩ => ⟨S4x16x16x256, .i32⟩
  | .hbm, ⟨89, _⟩ => ⟨S4x16x16x256, .i32⟩
  | .hbm, ⟨90, _⟩ => ⟨S4x16x16x256, .i1⟩
  | .hbm, ⟨91, _⟩ => ⟨S4x16x16x256, .f32⟩
  | .hbm, ⟨92, _⟩ => ⟨S4x512x1, .f32⟩
  | .hbm, ⟨93, _⟩ => ⟨S4x512x1x1, .f32⟩
  | .hbm, ⟨94, _⟩ => ⟨S_, .f32⟩
  | .hbm, ⟨95, _⟩ => ⟨S4x1x1, .f32⟩
  | .hbm, ⟨96, _⟩ => ⟨S_, .f32⟩
  | .hbm, ⟨97, _⟩ => ⟨S4x1x1, .f32⟩
  | .hbm, ⟨98, _⟩ => ⟨S4x1x1, .f32⟩
  | .hbm, ⟨99, _⟩ => ⟨S4x1x1x1, .f32⟩
  | .hbm, ⟨100, _⟩ => ⟨S4x512x1x1, .f32⟩
  | .hbm, ⟨101, _⟩ => ⟨S4x512x1x1, .f32⟩
  | .hbm, ⟨102, _⟩ => ⟨S4x512x1x1, .f32⟩
  | .hbm, ⟨103, _⟩ => ⟨S_, .f32⟩
  | .hbm, ⟨104, _⟩ => ⟨S4x1x1, .f32⟩
  | .hbm, ⟨105, _⟩ => ⟨S4x1x1x1, .f32⟩
  | .hbm, ⟨106, _⟩ => ⟨S4x512x1x1, .f32⟩
  | .hbm, ⟨107, _⟩ => ⟨S4x512x1x1, .f32⟩
  | .hbm, ⟨108, _⟩ => ⟨S4x512x16x16, .f32⟩
  | .hbm, ⟨109, _⟩ => ⟨S4x512x16x16, .f32⟩
  | .hbm, ⟨110, _⟩ => ⟨S4x512x16x16, .f32⟩
  | .local _ .vmem, ⟨0, _⟩ => ⟨S1x512x64x64, .f32⟩
  | .local _ .vmem, ⟨1, _⟩ => ⟨S1x512x64x64, .f32⟩
  | .local _ .vmem, ⟨2, _⟩ => ⟨S1x1x64x64, .f32⟩
  | .local _ .vmem, ⟨3, _⟩ => ⟨S1x1x64x64, .f32⟩
  | .local _ .vmem, ⟨4, _⟩ => ⟨S1x16x16x16, .f32⟩
  | .local _ .vmem, ⟨5, _⟩ => ⟨S1x16x16x16, .f32⟩
  | .local _ .vmem, ⟨6, _⟩ => ⟨S1x16x16x256, .f32⟩
  | .local _ .vmem, ⟨7, _⟩ => ⟨S1x16x16x256, .f32⟩
  | .local _ .vmem, ⟨8, _⟩ => ⟨S1x1x1, .f32⟩
  | .local _ .vmem, ⟨9, _⟩ => ⟨S1x1x1, .f32⟩
  | .local _ .vmem, ⟨10, _⟩ => ⟨S1x16x1, .f32⟩
  | .local _ .vmem, ⟨11, _⟩ => ⟨S1x16x1, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_c_9 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_13 : Ref sig .tc := ⟨.hbm, 71, rfl⟩
abbrev main_v44 : Ref sig .tc := ⟨.hbm, 72, rfl⟩
abbrev main_v45 : Ref sig .tc := ⟨.hbm, 73, rfl⟩
abbrev main_cst_14 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x512x64x64_S1x512x64x64_0_0_0_0 : ∀ a, (![0, 0, 0, 0] : Fin 4 → Nat) a + S1x512x64x64.size a ≤ S1x512x64x64.size a
  h_S1x512x64x64 : 0 < S1x512x64x64.numel
  reduces_S1x512x64x64_S1x64x64 : S1x512x64x64.Reduces [1] S1x64x64
  shapeCasts_S1x64x64_S1x1x64x64 : S1x64x64.ShapeCasts S1x1x64x64
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S4x1x64x64_S4x1x16x4x16x4 : S4x1x64x64.ShapeCasts S4x1x16x4x16x4
  reducesTo_S4x1x16x4x16x4_S4x1x16x16_d3_5 : S4x1x16x4x16x4.ReducesTo [3, 5] S4x1x16x16
  h_S_ : 0 < S_.numel
  bcast_S_S4x1x16x16 : S_.BroadcastsInDim S4x1x16x16 (![] : Fin 0 → Fin S4x1x16x16.rank)
  reducesTo_S4x1x64x64_S4x1_d2_3 : S4x1x64x64.ReducesTo [2, 3] S4x1
  bcast_S4x1_S4x1x1x1_0_1 : S4x1.BroadcastsInDim S4x1x1x1 (![0, 1] : Fin 2 → Fin S4x1x1x1.rank)
  bcast_S4x1x1x1_S4x1x64x64_0_1_2_3 : S4x1x1x1.BroadcastsInDim S4x1x64x64 (![0, 1, 2, 3] : Fin 4 → Fin S4x1x64x64.rank)
  bcast_S_S4x1x64x64 : S_.BroadcastsInDim S4x1x64x64 (![] : Fin 0 → Fin S4x1x64x64.rank)
  reducesTo_S4x1x16x16_S4x1_d2_3 : S4x1x16x16.ReducesTo [2, 3] S4x1
  bcast_S4x1x1x1_S4x1x16x16_0_1_2_3 : S4x1x1x1.BroadcastsInDim S4x1x16x16 (![0, 1, 2, 3] : Fin 4 → Fin S4x1x16x16.rank)
  shapeCasts_S4x1x64x64_S4x4096 : S4x1x64x64.ShapeCasts S4x4096
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  shapeCasts_S4x4096_S16384 : S4x4096.ShapeCasts S16384
  bcast_S_S16384 : S_.BroadcastsInDim S16384 (![] : Fin 0 → Fin S16384.rank)
  bcast_S_S1024 : S_.BroadcastsInDim S1024 (![] : Fin 0 → Fin S1024.rank)
  bcast_S16384_S16384x1_0 : S16384.BroadcastsInDim S16384x1 (![0] : Fin 1 → Fin S16384x1.rank)
  shapeCasts_S1024_S4x1x256 : S1024.ShapeCasts S4x1x256
  bcast_S_S4x1x256 : S_.BroadcastsInDim S4x1x256 (![] : Fin 0 → Fin S4x1x256.rank)
  reducesTo_S4x1x256_S4x1_d2 : S4x1x256.ReducesTo [2] S4x1
  shapeCasts_S4x1x1x1_S4x1x1 : S4x1x1x1.ShapeCasts S4x1x1
  shapeCasts_S4x1x16x16_S4x16x16 : S4x1x16x16.ShapeCasts S4x16x16
  bcast_S4x16x16_S4x16x16x1_0_1_2 : S4x16x16.BroadcastsInDim S4x16x16x1 (![0, 1, 2] : Fin 3 → Fin S4x16x16x1.rank)
  bcast_S256_S1x1x1x256_3 : S256.BroadcastsInDim S1x1x1x256 (![3] : Fin 1 → Fin S1x1x1x256.rank)
  bcast_S4x16x16x1_S4x16x16x256_0_1_2_3 : S4x16x16x1.BroadcastsInDim S4x16x16x256 (![0, 1, 2, 3] : Fin 4 → Fin S4x16x16x256.rank)
  bcast_S1x1x1x256_S4x16x16x256_0_1_2_3 : S1x1x1x256.BroadcastsInDim S4x16x16x256 (![0, 1, 2, 3] : Fin 4 → Fin S4x16x16x256.rank)
  inb_S1x16x16x16_S1x16x16x16_0_0_0_0 : ∀ a, (![0, 0, 0, 0] : Fin 4 → Nat) a + S1x16x16x16.size a ≤ S1x16x16x16.size a
  h_S1x16x16x16 : 0 < S1x16x16x16.numel
  shapeCasts_S1x16x16x16_S16x16x16 : S1x16x16x16.ShapeCasts S16x16x16
  reduces_S16x16x16_S16 : S16x16x16.Reduces [1, 2] S16
  shapeCasts_S16_S16x1x1 : S16.ShapeCasts S16x1x1
  broadcasts_S16x1x1_S16x16x16 : S16x1x1.Broadcasts S16x16x16
  iota_S1x1x1x256_d3_w32 : S1x1x1x256.Iotas .tc 32 [3]
  shapeCasts_S16x16x16_S16x16x16x1 : S16x16x16.ShapeCasts S16x16x16x1
  broadcasts_S16x16x16x1_S16x16x16x256 : S16x16x16x1.Broadcasts S16x16x16x256
  broadcasts_S1x1x1x256_S16x16x16x256 : S1x1x1x256.Broadcasts S16x16x16x256
  natLt_1_32 : 1 < 32
  inb_S1x16x16x256_S1x16x16x256_0_0_0_0 : ∀ a, (![0, 0, 0, 0] : Fin 4 → Nat) a + S1x16x16x256.size a ≤ S1x16x16x256.size a
  h_S1x16x16x256 : 0 < S1x16x16x256.numel
  shapeCasts_S1x16x16x256_S16x16x256 : S1x16x16x256.ShapeCasts S16x16x256
  bitsLt_bf16_f32 : FTy.bits .bf16 < FTy.bits .f32
  shapeCasts_S16x16x256_S256x256 : S16x16x256.ShapeCasts S256x256
  reduces_S16x16x256_S256 : S16x16x256.Reduces [0, 1] S256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  inpos_S1x1_p0_0 : ∀ a, (![0, 0] : Fin 2 → Nat) a < S1x1.size a
  slices_S16x16x16x256_o0_0_0_0_S1x16x16x256 : S16x16x16x256.Slices ![0, 0, 0, 0] S1x16x16x256
  shapeCasts_S256_S256x1 : S256.ShapeCasts S256x1
  shapeCasts_S256_S1x256 : S256.ShapeCasts S1x256
  broadcasts_S256x1_S256x256 : S256x1.Broadcasts S256x256
  broadcasts_S1x256_S256x256 : S1x256.Broadcasts S256x256
  reduces_S256x256_S256 : S256x256.Reduces [1] S256
  reduces_S1x256_S1 : S1x256.Reduces [1] S1
  shapeCasts_S1_S1x1 : S1.ShapeCasts S1x1
  slices_S16x16x16x256_o1_0_0_0_S1x16x16x256 : S16x16x16x256.Slices ![1, 0, 0, 0] S1x16x16x256
  slices_S16x16x16x256_o2_0_0_0_S1x16x16x256 : S16x16x16x256.Slices ![2, 0, 0, 0] S1x16x16x256
  slices_S16x16x16x256_o3_0_0_0_S1x16x16x256 : S16x16x16x256.Slices ![3, 0, 0, 0] S1x16x16x256
  slices_S16x16x16x256_o4_0_0_0_S1x16x16x256 : S16x16x16x256.Slices ![4, 0, 0, 0] S1x16x16x256
  slices_S16x16x16x256_o5_0_0_0_S1x16x16x256 : S16x16x16x256.Slices ![5, 0, 0, 0] S1x16x16x256
  slices_S16x16x16x256_o6_0_0_0_S1x16x16x256 : S16x16x16x256.Slices ![6, 0, 0, 0] S1x16x16x256
  slices_S16x16x16x256_o7_0_0_0_S1x16x16x256 : S16x16x16x256.Slices ![7, 0, 0, 0] S1x16x16x256
  slices_S16x16x16x256_o8_0_0_0_S1x16x16x256 : S16x16x16x256.Slices ![8, 0, 0, 0] S1x16x16x256
  slices_S16x16x16x256_o9_0_0_0_S1x16x16x256 : S16x16x16x256.Slices ![9, 0, 0, 0] S1x16x16x256
  slices_S16x16x16x256_o10_0_0_0_S1x16x16x256 : S16x16x16x256.Slices ![10, 0, 0, 0] S1x16x16x256
  slices_S16x16x16x256_o11_0_0_0_S1x16x16x256 : S16x16x16x256.Slices ![11, 0, 0, 0] S1x16x16x256
  slices_S16x16x16x256_o12_0_0_0_S1x16x16x256 : S16x16x16x256.Slices ![12, 0, 0, 0] S1x16x16x256
  slices_S16x16x16x256_o13_0_0_0_S1x16x16x256 : S16x16x16x256.Slices ![13, 0, 0, 0] S1x16x16x256
  slices_S16x16x16x256_o14_0_0_0_S1x16x16x256 : S16x16x16x256.Slices ![14, 0, 0, 0] S1x16x16x256
  slices_S16x16x16x256_o15_0_0_0_S1x16x16x256 : S16x16x16x256.Slices ![15, 0, 0, 0] S1x16x16x256
  concatenates_S1_S1_S1_S1_S1_S1_S1_S1_S1_S1_S1_S1_S1_S1_S1_S1_S16_d0 : Shape.Concatenates [S1, S1, S1, S1, S1, S1, S1, S1, S1, S1, S1, S1, S1, S1, S1, S1] S16 0
  shapeCasts_S16_S1x16x1 : S16.ShapeCasts S1x16x1
  inb_S1x16x1_S1x16x1_0_0_0 : ∀ a, (![0, 0, 0] : Fin 3 → Nat) a + S1x16x1.size a ≤ S1x16x1.size a
  h_S1x16x1 : 0 < S1x16x1.numel
  shapeCasts_S4x512x1_S4x512x1x1 : S4x512x1.ShapeCasts S4x512x1x1
  reducesTo_S4x512x1x1_S4x1x1_d1 : S4x512x1x1.ReducesTo [1] S4x1x1
  bcast_S_S4x1x1 : S_.BroadcastsInDim S4x1x1 (![] : Fin 0 → Fin S4x1x1.rank)
  bcast_S4x1x1_S4x1x1x1_0_2_3 : S4x1x1.BroadcastsInDim S4x1x1x1 (![0, 2, 3] : Fin 3 → Fin S4x1x1x1.rank)
  bcast_S4x1x1x1_S4x512x1x1_0_1_2_3 : S4x1x1x1.BroadcastsInDim S4x512x1x1 (![0, 1, 2, 3] : Fin 4 → Fin S4x512x1x1.rank)
  bcast_S4x512x1x1_S4x512x16x16_0_1_2_3 : S4x512x1x1.BroadcastsInDim S4x512x16x16 (![0, 1, 2, 3] : Fin 4 → Fin S4x512x16x16.rank)
  scatter_S1024_S16384x1_S16384_n_0_0_1_wf : ScatterDims.WF S1024 S16384x1 S16384 [] [0] [0] 1
  dot_S256x256_S256x256_S256x256_0_0_1_1_n_n_wf : DotDims.WF S256x256 S256x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64x64.size a ≤ S4x512x64x64.size a
  hwx0_0 : ∀ i : grid0.Coords, EltTy.bits .f32 = 32 ∨ (Rect.block (s := S4x512x64x64) S1x512x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x64.size a ≤ S4x1x64x64.size a
  hwx0_1 : ∀ i : grid0.Coords, EltTy.bits .f32 = 32 ∨ (Rect.block (s := S4x1x64x64) S1x1x64x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16x16.size a ≤ S4x512x16x16.size a
  hwx1_0 : ∀ i : grid1.Coords, EltTy.bits .f32 = 32 ∨ (Rect.block (s := S4x512x16x16) S1x16x16x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x16x256.size a ≤ S4x16x16x256.size a
  hwx1_1 : ∀ i : grid1.Coords, EltTy.bits .f32 = 32 ∨ (Rect.block (s := S4x16x16x256) S1x16x16x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1.size a ≤ S4x512x1.size a
  hwx1_3 : ∀ i : grid1.Coords, EltTy.bits .f32 = 32 ∨ (Rect.block (s := S4x512x1) S1x16x1.size (cc1_transform_3 i) (hinb1_3 i)).WholeWords (EltTy.packing .f32)

variable [Facts₀]

def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def dot_S256x256_S256x256_S256x256_0_0_1_1_n_n : DotDims S256x256 S256x256 S256x256 where
  lhsContracting := [0]
  rhsContracting := [0]
  lhsNonContracting := [1]
  rhsNonContracting := [1]
  lhsBatch := []
  rhsBatch := []
  wf := dot_S256x256_S256x256_S256x256_0_0_1_1_n_n_wf

abbrev win0_0 : Pipeline.Window sig grid0 :=
  Pipeline.Window.ofSpec (Memref.whole main_arg0) S1x512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x16x16x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x16x16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x16x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x512x64x64 : Shape := ⟨4, ![4, 512, 64, 64]⟩
abbrev S4x512x16x16 : Shape := ⟨4, ![4, 512, 16, 16]⟩
abbrev S_ : Shape := ⟨0, ![]⟩
abbrev S4x64x64 : Shape := ⟨3, ![4, 64, 64]⟩
abbrev S4x1x64x64 : Shape := ⟨4, ![4, 1, 64, 64]⟩
abbrev S4x512x16x4x16x4 : Shape := ⟨6, ![4, 512, 16, 4, 16, 4]⟩
abbrev S4x16x16 : Shape := ⟨3, ![4, 16, 16]⟩
abbrev S4x1x16x16 : Shape := ⟨4, ![4, 1, 16, 16]⟩
abbrev S4x512 : Shape := ⟨2, ![4, 512]⟩
abbrev S4x512x1x1 : Shape := ⟨4, ![4, 512, 1, 1]⟩
abbrev S4x1 : Shape := ⟨2, ![4, 1]⟩
abbrev S4x1x1x1 : Shape := ⟨4, ![4, 1, 1, 1]⟩
abbrev S2048x256 : Shape := ⟨2, ![2048, 256]⟩
abbrev S2048 : Shape := ⟨1, ![2048]⟩
abbrev S2048x1 : Shape := ⟨2, ![2048, 1]⟩
abbrev S524288 : Shape := ⟨1, ![524288]⟩
abbrev S524288x1 : Shape := ⟨2, ![524288, 1]⟩
abbrev S4x512x256 : Shape := ⟨3, ![4, 512, 256]⟩
abbrev S4x4096 : Shape := ⟨2, ![4, 4096]⟩
abbrev S4 : Shape := ⟨1, ![4]⟩
abbrev S16384 : Shape := ⟨1, ![16384]⟩
abbrev S1024 : Shape := ⟨1, ![1024]⟩
abbrev S16384x1 : Shape := ⟨2, ![16384, 1]⟩
abbrev S4x1x256 : Shape := ⟨3, ![4, 1, 256]⟩
abbrev S4x256 : Shape := ⟨2, ![4, 256]⟩
abbrev S1024x1 : Shape := ⟨2, ![1024, 1]⟩
abbrev S134217728 : Shape := ⟨1, ![134217728]⟩
abbrev S4x512x256x256 : Shape := ⟨4, ![4, 512, 256, 256]⟩
abbrev S4x512x256x1 : Shape := ⟨4, ![4, 512, 256, 1]⟩
abbrev S4x1x1x256 : Shape := ⟨4, ![4, 1, 1, 256]⟩
abbrev S4x1x1 : Shape := ⟨3, ![4, 1, 1]⟩

abbrev nBuf : Space → Nat
  | .hbm => 242
  | .vmem => 0
  | .smem => 0
  | _ => 0

abbrev hbmTy0_0 (i : Nat) : BufTy := match i % 128 with
  | 0 => ⟨S4x512x64x64, .f32⟩
  | 1 => ⟨S4x512x16x16, .f32⟩
  | 2 => ⟨S_, .f32⟩
  | 3 => ⟨S4x64x64, .f32⟩
  | 4 => ⟨S4x1x64x64, .f32⟩
  | 5 => ⟨S_, .f32⟩
  | 6 => ⟨S4x1x64x64, .f32⟩
  | 7 => ⟨S4x1x64x64, .f32⟩
  | 8 => ⟨S4x512x16x4x16x4, .f32⟩
  | 9 => ⟨S_, .f32⟩
  | 10 => ⟨S4x512x16x16, .f32⟩
  | 11 => ⟨S_, .f32⟩
  | 12 => ⟨S4x512x16x16, .f32⟩
  | 13 => ⟨S4x512x16x16, .f32⟩
  | 14 => ⟨S_, .f32⟩
  | 15 => ⟨S4x16x16, .f32⟩
  | 16 => ⟨S4x1x16x16, .f32⟩
  | 17 => ⟨S_, .f32⟩
  | 18 => ⟨S4x1x16x16, .f32⟩
  | 19 => ⟨S4x1x16x16, .f32⟩
  | 20 => ⟨S_, .f32⟩
  | 21 => ⟨S4x512, .f32⟩
  | 22 => ⟨S4x512x1x1, .f32⟩
  | 23 => ⟨S_, .f32⟩
  | 24 => ⟨S4x512, .f32⟩
  | 25 => ⟨S4x512x1x1, .f32⟩
  | 26 => ⟨S4x512x16x16, .f32⟩
  | 27 => ⟨S4x512x16x16, .f32⟩
  | 28 => ⟨S4x512x1x1, .f32⟩
  | 29 => ⟨S4x512x16x16, .f32⟩
  | 30 => ⟨S4x512x16x16, .f32⟩
  | 31 => ⟨S_, .f32⟩
  | 32 => ⟨S4x512x16x16, .f32⟩
  | 33 => ⟨S4x512x16x16, .f32⟩
  | 34 => ⟨S4x512x16x16, .i32⟩
  | 35 => ⟨S_, .i32⟩
  | 36 => ⟨S_, .i32⟩
  | 37 => ⟨S_, .i32⟩
  | 38 => ⟨S4x512x16x16, .i32⟩
  | 39 => ⟨S4x512x16x16, .i32⟩
  | 40 => ⟨S_, .i32⟩
  | 41 => ⟨S4x512x16x16, .i32⟩
  | 42 => ⟨S4x512x16x16, .i32⟩
  | 43 => ⟨S_, .f32⟩
  | 44 => ⟨S4x1, .f32⟩
  | 45 => ⟨S4x1x1x1, .f32⟩
  | 46 => ⟨S_, .f32⟩
  | 47 => ⟨S4x1, .f32⟩
  | 48 => ⟨S4x1x1x1, .f32⟩
  | 49 => ⟨S4x1x64x64, .f32⟩
  | 50 => ⟨S4x1x64x64, .f32⟩
  | 51 => ⟨S4x1x1x1, .f32⟩
  | 52 => ⟨S4x1x64x64, .f32⟩
  | 53 => ⟨S4x1x64x64, .f32⟩
  | 54 => ⟨S_, .f32⟩
  | 55 => ⟨S4x1x64x64, .f32⟩
  | 56 => ⟨S4x1x64x64, .f32⟩
  | 57 => ⟨S4x1x64x64, .i32⟩
  | 58 => ⟨S_, .i32⟩
  | 59 => ⟨S_, .i32⟩
  | 60 => ⟨S_, .i32⟩
  | 61 => ⟨S4x1x64x64, .i32⟩
  | 62 => ⟨S4x1x64x64, .i32⟩
  | 63 => ⟨S_, .i32⟩
  | 64 => ⟨S4x1x64x64, .i32⟩
  | 65 => ⟨S4x1x64x64, .i32⟩
  | 66 => ⟨S_, .f32⟩
  | 67 => ⟨S4x1, .f32⟩
  | 68 => ⟨S4x1x1x1, .f32⟩
  | 69 => ⟨S_, .f32⟩
  | 70 => ⟨S4x1, .f32⟩
  | 71 => ⟨S4x1x1x1, .f32⟩
  | 72 => ⟨S4x1x16x16, .f32⟩
  | 73 => ⟨S4x1x16x16, .f32⟩
  | 74 => ⟨S4x1x1x1, .f32⟩
  | 75 => ⟨S4x1x16x16, .f32⟩
  | 76 => ⟨S4x1x16x16, .f32⟩
  | 77 => ⟨S_, .f32⟩
  | 78 => ⟨S4x1x16x16, .f32⟩
  | 79 => ⟨S4x1x16x16, .f32⟩
  | 80 => ⟨S4x1x16x16, .i32⟩
  | 81 => ⟨S_, .i32⟩
  | 82 => ⟨S_, .i32⟩
  | 83 => ⟨S_, .i32⟩
  | 84 => ⟨S4x1x16x16, .i32⟩
  | 85 => ⟨S4x1x16x16, .i32⟩
  | 86 => ⟨S_, .i32⟩
  | 87 => ⟨S4x1x16x16, .i32⟩
  | 88 => ⟨S4x1x16x16, .i32⟩
  | 89 => ⟨S2048x256, .i32⟩
  | 90 => ⟨S2048, .i32⟩
  | 91 => ⟨S2048x1, .i32⟩
  | 92 => ⟨S_, .i32⟩
  | 93 => ⟨S2048x1, .i32⟩
  | 94 => ⟨S2048x1, .i32⟩
  | 95 => ⟨S2048x256, .i32⟩
  | 96 => ⟨S2048x256, .i32⟩
  | 97 => ⟨S524288, .i32⟩
  | 98 => ⟨S_, .f32⟩
  | 99 => ⟨S524288, .f32⟩
  | 100 => ⟨S_, .f32⟩
  | 101 => ⟨S524288, .f32⟩
  | 102 => ⟨S524288x1, .i32⟩
  | 103 => ⟨S524288, .f32⟩
  | 104 => ⟨S4x512x256, .f32⟩
  | 105 => ⟨S_, .f32⟩
  | 106 => ⟨S4x512x256, .f32⟩
  | 107 => ⟨S4x512x256, .f32⟩
  | 108 => ⟨S_, .f32⟩
  | 109 => ⟨S4x512x256, .f32⟩
  | 110 => ⟨S4x512x256, .f32⟩
  | 111 => ⟨S4x512x256, .f32⟩
  | 112 => ⟨S4x512x256, .f32⟩
  | 113 => ⟨S_, .f32⟩
  | 114 => ⟨S4x512, .f32⟩
  | 115 => ⟨S4x512, .f32⟩
  | 116 => ⟨S4x512x1x1, .f32⟩
  | 117 => ⟨S4x4096, .i32⟩
  | 118 => ⟨S4, .i32⟩
  | 119 => ⟨S4x1, .i32⟩
  | 120 => ⟨S_, .i32⟩
  | 121 => ⟨S4x1, .i32⟩
  | 122 => ⟨S4x1, .i32⟩
  | 123 => ⟨S4x4096, .i32⟩
  | 124 => ⟨S4x4096, .i32⟩
  | 125 => ⟨S16384, .i32⟩
  | 126 => ⟨S_, .f32⟩
  | 127 => ⟨S16384, .f32⟩
  | _ => ⟨S4x512x64x64, .f32⟩

abbrev hbmTy0_1 (i : Nat) : BufTy := match i % 128 with
  | 0 => ⟨S_, .f32⟩
  | 1 => ⟨S1024, .f32⟩
  | 2 => ⟨S16384x1, .i32⟩
  | 3 => ⟨S1024, .f32⟩
  | 4 => ⟨S4x1x256, .f32⟩
  | 5 => ⟨S_, .f32⟩
  | 6 => ⟨S4x1x256, .f32⟩
  | 7 => ⟨S4x1x256, .f32⟩
  | 8 => ⟨S_, .f32⟩
  | 9 => ⟨S4x1x256, .f32⟩
  | 10 => ⟨S4x1x256, .f32⟩
  | 11 => ⟨S4x1x256, .f32⟩
  | 12 => ⟨S4x1x256, .f32⟩
  | 13 => ⟨S_, .f32⟩
  | 14 => ⟨S4x1, .f32⟩
  | 15 => ⟨S4x1, .f32⟩
  | 16 => ⟨S4x1x1x1, .f32⟩
  | 17 => ⟨S2048x256, .i32⟩
  | 18 => ⟨S2048, .i32⟩
  | 19 => ⟨S2048x1, .i32⟩
  | 20 => ⟨S_, .i32⟩
  | 21 => ⟨S2048x1, .i32⟩
  | 22 => ⟨S2048x1, .i32⟩
  | 23 => ⟨S2048x256, .i32⟩
  | 24 => ⟨S2048x256, .i32⟩
  | 25 => ⟨S524288, .i32⟩
  | 26 => ⟨S_, .f32⟩
  | 27 => ⟨S524288, .f32⟩
  | 28 => ⟨S_, .f32⟩
  | 29 => ⟨S524288, .f32⟩
  | 30 => ⟨S524288x1, .i32⟩
  | 31 => ⟨S524288, .f32⟩
  | 32 => ⟨S4x512x256, .f32⟩
  | 33 => ⟨S4x256, .i32⟩
  | 34 => ⟨S4, .i32⟩
  | 35 => ⟨S4x1, .i32⟩
  | 36 => ⟨S_, .i32⟩
  | 37 => ⟨S4x1, .i32⟩
  | 38 => ⟨S4x1, .i32⟩
  | 39 => ⟨S4x256, .i32⟩
  | 40 => ⟨S4x256, .i32⟩
  | 41 => ⟨S1024, .i32⟩
  | 42 => ⟨S_, .f32⟩
  | 43 => ⟨S1024, .f32⟩
  | 44 => ⟨S_, .f32⟩
  | 45 => ⟨S1024, .f32⟩
  | 46 => ⟨S1024x1, .i32⟩
  | 47 => ⟨S1024, .f32⟩
  | 48 => ⟨S4x1x256, .f32⟩
  | 49 => ⟨S_, .i32⟩
  | 50 => ⟨S4x512x16x16, .i32⟩
  | 51 => ⟨S4x512x16x16, .i32⟩
  | 52 => ⟨S4x512x16x16, .i32⟩
  | 53 => ⟨S4x512x16x16, .i32⟩
  | 54 => ⟨S2048x256, .i32⟩
  | 55 => ⟨S2048, .i32⟩
  | 56 => ⟨S2048x1, .i32⟩
  | 57 => ⟨S_, .i32⟩
  | 58 => ⟨S2048x1, .i32⟩
  | 59 => ⟨S2048x1, .i32⟩
  | 60 => ⟨S2048x256, .i32⟩
  | 61 => ⟨S2048x256, .i32⟩
  | 62 => ⟨S524288, .i32⟩
  | 63 => ⟨S_, .f32⟩
  | 64 => ⟨S524288, .f32⟩
  | 65 => ⟨S_, .f32⟩
  | 66 => ⟨S134217728, .f32⟩
  | 67 => ⟨S524288x1, .i32⟩
  | 68 => ⟨S134217728, .f32⟩
  | 69 => ⟨S4x512x256x256, .f32⟩
  | 70 => ⟨S4x512x256x1, .f32⟩
  | 71 => ⟨S_, .f32⟩
  | 72 => ⟨S4x512x256x1, .f32⟩
  | 73 => ⟨S4x512x256x1, .f32⟩
  | 74 => ⟨S4x1x1x256, .f32⟩
  | 75 => ⟨S4x512x256x256, .f32⟩
  | 76 => ⟨S4x512x256x256, .f32⟩
  | 77 => ⟨S4x512x256x256, .f32⟩
  | 78 => ⟨S_, .f32⟩
  | 79 => ⟨S4x512x256x256, .f32⟩
  | 80 => ⟨S4x512x256x256, .f32⟩
  | 81 => ⟨S4x512x256x256, .f32⟩
  | 82 => ⟨S_, .f32⟩
  | 83 => ⟨S4x512x256x256, .f32⟩
  | 84 => ⟨S4x512x256x256, .f32⟩
  | 85 => ⟨S_, .f32⟩
  | 86 => ⟨S4x512x256x256, .f32⟩
  | 87 => ⟨S4x512x256x256, .f32⟩
  | 88 => ⟨S4x512x256x256, .f32⟩
  | 89 => ⟨S4x512x256x256, .f32⟩
  | 90 => ⟨S_, .f32⟩
  | 91 => ⟨S4x512, .f32⟩
  | 92 => ⟨S4x512, .f32⟩
  | 93 => ⟨S4x512x1x1, .f32⟩
  | 94 => ⟨S4x512x1x1, .f32⟩
  | 95 => ⟨S4x512x1x1, .f32⟩
  | 96 => ⟨S4x512x1x1, .f32⟩
  | 97 => ⟨S_, .f32⟩
  | 98 => ⟨S4x1x1, .f32⟩
  | 99 => ⟨S_, .f32⟩
  | 100 => ⟨S4x1x1, .f32⟩
  | 101 => ⟨S4x1x1, .f32⟩
  | 102 => ⟨S4x1x1x1, .f32⟩
  | 103 => ⟨S4x512x1x1, .f32⟩
  | 104 => ⟨S4x512x1x1, .f32⟩
  | 105 => ⟨S4x512x1x1, .f32⟩
  | 106 => ⟨S_, .f32⟩
  | 107 => ⟨S4x1x1, .f32⟩
  | 108 => ⟨S4x1x1x1, .f32⟩
  | 109 => ⟨S4x512x1x1, .f32⟩
  | 110 => ⟨S4x512x1x1, .f32⟩
  | 111 => ⟨S4x512x16x16, .f32⟩
  | 112 => ⟨S4x512x16x16, .f32⟩
  | 113 => ⟨S4x512x16x16, .f32⟩
  | _ => ⟨S4x512x64x64, .f32⟩

abbrev hbmTy (i : Nat) : BufTy := match i / 128 with
  | 0 => hbmTy0_0 i
  | 1 => hbmTy0_1 i
  | _ => ⟨S4x512x64x64, .f32⟩

abbrev bufTy : (tb : Table) → Fin (tcTables nBuf tb) → BufTy
  | .hbm, ⟨i, _⟩ => hbmTy i
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_c_8 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_c_13 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_cst_14 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_17 : Ref sig .tc := ⟨.hbm, 81, rfl⟩
abbrev main_c_18 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_19 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_20 : Ref sig .tc := ⟨.hbm, 98, rfl⟩
abbrev main_v59 : Ref sig .tc := ⟨.hbm, 99, rfl⟩
abbrev main_cst_21 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_22 : Ref sig .tc := ⟨.hbm, 105, rfl⟩
abbrev main_v64 : Ref sig .tc := ⟨.hbm, 106, rfl⟩
abbrev main_v65 : Ref sig .tc := ⟨.hbm, 107, rfl⟩
abbrev main_cst_23 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_24 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_25 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_26 : Ref sig .tc := ⟨.hbm, 126, rfl⟩
abbrev main_v81 : Ref sig .tc := ⟨.hbm, 127, rfl⟩
abbrev main_cst_27 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_28 : Ref sig .tc := ⟨.hbm, 133, rfl⟩
abbrev main_v86 : Ref sig .tc := ⟨.hbm, 134, rfl⟩
abbrev main_v87 : Ref sig .tc := ⟨.hbm, 135, rfl⟩
abbrev main_cst_29 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_30 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_31 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_32 : Ref sig .tc := ⟨.hbm, 154, rfl⟩
abbrev main_v103 : Ref sig .tc := ⟨.hbm, 155, rfl⟩
abbrev main_cst_33 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_34 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_35 : Ref sig .tc := ⟨.hbm, 170, rfl⟩
abbrev main_v116 : Ref sig .tc := ⟨.hbm, 171, rfl⟩
abbrev main_cst_36 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_37 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_c_38 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_39 : Ref sig .tc := ⟨.hbm, 191, rfl⟩
abbrev main_v133 : Ref sig .tc := ⟨.hbm, 192, rfl⟩
abbrev main_cst_40 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_41 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_42 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_43 : Ref sig .tc := ⟨.hbm, 210, rfl⟩
abbrev main_v148 : Ref sig .tc := ⟨.hbm, 211, rfl⟩
abbrev main_v149 : Ref sig .tc := ⟨.hbm, 212, rfl⟩
abbrev main_cst_44 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_45 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_46 : Ref sig .tc := ⟨.hbm, 225, rfl⟩
abbrev main_v160 : Ref sig .tc := ⟨.hbm, 226, rfl⟩
abbrev main_cst_47 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_48 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩

abbrev nD : Nat := 1
abbrev τ : Topo := Topo.v7x

variable {F : FTy → Type} [FloatOps F]

class Facts₀ : Prop where
  reducesTo_S4x512x64x64_S4x64x64_d1 : S4x512x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  shapeCasts_S4x512x64x64_S4x512x16x4x16x4 : S4x512x64x64.ShapeCasts S4x512x16x4x16x4
  reducesTo_S4x512x16x4x16x4_S4x512x16x16_d3_5 : S4x512x16x4x16x4.ReducesTo [3, 5] S4x512x16x16
  bcast_S_S4x512x16x16 : S_.BroadcastsInDim S4x512x16x16 (![] : Fin 0 → Fin S4x512x16x16.rank)
  reducesTo_S4x512x16x16_S4x16x16_d1 : S4x512x16x16.ReducesTo [1] S4x16x16
  bcast_S4x16x16_S4x1x16x16_0_2_3 : S4x16x16.BroadcastsInDim S4x1x16x16 (![0, 2, 3] : Fin 3 → Fin S4x1x16x16.rank)
  bcast_S_S4x1x16x16 : S_.BroadcastsInDim S4x1x16x16 (![] : Fin 0 → Fin S4x1x16x16.rank)
  reducesTo_S4x512x16x16_S4x512_d2_3 : S4x512x16x16.ReducesTo [2, 3] S4x512
  bcast_S4x512_S4x512x1x1_0_1 : S4x512.BroadcastsInDim S4x512x1x1 (![0, 1] : Fin 2 → Fin S4x512x1x1.rank)
  bcast_S4x512x1x1_S4x512x16x16_0_1_2_3 : S4x512x1x1.BroadcastsInDim S4x512x16x16 (![0, 1, 2, 3] : Fin 4 → Fin S4x512x16x16.rank)
  reducesTo_S4x1x64x64_S4x1_d2_3 : S4x1x64x64.ReducesTo [2, 3] S4x1
  bcast_S4x1_S4x1x1x1_0_1 : S4x1.BroadcastsInDim S4x1x1x1 (![0, 1] : Fin 2 → Fin S4x1x1x1.rank)
  bcast_S4x1x1x1_S4x1x64x64_0_1_2_3 : S4x1x1x1.BroadcastsInDim S4x1x64x64 (![0, 1, 2, 3] : Fin 4 → Fin S4x1x64x64.rank)
  reducesTo_S4x1x16x16_S4x1_d2_3 : S4x1x16x16.ReducesTo [2, 3] S4x1
  bcast_S4x1x1x1_S4x1x16x16_0_1_2_3 : S4x1x1x1.BroadcastsInDim S4x1x16x16 (![0, 1, 2, 3] : Fin 4 → Fin S4x1x16x16.rank)
  shapeCasts_S4x512x16x16_S2048x256 : S4x512x16x16.ShapeCasts S2048x256
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  shapeCasts_S2048x256_S524288 : S2048x256.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  shapeCasts_S524288_S4x512x256 : S524288.ShapeCasts S4x512x256
  bcast_S_S4x512x256 : S_.BroadcastsInDim S4x512x256 (![] : Fin 0 → Fin S4x512x256.rank)
  reducesTo_S4x512x256_S4x512_d2 : S4x512x256.ReducesTo [2] S4x512
  shapeCasts_S4x1x64x64_S4x4096 : S4x1x64x64.ShapeCasts S4x4096
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  shapeCasts_S4x4096_S16384 : S4x4096.ShapeCasts S16384
  bcast_S_S16384 : S_.BroadcastsInDim S16384 (![] : Fin 0 → Fin S16384.rank)
  bcast_S_S1024 : S_.BroadcastsInDim S1024 (![] : Fin 0 → Fin S1024.rank)
  bcast_S16384_S16384x1_0 : S16384.BroadcastsInDim S16384x1 (![0] : Fin 1 → Fin S16384x1.rank)
  shapeCasts_S1024_S4x1x256 : S1024.ShapeCasts S4x1x256
  bcast_S_S4x1x256 : S_.BroadcastsInDim S4x1x256 (![] : Fin 0 → Fin S4x1x256.rank)
  reducesTo_S4x1x256_S4x1_d2 : S4x1x256.ReducesTo [2] S4x1
  shapeCasts_S4x1x16x16_S4x256 : S4x1x16x16.ShapeCasts S4x256
  bcast_S4x1_S4x256_0_1 : S4x1.BroadcastsInDim S4x256 (![0, 1] : Fin 2 → Fin S4x256.rank)
  shapeCasts_S4x256_S1024 : S4x256.ShapeCasts S1024
  bcast_S1024_S1024x1_0 : S1024.BroadcastsInDim S1024x1 (![0] : Fin 1 → Fin S1024x1.rank)
  bcast_S4x1x16x16_S4x512x16x16_0_1_2_3 : S4x1x16x16.BroadcastsInDim S4x512x16x16 (![0, 1, 2, 3] : Fin 4 → Fin S4x512x16x16.rank)
  bcast_S_S134217728 : S_.BroadcastsInDim S134217728 (![] : Fin 0 → Fin S134217728.rank)
  shapeCasts_S134217728_S4x512x256x256 : S134217728.ShapeCasts S4x512x256x256
  bcast_S4x512x256_S4x512x256x1_0_1_2 : S4x512x256.BroadcastsInDim S4x512x256x1 (![0, 1, 2] : Fin 3 → Fin S4x512x256x1.rank)
  bcast_S_S4x512x256x1 : S_.BroadcastsInDim S4x512x256x1 (![] : Fin 0 → Fin S4x512x256x1.rank)
  bcast_S4x1x256_S4x1x1x256_0_1_3 : S4x1x256.BroadcastsInDim S4x1x1x256 (![0, 1, 3] : Fin 3 → Fin S4x1x1x256.rank)
  bcast_S4x512x256x1_S4x512x256x256_0_1_2_3 : S4x512x256x1.BroadcastsInDim S4x512x256x256 (![0, 1, 2, 3] : Fin 4 → Fin S4x512x256x256.rank)
  bcast_S4x1x1x256_S4x512x256x256_0_1_2_3 : S4x1x1x256.BroadcastsInDim S4x512x256x256 (![0, 1, 2, 3] : Fin 4 → Fin S4x512x256x256.rank)
  bcast_S_S4x512x256x256 : S_.BroadcastsInDim S4x512x256x256 (![] : Fin 0 → Fin S4x512x256x256.rank)
  reducesTo_S4x512x256x256_S4x512_d2_3 : S4x512x256x256.ReducesTo [2, 3] S4x512
  bcast_S4x1x1x1_S4x512x1x1_0_1_2_3 : S4x1x1x1.BroadcastsInDim S4x512x1x1 (![0, 1, 2, 3] : Fin 4 → Fin S4x512x1x1.rank)
  reducesTo_S4x512x1x1_S4x1x1_d1 : S4x512x1x1.ReducesTo [1] S4x1x1
  bcast_S_S4x1x1 : S_.BroadcastsInDim S4x1x1 (![] : Fin 0 → Fin S4x1x1.rank)
  bcast_S4x1x1_S4x1x1x1_0_2_3 : S4x1x1.BroadcastsInDim S4x1x1x1 (![0, 2, 3] : Fin 3 → Fin S4x1x1x1.rank)
  scatter_S524288_S524288x1_S524288_n_0_0_1_wf : ScatterDims.WF S524288 S524288x1 S524288 [] [0] [0] 1
  scatter_S1024_S16384x1_S16384_n_0_0_1_wf : ScatterDims.WF S1024 S16384x1 S16384 [] [0] [0] 1
  scatter_S1024_S1024x1_S1024_n_0_0_1_wf : ScatterDims.WF S1024 S1024x1 S1024 [] [0] [0] 1
  scatter_S134217728_S524288x1_S524288_n_0_0_1_wf : ScatterDims.WF S134217728 S524288x1 S524288 [] [0] [0] 1

variable [Facts₀]

def scatter_S524288_S524288x1_S524288_n_0_0_1 : ScatterDims S524288 S524288x1 S524288 where
  updateWindowDims := []
  insertedWindowDims := [0]
  scatterDimsToOperandDims := [0]
  indexVectorDim := 1
  wf := scatter_S524288_S524288x1_S524288_n_0_0_1_wf
def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def scatter_S1024_S1024x1_S1024_n_0_0_1 : ScatterDims S1024 S1024x1 S1024 where
  updateWindowDims := []
  insertedWindowDims := [0]
  scatterDimsToOperandDims := [0]
  indexVectorDim := 1
  wf := scatter_S1024_S1024x1_S1024_n_0_0_1_wf
def scatter_S134217728_S524288x1_S524288_n_0_0_1 : ScatterDims S134217728 S524288x1 S524288 where
  updateWindowDims := []
  insertedWindowDims := [0]
  scatterDimsToOperandDims := [0]
  indexVectorDim := 1
  wf := scatter_S134217728_S524288x1_S524288_n_0_0_1_wf

class Facts : Prop extends Facts₀ where

variable [Facts]
-- ==== Proof.KernelRun.lean ====
/-
  The idealized kernel program's run with its RESULT array named: every weakly fair execution of @main ends
  with the result buffer at the contents the last host stretch leaves (`Gen.W8`: the fold of @main's host
  operations and of the two regions' write-backs over the launch memory) and the two arguments as launched.
  The run is the frame's: the same launch over the same segments, read at one more buffer at the end.
-/
import proofs.«139526_j23605140259217_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       (h c _ (mem_uc main_arg0 (by decide))).trans (W8_main_arg0 m ρ c),
       (h c _ (mem_uc main_arg1 (by decide))).trans (W8_main_arg1 m ρ c)⟩)

end Cert.KernelIdeal.ValueRun

end
-- ==== Proof.HostValue.lean ====
/-
  The host stretches of the idealized kernel program as functions of the arrays they read.

  Between and after its two regions the program runs plain array operations. Read as functions: `pool` (4×4 block
  means of a [4,1,64,64] map), `norm64` / `norm16` (a map's grey levels: per batch element the affine rescale of
  its values to [0,255] between its minimum and maximum, truncated and clipped), `entropy64` (the entropy of a
  quantised [4,1,64,64] map's level frequencies, the histogram a scatter of ones), `onehot16` (the one-hot table of a
  quantised [4,1,16,16] map against the 256 levels) and `tail4` (a softmax over the channel axis of a [4,512,1,1]
  score, then `x + x · softmax`). The theorems read the result buffers of the stretches through the fold of the
  operations: each is one of these functions of what the stretch found in the buffers it reads.
-/
import proofs.«139526_j23605140259217_2_alg».proof.Proof.Gen.KernelIdeal.Launch
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.StableHlo

variable {F : FTy → Type} [FloatOps F]

/-- 4×4 block means: the map cut into [16,4,16,4], summed over the two inner axes, divided by 16. -/
def pool (A : FVec F S4x1x64x64 .f32) : FVec F S4x1x16x16 .f32 :=
  Host.divf
    (Host.reduceAdd (shapeCast S4x1x16x4x16x4 A shapeCasts_S4x1x64x64_S4x1x16x4x16x4) (constant (F := F) S_ .f32 0x00000000#32)
      reducesTo_S4x1x16x4x16x4_S4x1x16x16_d3_5 h_S_)
    (broadcastInDim S4x1x16x16 ![] bcast_S_S4x1x16x16 (constant (F := F) S_ .f32 0x41800000#32))

/-- Grey levels of a [4,1,64,64] map: `clip (trunc ((x - mn) / (mx - mn) · 255), 0, 255)`, the extrema per batch element. -/
def norm64 (A : FVec F S4x1x64x64 .f32) : IVec S4x1x64x64 32 :=
  let mx : FVec F S4x1x1x1 .f32 := broadcastInDim S4x1x1x1 ![0, 1] bcast_S4x1_S4x1x1x1_0_1
    (Host.reduce FloatOps.maximumf A (constant (F := F) S_ .f32 0xFF800000#32) reducesTo_S4x1x64x64_S4x1_d2_3 h_S_)
  let mn : FVec F S4x1x1x1 .f32 := broadcastInDim S4x1x1x1 ![0, 1] bcast_S4x1_S4x1x1x1_0_1
    (Host.reduce FloatOps.minimumf A (constant (F := F) S_ .f32 0x7F800000#32) reducesTo_S4x1x64x64_S4x1_d2_3 h_S_)
  let num : FVec F S4x1x64x64 .f32 := subf A (broadcastInDim S4x1x64x64 ![0, 1, 2, 3] bcast_S4x1x1x1_S4x1x64x64_0_1_2_3 mn)
  let den : FVec F S4x1x64x64 .f32 := broadcastInDim S4x1x64x64 ![0, 1, 2, 3] bcast_S4x1x1x1_S4x1x64x64_0_1_2_3 (subf mx mn)
  let rel : FVec F S4x1x64x64 .f32 := mulf (Host.divf num den)
    (broadcastInDim S4x1x64x64 ![] bcast_S_S4x1x64x64 (constant (F := F) S_ .f32 0x437F0000#32))
  let q : IVec S4x1x64x64 32 := fptosi 32 rel
  minsi (broadcastInDim S4x1x64x64 ![] bcast_S_S4x1x64x64 (constantI S_ 32 255#32))
    (maxsi (broadcastInDim S4x1x64x64 ![] bcast_S_S4x1x64x64 (constantI S_ 32 0#32)) q)

/-- Grey levels of a [4,1,16,16] map, likewise. -/
def norm16 (P : FVec F S4x1x16x16 .f32) : IVec S4x1x16x16 32 :=
  let mx : FVec F S4x1x1x1 .f32 := broadcastInDim S4x1x1x1 ![0, 1] bcast_S4x1_S4x1x1x1_0_1
    (Host.reduce FloatOps.maximumf P (constant (F := F) S_ .f32 0xFF800000#32) reducesTo_S4x1x16x16_S4x1_d2_3 h_S_)
  let mn : FVec F S4x1x1x1 .f32 := broadcastInDim S4x1x1x1 ![0, 1] bcast_S4x1_S4x1x1x1_0_1
    (Host.reduce FloatOps.minimumf P (constant (F := F) S_ .f32 0x7F800000#32) reducesTo_S4x1x16x16_S4x1_d2_3 h_S_)
  let num : FVec F S4x1x16x16 .f32 := subf P (broadcastInDim S4x1x16x16 ![0, 1, 2, 3] bcast_S4x1x1x1_S4x1x16x16_0_1_2_3 mn)
  let den : FVec F S4x1x16x16 .f32 := broadcastInDim S4x1x16x16 ![0, 1, 2, 3] bcast_S4x1x1x1_S4x1x16x16_0_1_2_3 (subf mx mn)
  let rel : FVec F S4x1x16x16 .f32 := mulf (Host.divf num den)
    (broadcastInDim S4x1x16x16 ![] bcast_S_S4x1x16x16 (constant (F := F) S_ .f32 0x437F0000#32))
  let q : IVec S4x1x16x16 32 := fptosi 32 rel
  minsi (broadcastInDim S4x1x16x16 ![] bcast_S_S4x1x16x16 (constantI S_ 32 255#32))
    (maxsi (broadcastInDim S4x1x16x16 ![] bcast_S_S4x1x16x16 (constantI S_ 32 0#32)) q)

/-- The entropy `-∑ p log (p + ε)` of a quantised [4,1,64,64] map's level frequencies `p = hist / 4096`, per batch
    element; the histogram is a scatter of ones at `256 · batch + level`. -/
def entropy64 (X : IVec S4x1x64x64 32) : FVec F S4x1x1x1 .f32 :=
  let flat : IVec S4x4096 32 := shapeCast S4x4096 X shapeCasts_S4x1x64x64_S4x4096
  let rows : IVec S4x1 32 := muli (broadcastInDim S4x1 ![0] bcast_S4_S4x1_0 (iotaInDim S4 32 0))
    (broadcastInDim S4x1 ![] bcast_S_S4x1 (constantI S_ 32 256#32))
  let idx : IVec S16384 32 := shapeCast S16384 (addi (broadcastInDim S4x4096 ![0, 1] bcast_S4x1_S4x4096_0_1 rows) flat) shapeCasts_S4x4096_S16384
  let ones : FVec F S16384 .f32 := broadcastInDim S16384 ![] bcast_S_S16384 (constant (F := F) S_ .f32 0x3F800000#32)
  let zeros : FVec F S1024 .f32 := broadcastInDim S1024 ![] bcast_S_S1024 (constant (F := F) S_ .f32 0x00000000#32)
  let hist : FVec F S1024 .f32 := Host.scatterAdd scatter_S1024_S16384x1_S16384_n_0_0_1 zeros
    (broadcastInDim S16384x1 ![0] bcast_S16384_S16384x1_0 idx) ones
  let p : FVec F S4x1x256 .f32 := Host.divf (shapeCast S4x1x256 hist shapeCasts_S1024_S4x1x256)
    (broadcastInDim S4x1x256 ![] bcast_S_S4x1x256 (constant (F := F) S_ .f32 0x45800000#32))
  let lg : FVec F S4x1x256 .f32 := Host.log (addf p (broadcastInDim S4x1x256 ![] bcast_S_S4x1x256 (constant (F := F) S_ .f32 0x322BCC77#32)))
  let s : FVec F S4x1 .f32 := Host.reduceAdd (mulf p lg) (constant (F := F) S_ .f32 0x00000000#32) reducesTo_S4x1x256_S4x1_d2 h_S_
  broadcastInDim S4x1x1x1 ![0, 1] bcast_S4x1_S4x1x1x1_0_1 (Host.negf s)

/-- The one-hot table of a quantised [4,1,16,16] map: entry (b,h,w,k) is 1 when pixel (h,w) of batch element b sits at level k. -/
def onehot16 (X : IVec S4x1x16x16 32) : FVec F S4x16x16x256 .f32 :=
  let a : IVec S4x16x16x256 32 := broadcastInDim S4x16x16x256 ![0, 1, 2, 3] bcast_S4x16x16x1_S4x16x16x256_0_1_2_3
    (broadcastInDim S4x16x16x1 ![0, 1, 2] bcast_S4x16x16_S4x16x16x1_0_1_2 (shapeCast S4x16x16 X shapeCasts_S4x1x16x16_S4x16x16))
  let b : IVec S4x16x16x256 32 := broadcastInDim S4x16x16x256 ![0, 1, 2, 3] bcast_S1x1x1x256_S4x16x16x256_0_1_2_3
    (broadcastInDim S1x1x1x256 ![3] bcast_S256_S1x1x1x256_3 (iotaInDim S256 32 0))
  uitofp .f32 (cmpi .eq a b)

/-- The tail: a softmax of the score over the channel axis, then `x + x · softmax` broadcast over the pixels. -/
def tail4 (a1 : FVec F S4x512x16x16 .f32) (s : FVec F S4x512x1x1 .f32) : FVec F S4x512x16x16 .f32 :=
  let mx : FVec F S4x1x1 .f32 := maximumf (broadcastInDim S4x1x1 ![] bcast_S_S4x1x1 (constant (F := F) S_ .f32 0xFF800000#32))
    (Host.reduce FloatOps.maximumf s (constant (F := F) S_ .f32 0xFF800000#32) reducesTo_S4x512x1x1_S4x1x1_d1 h_S_)
  let e : FVec F S4x512x1x1 .f32 := Host.exp (subf s (broadcastInDim S4x512x1x1 ![0, 1, 2, 3] bcast_S4x1x1x1_S4x512x1x1_0_1_2_3
    (broadcastInDim S4x1x1x1 ![0, 2, 3] bcast_S4x1x1_S4x1x1x1_0_2_3 mx)))
  let z : FVec F S4x1x1 .f32 := Host.reduceAdd e (constant (F := F) S_ .f32 0x00000000#32) reducesTo_S4x512x1x1_S4x1x1_d1 h_S_
  let sm : FVec F S4x512x1x1 .f32 := Host.divf e (broadcastInDim S4x512x1x1 ![0, 1, 2, 3] bcast_S4x1x1x1_S4x512x1x1_0_1_2_3
    (broadcastInDim S4x1x1x1 ![0, 2, 3] bcast_S4x1x1_S4x1x1x1_0_2_3 z))
  addf a1 (mulf a1 (broadcastInDim S4x512x16x16 ![0, 1, 2, 3] bcast_S4x512x1x1_S4x512x16x16_0_1_2_3 sm))

set_option maxHeartbeats 8000000 in
/-- The last stretch leaves in the result buffer the tail of the first argument and the second region's output array. -/
theorem read_tail (W : Valuation τ sig (Elt F)) :
    after (hostOps2 (F := F)) W (Proc.devRef .tc main_v77)
      = tail4 (W (Proc.devRef .tc main_arg1)) (shapeCast S4x512x1x1 (W (Proc.devRef .tc main_v62)) shapeCasts_S4x512x1_S4x512x1x1) := by
  after_results_simp
  rfl

end Cert.KernelIdeal.HostValue

end
-- ==== Proof.HostMid.lean ====
/-
  The host stretch between the two regions, read at the two buffers the second region takes from it: the one-hot
  table is `onehot16` of the grey levels of the pooled first-region output, and the reference-map entropy is
  `entropy64` of the grey levels of the first-region output itself (flattened to [4,1,1]).
-/
import proofs.«139526_j23605140259217_2_alg».proof.Proof.HostValue

set_option maxRecDepth 16384

noncomputable section

namespace Cert.KernelIdeal.HostValue

open Cert.KernelIdeal Cert.KernelIdeal.Gen Idealize.ShloMosaic Idealize.ShloMosaic.TcCoe Idealize.ShloMosaic.StableHlo

variable {F : FTy → Type} [FloatOps F]

set_option maxHeartbeats 64000000 in
/-- The one-hot table the second region reads. -/
theorem read_onehot (W : Valuation τ sig (Elt F)) :
    after (hostOps1_4 (F := F)) (after (hostOps1_3 (F := F)) (after (hostOps1_2 (F := F)) (after (hostOps1_1 (F := F)) (after (hostOps1 (F := F)) W))))
        (Proc.devRef .tc main_v61)
      = onehot16 (norm16 (pool (W (Proc.devRef .tc main_v0)))) := by
  after_results_simp
  rfl

set_option maxHeartbeats 64000000 in
/-- The reference-map entropy the second region reads. -/
theorem read_entropy (W : Valuation τ sig (Elt F)) :
    after (hostOps1_4 (F := F)) (after (hostOps1_3 (F := F)) (after (hostOps1_2 (F := F)) (after (hostOps1_1 (F := F)) (after (hostOps1 (F := F)) W))))
        (Proc.devRef .tc main_v53)
      = shapeCast S4x1x1 (entropy64 (norm64 (W (Proc.devRef .tc main_v0)))) shapeCasts_S4x1x1x1_S4x1x1 := by
  after_results_simp
  rfl

end Cert.KernelIdeal.HostValue

end
-- ==== Proof.OneHot.lean ====
/-
  The one-hot table and three flattenings, read at an index (at the extended reals).

  `onehot16 X` at (b, h, w, k) is 1 when the quantised map's pixel (h, w) of batch element b sits at level k, else 0:
  the comparison of the level, broadcast along the last axis, with the counter 0 … 255 broadcast along the first
  three, converted to a float. The flattenings only add or drop axes of length one.
-/
import proofs.«139526_j23605140259217_2_alg».proof.Proof.HostValue
import Idealize.ShloMosaic.Lib.Pipeline.Value
import Idealize.ShloMosaic.Lib.ValueIdx
import Idealize.ShloMosaic.PureOps.Ideal

set_option maxRecDepth 16384

noncomputable section

namespace Cert.KernelIdeal.HostValue

open Cert.KernelIdeal Idealize.ShloMosaic Idealize.ShloMosaic.ValueIdx

/-- Dropping the unit channel axis of a [4,1,16,16] array. -/
theorem shapeCast_drop1_apply {α : Type} (X : S4x1x16x16.Idx → α) (hc : S4x1x16x16.ShapeCasts S4x16x16) (b : Fin 4) (h w : Fin 16) :
    shapeCast S4x16x16 X hc (ix3 b h w) = X (ix4 b (0 : Fin 1) h w) :=
  shapeCast_apply X hc _ _ (by
    rw [Shape.rowMajor_val_four, Shape.rowMajor_val_three]
    show ((b.val * 1 + 0) * 16 + h.val) * 16 + w.val = (b.val * 16 + h.val) * 16 + w.val
    rw [Nat.mul_one, Nat.add_zero])

/-- Dropping one trailing unit axis of a [4,1,1,1] array. -/
theorem shapeCast_4111_411_apply {α : Type} (X : S4x1x1x1.Idx → α) (hc : S4x1x1x1.ShapeCasts S4x1x1) (b : Fin 4) :
    shapeCast S4x1x1 X hc (ix3 b (0 : Fin 1) (0 : Fin 1)) = X (ix4 b (0 : Fin 1) (0 : Fin 1) (0 : Fin 1)) :=
  shapeCast_apply X hc _ _ (by
    rw [Shape.rowMajor_val_four, Shape.rowMajor_val_three]
    show ((b.val * 1 + 0) * 1 + 0) * 1 + 0 = (b.val * 1 + 0) * 1 + 0
    omega)

/-- Adding a trailing unit axis to a [4,512,1] array. -/
theorem shapeCast_4x512x1_4x512x1x1_apply {α : Type} (X : S4x512x1.Idx → α) (hc : S4x512x1.ShapeCasts S4x512x1x1) (b : Fin 4) (ch : Fin 512) :
    shapeCast S4x512x1x1 X hc (ix4 b ch (0 : Fin 1) (0 : Fin 1)) = X (ix3 b ch (0 : Fin 1)) :=
  shapeCast_apply X hc _ _ (by
    rw [Shape.rowMajor_val_three, Shape.rowMajor_val_four]
    show (b.val * 512 + ch.val) * 1 + 0 = ((b.val * 512 + ch.val) * 1 + 0) * 1 + 0
    omega)

/-- The one-hot table at an index. -/
theorem onehot16_apply [Cert.KernelIdeal.Facts] (X : IVec S4x1x16x16 32) (b : Fin 4) (h w : Fin 16) (k : Fin 256) :
    onehot16 (F := Ideal) X (ix4 b h w k) = if X (ix4 b (0 : Fin 1) h w) = BitVec.ofNat 32 k.val then (1 : EReal) else 0 := by
  unfold onehot16
  show FloatOps.uitofp (F := Ideal) .f32 (IntOp.cmpi .eq _ _) = _
  rw [broadcastInDim_apply (t := S4x16x16x256) ![0, 1, 2, 3] _ _ (ix4 b h w k) (ix4 b h w (0 : Fin 1))
        (fun a => by match a with | ⟨0, _⟩ => rfl | ⟨1, _⟩ => rfl | ⟨2, _⟩ => rfl | ⟨3, _⟩ => rfl),
      broadcastInDim_apply (t := S4x16x16x1) ![0, 1, 2] _ _ (ix4 b h w (0 : Fin 1)) (ix3 b h w)
        (fun a => by match a with | ⟨0, _⟩ => rfl | ⟨1, _⟩ => rfl | ⟨2, _⟩ => rfl),
      shapeCast_drop1_apply,
      broadcastInDim_apply (t := S4x16x16x256) ![0, 1, 2, 3] _ _ (ix4 b h w k) (ix4 (0 : Fin 1) (0 : Fin 1) (0 : Fin 1) k)
        (fun a => by match a with | ⟨0, _⟩ => rfl | ⟨1, _⟩ => rfl | ⟨2, _⟩ => rfl | ⟨3, _⟩ => rfl),
      broadcastInDim_apply (t := S1x1x1x256) ![3] _ _ (ix4 (0 : Fin 1) (0 : Fin 1) (0 : Fin 1) k) (ix1 k)
        (fun a => by match a with | ⟨0, _⟩ => rfl)]
  show FloatOps.uitofp (F := Ideal) .f32 (IntOp.cmpi .eq (X (ix4 b (0 : Fin 1) h w)) (BitVec.ofNat 32 k.val)) = _
  by_cases hx : X (ix4 b (0 : Fin 1) h w) = BitVec.ofNat 32 k.val
  · rw [if_pos hx, hx]
    have h1 : IntOp.cmpi .eq (BitVec.ofNat 32 k.val) (BitVec.ofNat 32 k.val) = 1#1 := by simp [IntOp.cmpi]
    rw [h1]
    show (((1#1 : BitVec 1).toNat : ℝ) : EReal) = 1
    simp
  · rw [if_neg hx]
    have hb : (X (ix4 b (0 : Fin 1) h w) == BitVec.ofNat 32 k.val) = false := by simpa using hx
    have h0 : IntOp.cmpi .eq (X (ix4 b (0 : Fin 1) h w)) (BitVec.ofNat 32 k.val) = 0#1 := by simp [IntOp.cmpi, hb]
    rw [h0]
    show (((0#1 : BitVec 1).toNat : ℝ) : EReal) = 0
    simp

end Cert.KernelIdeal.HostValue

end
-- ==== Proof.Spec.lean ====
/-
  The mathematics both programs compute per (batch, channel): a mutual-information score of a 16×16 map
  against a 16×16 reference map, both quantised to 256 grey levels.

  A map is quantised by an affine rescale of its values to [0, 255] between its minimum and maximum,
  truncation to an integer and a clip (`level`, `levels`). From the two quantised maps come the level counts
  (`count`: how many pixels sit at level `i`), the pair counts (`countJ`: how many pixels sit at level `i` in
  the first map and `j` in the second), the marginal entropy of the first map's level frequencies
  (`entropyMs`), the entropy of the "agreement" table `N - n_i - m_j + 2 J_ij` scaled by 1/65536 (`jointP`,
  `entropyJoint`), and the score `hp + entropyMs - entropyJoint` (`mi`). Counts are written as sums of 0/1
  indicators over the pixels, the form in which both a one-hot contraction and a scatter of ones deliver them.
-/
import Idealize.ShloMosaic.PureOps.Ideal
import Idealize.ShloMosaic.Lib.ValueIdx

noncomputable section

namespace Cert.MISpec

open Idealize.ShloMosaic

/-- A pixel of a 16×16 map: (row, column). -/
abbrev Pix := Fin 16 × Fin 16

/-- 255, 256, 2, 65536 and the entropy's ε (the f32 nearest 1e-8), each as the extended real its f32 word denotes. -/
def c255 : EReal := Ideal.ofBits .f32 0x437F0000#32
def c256 : EReal := Ideal.ofBits .f32 0x43800000#32
def c2 : EReal := Ideal.ofBits .f32 0x40000000#32
def c65536 : EReal := Ideal.ofBits .f32 0x47800000#32
def eps : EReal := Ideal.ofBits .f32 0x322BCC77#32

/-- The grey level of a value `x` of a map whose minimum is `mn` and maximum `mx`:
    `clip (trunc ((x - mn) / (mx - mn) · 255), 0, 255)` as a 32-bit integer. -/
def level (x mn mx : EReal) : BitVec 32 :=
  IntOp.minsi 255#32 (IntOp.maxsi 0#32 (Ideal.fptosi 32 (Ideal.div (x - mn) (mx - mn) * c255)))

/-- The largest and the smallest value of a map (the lattice's ⊥ = -∞ and ⊤ = +∞ are the folds' neutral elements). -/
def mapMax (f : Pix → EReal) : EReal := Finset.univ.sup f
def mapMin (f : Pix → EReal) : EReal := Finset.univ.inf f

/-- A map's grey levels. -/
def levels (f : Pix → EReal) : Pix → BitVec 32 := fun p => level (f p) (mapMin f) (mapMax f)

/-- How many pixels of the quantised map `B` sit at level `i` (a sum of 0/1 indicators). -/
def count (B : Pix → BitVec 32) (i : Fin 256) : EReal :=
  ∑ p : Pix, if B p = BitVec.ofNat 32 i.val then (1 : EReal) else 0

/-- How many pixels sit at level `i` in `B` and at level `j` in `Bp`. -/
def countJ (B Bp : Pix → BitVec 32) (i j : Fin 256) : EReal :=
  ∑ p : Pix, (if B p = BitVec.ofNat 32 i.val then (1 : EReal) else 0) * (if Bp p = BitVec.ofNat 32 j.val then (1 : EReal) else 0)

/-- The entropy of `B`'s level frequencies `n_i / 256`: `-∑ p log (p + ε)`. -/
def entropyMs (B : Pix → BitVec 32) : EReal :=
  -(∑ i : Fin 256, Ideal.div (count B i) c256 * Ideal.log (Ideal.div (count B i) c256 + eps))

/-- Entry (i, j) of the scaled agreement table: `((256 - n_i) - m_j + 2 J_ij) / 65536`. -/
def jointP (B Bp : Pix → BitVec 32) (i j : Fin 256) : EReal :=
  Ideal.div (((c256 - count B i) - count Bp j) + c2 * countJ B Bp i j) c65536

/-- The entropy of the scaled agreement table. -/
def entropyJoint (B Bp : Pix → BitVec 32) : EReal :=
  -(∑ i : Fin 256, ∑ j : Fin 256, jointP B Bp i j * Ideal.log (jointP B Bp i j + eps))

/-- The score of a map with levels `B` against a reference map with levels `Bp` whose own entropy is `hp`. -/
def mi (hp : EReal) (B Bp : Pix → BitVec 32) : EReal :=
  (hp + entropyMs B) - entropyJoint B Bp

end Cert.MISpec

end
-- ==== Proof.ScoreArray.lean ====
/-
  The second region's output array, element by element.

  The region's grid is (batch, channel chunk) = 4 × 32 points; point (b, cc) reads the 16-channel block
  (b, cc) of the second argument, the one-hot table of batch element b and its reference-map entropy, and writes the
  [1,16,1] block (b, cc) of the score array. The blocks tile the array, so every element (b, ch, 0) of the array
  after the run is what the point (b, ch / 16) stored at row ch % 16 of its block: the body's score of channel ch
  of batch element b against the reference map of b.
-/
import proofs.«139526_j23605140259217_2_alg».proof.Proof.Gen.KernelIdeal.Frame
import proofs.«139526_j23605140259217_2_alg».proof.Proof.Spec
import Idealize.ShloMosaic.Lib.Pipeline.Value
import Idealize.ShloMosaic.Lib.ValueIdx

set_option maxRecDepth 16384

noncomputable section

namespace Cert.KernelIdeal.ScoreArray

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The printed index maps over the grid: the three input windows move with the output window on the batch axis,
    the first also on the channel-chunk axis, and sit at block 0 elsewhere. -/
theorem idx_facts : ∀ t : Fin cfg1.N,
    win1_0.index t (0 : Fin 4) = win1_3.index t (0 : Fin 3) ∧ win1_0.index t (1 : Fin 4) = win1_3.index t (1 : Fin 3)
    ∧ win1_0.index t (2 : Fin 4) = 0 ∧ win1_0.index t (3 : Fin 4) = 0
    ∧ win1_1.index t (0 : Fin 4) = win1_3.index t (0 : Fin 3) ∧ win1_1.index t (1 : Fin 4) = 0
    ∧ win1_1.index t (2 : Fin 4) = 0 ∧ win1_1.index t (3 : Fin 4) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 31 ∧ win1_3.index t (2 : Fin 3) = 0 :=
  (by decide +kernel : ∀ t : Fin grid1.N, _)

/-- Every (batch, channel chunk) is some point's output block. -/
theorem idx_onto : ∀ (q0 : Fin 4) (q1 : Fin 32), ∃ t : Fin cfg1.N, win1_3.index t = ![q0.val, q1.val, 0] :=
  (by decide +kernel : ∀ (q0 : Fin 4) (q1 : Fin 32), ∃ t : Fin grid1.N, win1_3.index t = ![q0.val, q1.val, 0])

theorem hz3 : (![0, 0, 0] : Fin 3 → Nat) = fun _ => 0 := funext fun a => by fin_cases a <;> rfl

/-- An index of the score array is in point `t`'s block iff each coordinate is in the block's range on its axis. -/
theorem mem_blk (t : Fin cfg1.N) (i : S4x512x1.Idx) :
    i ∈ ((cfg1.win 3).blk t).view.set ↔ ∀ a : Fin 3, win1_3.index t a * S1x16x1.size a ≤ (i a).val ∧ (i a).val < win1_3.index t a * S1x16x1.size a + S1x16x1.size a := by
  show i ∈ ((View.whole main_v62).slice (win1_3.rect t)).set ↔ _
  rw [View.set_slice_whole, Rect.mem_set_unit]
  exact Iff.rfl

/-- The blocks cover the array. -/
theorem cover (i : S4x512x1.Idx) : ∃ t : Fin cfg1.N, (cfg1.win 3).flush t = true ∧ i ∈ ((cfg1.win 3).blk t).view.set := by
  have hi0 : (i 0).val < 4 := (i 0).isLt
  have hi1 : (i 1).val < 512 := (i 1).isLt
  have hi2 : (i 2).val < 1 := (i 2).isLt
  obtain ⟨t, ht⟩ := idx_onto ⟨(i 0).val, hi0⟩ ⟨(i 1).val / 16, by omega⟩
  have q0 : win1_3.index t (0 : Fin 3) = (i 0).val := congrFun ht 0
  have q1 : win1_3.index t (1 : Fin 3) = (i 1).val / 16 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 16 ≤ (i 1).val ∧ (i 1).val < win1_3.index t (1 : Fin 3) * 16 + 16; omega
  | ⟨2, _⟩ => show win1_3.index t (2 : Fin 3) * 1 ≤ (i 2).val ∧ (i 2).val < win1_3.index t (2 : Fin 3) * 1 + 1; omega

variable (V : (c : Dev nD) → (b : Ref sig .tc) → Buf (Elt Ideal) ((c : Thread nD τ).loc b))

/-- The body's score law: what the body stores at row `j` of its [1,16,1] block, when its second input is the
    one-hot table of a quantised map `Bp`. -/
def BodyLaw : Prop :=
  ∀ (x0 : Vec Ideal S1x16x16x16 .f32) (x1 : Vec Ideal S1x16x16x256 .f32) (x2 : Vec Ideal S1x1x1 .f32)
    (Bp : Cert.MISpec.Pix → BitVec 32)
    (hx1 : ∀ (h w : Fin 16) (k : Fin 256), x1 (ix4 (0 : Fin 1) h w k) = if Bp (h, w) = BitVec.ofNat 32 k.val then (1 : EReal) else 0)
    (j : Fin 16),
    out1_3 (F := Ideal) x0 x1 x2 (ix3 (0 : Fin 1) j (0 : Fin 1)) =
      Cert.MISpec.mi (x2 (ix3 (0 : Fin 1) (0 : Fin 1) (0 : Fin 1))) (Cert.MISpec.levels fun p => x0 (ix4 (0 : Fin 1) j p.1 p.2)) Bp

set_option maxHeartbeats 8000000 in
/-- Element (b, ch, 0) of the score array after the region: the score of channel `ch` of batch element `b` of the
    second argument against the quantised reference map `xp` of `b`, whose one-hot table the region reads. -/
theorem score_apply (hbody : BodyLaw) (c : Dev nD) (xp : IVec S4x1x16x16 32)
    (hoh : ∀ (b : Fin 4) (h w : Fin 16) (k : Fin 256), V c main_v61 (ix4 b h w k) = if xp (ix4 b (0 : Fin 1) h w) = BitVec.ofNat 32 k.val then (1 : EReal) else 0)
    (b : Fin 4) (ch : Fin 512) :
    (dat1 (F := Ideal) V c).arrAt 3 cfg1.N (ix3 b ch (0 : Fin 1)) =
      Cert.MISpec.mi (V c main_v53 (ix3 b (0 : Fin 1) (0 : Fin 1))) (Cert.MISpec.levels fun p => V c main_arg1 (ix4 b ch p.1 p.2)) (fun p => xp (ix4 b (0 : Fin 1) p.1 p.2)) := by
  refine (dat1 (F := Ideal) V c).arrAt_forall_of_cover 3
    (fun i v => v = Cert.MISpec.mi (V c main_v53 (ix3 (⟨(i 0).val, (i 0).isLt⟩ : Fin 4) (0 : Fin 1) (0 : Fin 1)))
      (Cert.MISpec.levels fun p => V c main_arg1 (ix4 (⟨(i 0).val, (i 0).isLt⟩ : Fin 4) (⟨(i 1).val, (i 1).isLt⟩ : Fin 512) p.1 p.2))
      (fun p => xp (ix4 (⟨(i 0).val, (i 0).isLt⟩ : Fin 4) (0 : Fin 1) p.1 p.2)))
    ?_ cover (ix3 b ch (0 : Fin 1))
  intro t _ y
  obtain ⟨e00, e01, e02, e03, e10, e11, e12, e13, e20, e21, e22, b0, b1, b2⟩ := idx_facts t
  -- the index inside the block is (0, j, 0)
  have hy0 : (y 0).val < 1 := (y 0).isLt
  have hy1 : (y 1).val < 16 := (y 1).isLt
  have hy2 : (y 2).val < 1 := (y 2).isLt
  obtain ⟨j, rfl⟩ : ∃ j : Fin 16, y = ix3 (0 : Fin 1) j (0 : Fin 1) := ⟨⟨(y 1).val, hy1⟩, by
    funext a; apply Fin.ext
    match a with
    | ⟨0, _⟩ => show (y 0).val = 0; omega
    | ⟨1, _⟩ => rfl
    | ⟨2, _⟩ => show (y 2).val = 0; omega⟩
  -- where the element sits in the array
  have hB : ((((cfg1.win 3).blk t).view.emb (ix3 (0 : Fin 1) j (0 : Fin 1)) 0 : Fin _) : Nat) = win1_3.index t (0 : Fin 3) := by
    show win1_3.index t (0 : Fin 3) * 1 + 1 * 0 = _; omega
  have hC : ((((cfg1.win 3).blk t).view.emb (ix3 (0 : Fin 1) j (0 : Fin 1)) 1 : Fin _) : Nat) = win1_3.index t (1 : Fin 3) * 16 + j.val := by
    show win1_3.index t (1 : Fin 3) * 16 + 1 * j.val = _; omega
  generalize hbb : (⟨((((cfg1.win 3).blk t).view.emb (ix3 (0 : Fin 1) j (0 : Fin 1)) 0 : Fin _) : Nat), (((cfg1.win 3).blk t).view.emb (ix3 (0 : Fin 1) j (0 : Fin 1)) 0).isLt⟩ : Fin 4) = bb
  generalize hcc : (⟨((((cfg1.win 3).blk t).view.emb (ix3 (0 : Fin 1) j (0 : Fin 1)) 1 : Fin _) : Nat), (((cfg1.win 3).blk t).view.emb (ix3 (0 : Fin 1) j (0 : Fin 1)) 1).isLt⟩ : Fin 512) = cc
  have hbv : bb.val = win1_3.index t (0 : Fin 3) := by rw [← hbb]; exact hB
  have hcv : cc.val = win1_3.index t (1 : Fin 3) * 16 + j.val := by rw [← hcc]; exact hC
  show (cfg1.win 3).cut (grid1.coords t) ((dat1 (F := Ideal) V c).after 3 t) (ix3 (0 : Fin 1) j (0 : Fin 1)) = _
  rw [after1_3]
  show out1_3 (F := Ideal) (iblk1 V c 0 t) (iblk1 V c 1 t) (iblk1 V c 2 t) (ix3 (0 : Fin 1) j (0 : Fin 1)) = _
  -- the three input blocks, read where the output's block says
  have h1 : ∀ (h w : Fin 16) (k : Fin 256), iblk1 V c 1 t (ix4 (0 : Fin 1) h w k)
      = if xp (ix4 bb (0 : Fin 1) h w) = BitVec.ofNat 32 k.val then (1 : EReal) else 0 := by
    intro h w k
    rw [← hoh bb h w k]
    show V c main_v61 (((cfg1.win 1).blk t).view.emb (ix4 (0 : Fin 1) h w k)) = V c main_v61 (ix4 bb h w k)
    refine congrArg (V c main_v61) (funext fun a => Fin.ext ?_)
    match a with
    | ⟨0, _⟩ => show win1_1.index t (0 : Fin 4) * 1 + 1 * 0 = bb.val; omega
    | ⟨1, _⟩ => show win1_1.index t (1 : Fin 4) * 16 + 1 * h.val = h.val; omega
    | ⟨2, _⟩ => show win1_1.index t (2 : Fin 4) * 16 + 1 * w.val = w.val; omega
    | ⟨3, _⟩ => show win1_1.index t (3 : Fin 4) * 256 + 1 * k.val = k.val; omega
  have h2 : iblk1 V c 2 t (ix3 (0 : Fin 1) (0 : Fin 1) (0 : Fin 1)) = V c main_v53 (ix3 bb (0 : Fin 1) (0 : Fin 1)) := by
    show V c main_v53 (((cfg1.win 2).blk t).view.emb (ix3 (0 : Fin 1) (0 : Fin 1) (0 : Fin 1))) = _
    refine congrArg (V c main_v53) (funext fun a => Fin.ext ?_)
    match a with
    | ⟨0, _⟩ => show win1_2.index t (0 : Fin 3) * 1 + 1 * 0 = bb.val; omega
    | ⟨1, _⟩ => show win1_2.index t (1 : Fin 3) * 1 + 1 * 0 = 0; omega
    | ⟨2, _⟩ => show win1_2.index t (2 : Fin 3) * 1 + 1 * 0 = 0; omega
  have h0 : ∀ p : Cert.MISpec.Pix, iblk1 V c 0 t (ix4 (0 : Fin 1) j p.1 p.2) = V c main_arg1 (ix4 bb cc p.1 p.2) := by
    intro p
    show V c main_arg1 (((cfg1.win 0).blk t).view.emb (ix4 (0 : Fin 1) j p.1 p.2)) = _
    refine congrArg (V c main_arg1) (funext fun a => Fin.ext ?_)
    match a with
    | ⟨0, _⟩ => show win1_0.index t (0 : Fin 4) * 1 + 1 * 0 = bb.val; omega
    | ⟨1, _⟩ => show win1_0.index t (1 : Fin 4) * 16 + 1 * j.val = cc.val; omega
    | ⟨2, _⟩ => show win1_0.index t (2 : Fin 4) * 16 + 1 * p.1.val = p.1.val; omega
    | ⟨3, _⟩ => show win1_0.index t (3 : Fin 4) * 16 + 1 * p.2.val = p.2.val; omega
  rw [hbody (iblk1 V c 0 t) (iblk1 V c 1 t) (iblk1 V c 2 t) (fun p => xp (ix4 bb (0 : Fin 1) p.1 p.2)) h1 j, h2]
  simp only [h0]

end Cert.KernelIdeal.ScoreArray

end
-- ==== Proof.KernelValue.lean ====
/-
  The idealized kernel program's result as a function of its arguments and of the first region's output array.

  Reading the last boundary's contents back through the program: the result is the tail of the second argument and
  the second region's score array (flattened by a unit axis); the score array's element (b, ch) is the score of
  channel ch of batch element b against the grey levels of the pooled first-region output, with the entropy of the
  first-region output's own grey levels; the second argument reaches both the second region and the tail unchanged.
-/
import proofs.«139526_j23605140259217_2_alg».proof.Proof.KernelRun
import proofs.«139526_j23605140259217_2_alg».proof.Proof.HostMid
import proofs.«139526_j23605140259217_2_alg».proof.Proof.OneHot
import proofs.«139526_j23605140259217_2_alg».proof.Proof.ScoreArray

set_option maxRecDepth 16384

noncomputable section

namespace Cert.KernelIdeal.KernelValue

open Cert.KernelIdeal Cert.KernelIdeal.Gen Cert.KernelIdeal.HostValue Cert.KernelIdeal.ScoreArray
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first region's output array after the region. -/
abbrev A0 (c : Dev nD) : FVec Ideal S4x1x64x64 .f32 := (dat0 (F := Ideal) (V0 m ρ) c).arrAt 1 cfg0.N

theorem W1_v0 (c : Dev nD) : W1 m ρ c (Proc.devRef .tc main_v0) = A0 m ρ c := W1_arr m ρ c 1

/-- The one-hot table the second region finds. -/
theorem V6_v61 (c : Dev nD) : V6 m ρ c main_v61 = onehot16 (F := Ideal) (norm16 (F := Ideal) (pool (F := Ideal) (A0 m ρ c))) :=
  (read_onehot (W1 m ρ c)).trans (by rw [W1_v0])

/-- The reference-map entropy the second region finds. -/
theorem V6_v53 (c : Dev nD) : V6 m ρ c main_v53 = shapeCast S4x1x1 (entropy64 (F := Ideal) (norm64 (F := Ideal) (A0 m ρ c))) shapeCasts_S4x1x1x1_S4x1x1 :=
  (read_entropy (W1 m ρ c)).trans (by rw [W1_v0])

/-- The last stretch does not write the second argument. -/
theorem W8_W7_arg1 (c : Dev nD) : W8 m ρ c (Proc.devRef .tc main_arg1) = W7 m ρ c (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- Nor does the second region: it reads it through an input window. -/
theorem W7_W6_arg1 (c : Dev nD) : W7 m ρ c (Proc.devRef .tc main_arg1) = W6 m ρ c (Proc.devRef .tc main_arg1) :=
  (W7_arr m ρ c 0).trans (((dat1 (V6 m ρ) c).arrAt_in 0 rfl _).trans (A_eq1 (V6 m ρ) c 0))

theorem W7_arg1 (c : Dev nD) : W7 m ρ c (Proc.devRef .tc main_arg1) = m ((c : Thread nD τ).loc main_arg1) :=
  (W8_W7_arg1 m ρ c).symm.trans (W8_main_arg1 m ρ c)

theorem V6_arg1 (c : Dev nD) : V6 m ρ c main_arg1 = m ((c : Thread nD τ).loc main_arg1) :=
  (W7_W6_arg1 m ρ c).symm.trans (W7_arg1 m ρ c)

theorem W7_v62 (c : Dev nD) : W7 m ρ c (Proc.devRef .tc main_v62) = (dat1 (F := Ideal) (V6 m ρ) c).arrAt 3 cfg1.N := W7_arr m ρ c 3

/-- The result buffer at the last boundary: the tail of the second argument and the score array. -/
theorem result_tail (c : Dev nD) :
    W8 m ρ c (Proc.devRef .tc main_v77)
      = tail4 (F := Ideal) (m ((c : Thread nD τ).loc main_arg1))
          (shapeCast S4x512x1x1 ((dat1 (F := Ideal) (V6 m ρ) c).arrAt 3 cfg1.N) shapeCasts_S4x512x1_S4x512x1x1) :=
  (read_tail (W7 m ρ c)).trans (by rw [W7_arg1, W7_v62])

/-- The score array, element by element. -/
theorem score (hbody : BodyLaw) (c : Dev nD) (b : Fin 4) (ch : Fin 512) :
    (dat1 (F := Ideal) (V6 m ρ) c).arrAt 3 cfg1.N (ix3 b ch (0 : Fin 1)) =
      Cert.MISpec.mi (entropy64 (F := Ideal) (norm64 (F := Ideal) (A0 m ρ c)) (ix4 b (0 : Fin 1) (0 : Fin 1) (0 : Fin 1)))
        (Cert.MISpec.levels fun p => m ((c : Thread nD τ).loc main_arg1) (ix4 b ch p.1 p.2))
        (fun p => norm16 (F := Ideal) (pool (F := Ideal) (A0 m ρ c)) (ix4 b (0 : Fin 1) p.1 p.2)) := by
  have h := score_apply (V6 m ρ) hbody c (norm16 (F := Ideal) (pool (F := Ideal) (A0 m ρ c)))
    (fun b h w k => by rw [V6_v61]; exact onehot16_apply _ b h w k) b ch
  rw [V6_v53, V6_arg1, shapeCast_4111_411_apply] at h
  exact h

end Cert.KernelIdeal.KernelValue

end
-- ==== Proof.BodyFrag.lean ====
import proofs.«139526_j23605140259217_2_alg».proof.Proof.Gen.KernelIdeal.Frame
import proofs.«139526_j23605140259217_2_alg».proof.Proof.Spec
import Idealize.ShloMosaic.PureOps.Ideal.Laws
import Idealize.ShloMosaic.Lib.Pipeline.Value
import Idealize.ShloMosaic.Lib.ValueIdx
import Idealize.ShloMosaic.Lib.ValueLayout

/-! The second kernel's body, part one: its sixteen per-channel copies, spread by the printed text over differently cut
    fragments, are each the one per-channel term `chanJ` / `chanM` at their channel (by unfolding). -/

noncomputable section

namespace Cert.KernelIdeal.BodyValue

open Idealize.ShloMosaic Idealize.ShloMosaic.ValueIdx Cert.KernelIdeal Cert.KernelIdeal.Gen

/-! ## One channel's operations as one term

The body treats its sixteen channels alike: channel `o`'s one-hot map is cut out of the stack, summed over the pixels
(the level counts), contracted over the pixels with the reference's table (the pair counts), and the two entropies are
formed. The printed body spreads the sixteen copies over differently cut fragments; each composition of fragments is,
by unfolding, the one per-channel term below at its channel. -/

section Generic
variable {F : FTy → Type} [FloatOps F]

/-- Channel `o` of the sixteen one-hot maps is inside the stack. -/
theorem slices_chan (o : Nat) (ho : o < 16) : S16x16x16x256.Slices ![o, 0, 0, 0] S1x16x16x256 :=
  ⟨rfl, fun a => by
    match a with
    | ⟨0, _⟩ => show o + 1 ≤ 16; omega
    | ⟨1, _⟩ => show 0 + 16 ≤ 16; omega
    | ⟨2, _⟩ => show 0 + 16 ≤ 16; omega
    | ⟨3, _⟩ => show 0 + 256 ≤ 256; omega⟩

/-- Channel `o`'s one-hot map [16,16,256] cut out of the stack [16,16,16,256]. -/
def chan (o : Nat) (ho : o < 16) (v24 : FVec F S16x16x16x256 .f32) : FVec F S16x16x256 .f32 :=
  shapeCast S16x16x256 (extractStridedSlice S1x16x16x256 ![o, 0, 0, 0] v24 (slices_chan o ho)) shapeCasts_S1x16x16x256_S16x16x256

/-- The level counts of a one-hot map: its sum over the pixels. -/
def nVec (x : FVec F S16x16x256 .f32) : FVec F S256 .f32 :=
  multiReduction .add [0, 1] S256 x 0x00000000#32 reduces_S16x16x256_S256 (.inl rfl) rfl

/-- The pair counts: the one-hot map contracted over the pixels with the reference's table. -/
def jMat (x : FVec F S16x16x256 .f32) (v28 : FVec F S256x256 .bf16) : FVec F S256x256 .f32 :=
  matmul dot_S256x256_S256x256_S256x256_0_0_1_1_n_n none
    (shapeCast S256x256 (truncf .bf16 x bitsLt_bf16_f32) shapeCasts_S16x16x256_S256x256) v28 (constant S256x256 .f32 0x00000000#32)

/-- One channel's joint-entropy term, from the stack, the table and the table's counts. -/
def chanJ (v24 : FVec F S16x16x16x256 .f32) (v28 : FVec F S256x256 .bf16) (v29 : FVec F S256 .f32) (o : Fin 16) : FVec F S1 .f32 :=
  k1_pay11 v29 (jMat (chan o.val o.isLt v24) v28) (nVec (chan o.val o.isLt v24))
/-- One channel's marginal-entropy term. -/
def chanM (v24 : FVec F S16x16x16x256 .f32) (o : Fin 16) : FVec F S1 .f32 :=
  k1_pay12 (nVec (chan o.val o.isLt v24))

section Fragments
variable (x0 : Vec F S1x16x16x16 .f32) (x1 : Vec F S1x16x16x256 .f32) (v24 : FVec F S16x16x16x256 .f32) (v28 : FVec F S256x256 .bf16) (v29 : FVec F S256 .f32)

theorem fragJ0 : k1_pay11 (k1_pay6 x1) (k1_pay9 x0 x1) (k1_pay10 x0) = chanJ (k1_pay3 x0) (k1_pay5 x1) (k1_pay6 x1) 0 := by
  unfold k1_pay9 k1_pay10 k1_pay8 chanJ jMat nVec chan; rfl
theorem fragM0 : k1_pay12 (k1_pay10 x0) = chanM (k1_pay3 x0) 0 := by
  unfold k1_pay10 k1_pay8 chanM nVec chan; rfl
theorem fragJ1 : k1_pay17 v29 (k1_pay14 v24 v28) (k1_pay16 v24) = chanJ v24 v28 v29 1 := by
  unfold k1_pay17 k1_pay14 k1_pay16 k1_pay15 k1_pay13 chanJ k1_pay11 jMat nVec chan; rfl
theorem fragM1 : k1_pay18 (k1_pay15 v24) = chanM v24 1 := by
  unfold k1_pay18 k1_pay15 k1_pay13 chanM k1_pay12 nVec chan; rfl
theorem fragJ2 : k1_pay23 (k1_pay20 v24 v28) (k1_pay22 v24 v29) = chanJ v24 v28 v29 2 := by
  unfold k1_pay23 k1_pay20 k1_pay22 k1_pay21 k1_pay19 chanJ k1_pay11 jMat nVec chan; rfl
theorem fragJ3 : k1_pay28 (k1_pay27 v24 v28 v29) = chanJ v24 v28 v29 3 := by
  unfold k1_pay28 k1_pay27 k1_pay26 k1_pay25 chanJ k1_pay11 jMat nVec chan; rfl
theorem fragJ4 : k1_pay33 (k1_pay32 v24 v28 v29) (Scalar.ofBits .f32 0x322BCC77#32) = chanJ v24 v28 v29 4 := by
  unfold k1_pay33 k1_pay32 k1_pay31 k1_pay30 chanJ k1_pay11 jMat nVec chan; rfl
theorem fragJ5 : k1_pay38 (k1_pay37 v24 v28 v29) = chanJ v24 v28 v29 5 := by
  unfold k1_pay38 k1_pay37 k1_pay36 k1_pay35 chanJ k1_pay11 jMat nVec chan; rfl
theorem fragJ6 : k1_pay43 (k1_pay42 v24 v28 v29) = chanJ v24 v28 v29 6 := by
  unfold k1_pay43 k1_pay42 k1_pay41 k1_pay40 chanJ k1_pay11 jMat nVec chan; rfl
theorem fragJ7 : k1_pay48 (k1_pay47 v24 v28 v29) = chanJ v24 v28 v29 7 := by
  unfold k1_pay48 k1_pay47 k1_pay46 k1_pay45 chanJ k1_pay11 jMat nVec chan; rfl
theorem fragJ8 : k1_pay52 v24 v28 v29 = chanJ v24 v28 v29 8 := by
  unfold k1_pay52 k1_pay51 k1_pay50 chanJ k1_pay11 jMat nVec chan; rfl
theorem fragJ9 : k1_pay56 v24 v28 v29 = chanJ v24 v28 v29 9 := by
  unfold k1_pay56 k1_pay55 k1_pay54 chanJ k1_pay11 jMat nVec chan; rfl
theorem fragJ10 : k1_pay62 v24 v28 v29 = chanJ v24 v28 v29 10 := by
  unfold k1_pay62 k1_pay61 k1_pay60 chanJ k1_pay11 jMat nVec chan; rfl
theorem fragJ11 : k1_pay67 v24 v28 v29 = chanJ v24 v28 v29 11 := by
  unfold k1_pay67 k1_pay66 k1_pay65 chanJ k1_pay11 jMat nVec chan; rfl
theorem fragJ12 : k1_pay72 v24 v28 v29 = chanJ v24 v28 v29 12 := by
  unfold k1_pay72 k1_pay71 k1_pay70 chanJ k1_pay11 jMat nVec chan; rfl
theorem fragJ13 : k1_pay76 v24 v28 v29 = chanJ v24 v28 v29 13 := by
  unfold k1_pay76 k1_pay75 k1_pay74 chanJ k1_pay11 jMat nVec chan; rfl
theorem fragJ14 : k1_pay81 v28 v29 (k1_pay78 v24) (k1_pay79 v24) = chanJ v24 v28 v29 14 := by
  unfold k1_pay81 k1_pay80 k1_pay79 k1_pay78 chanJ k1_pay11 jMat nVec chan; rfl
theorem fragJ15 : k1_pay86 v29 (k1_pay84 v24 v28) (k1_pay85 v24) = chanJ v24 v28 v29 15 := by
  unfold k1_pay86 k1_pay84 k1_pay85 k1_pay83 chanJ k1_pay11 jMat nVec chan; rfl
theorem fragM2 : k1_pay24 (k1_pay21 v24) = chanM v24 2 := by
  unfold k1_pay24 k1_pay21 k1_pay19 chanM k1_pay12 nVec chan; rfl
theorem fragM3 : k1_pay29 (k1_pay26 v24) = chanM v24 3 := by
  unfold k1_pay29 k1_pay26 k1_pay25 chanM k1_pay12 nVec chan; rfl
theorem fragM4 : k1_pay34 (k1_pay31 v24) = chanM v24 4 := by
  unfold k1_pay34 k1_pay31 k1_pay30 chanM k1_pay12 nVec chan; rfl
theorem fragM5 : k1_pay39 (k1_pay36 v24) = chanM v24 5 := by
  unfold k1_pay39 k1_pay36 k1_pay35 chanM k1_pay12 nVec chan; rfl
theorem fragM6 : k1_pay44 (k1_pay41 v24) = chanM v24 6 := by
  unfold k1_pay44 k1_pay41 k1_pay40 chanM k1_pay12 nVec chan; rfl
theorem fragM7 : k1_pay49 (k1_pay46 v24) = chanM v24 7 := by
  unfold k1_pay49 k1_pay46 k1_pay45 chanM k1_pay12 nVec chan; rfl
theorem fragM8 : k1_pay53 (k1_pay51 v24) (Scalar.ofBits .f32 0x3B800000#32) = chanM v24 8 := by
  unfold k1_pay53 k1_pay51 k1_pay50 chanM k1_pay12 nVec chan; rfl
theorem fragM9 : k1_pay59 (k1_pay57 v24) (k1_pay58 (F := F)) = chanM v24 9 := by
  unfold k1_pay59 k1_pay57 k1_pay58 k1_pay55 k1_pay54 chanM k1_pay12 nVec chan; rfl
theorem fragM10 : k1_pay64 (k1_pay63 v24) = chanM v24 10 := by
  unfold k1_pay64 k1_pay63 k1_pay61 k1_pay60 chanM k1_pay12 nVec chan; rfl
theorem fragM11 : k1_pay69 (k1_pay68 v24) = chanM v24 11 := by
  unfold k1_pay69 k1_pay68 k1_pay66 k1_pay65 chanM k1_pay12 nVec chan; rfl
theorem fragM12 : k1_pay73 v24 = chanM v24 12 := by
  unfold k1_pay73 k1_pay71 k1_pay70 chanM k1_pay12 nVec chan; rfl
theorem fragM13 : k1_pay77 v24 = chanM v24 13 := by
  unfold k1_pay77 k1_pay75 k1_pay74 chanM k1_pay12 nVec chan; rfl
theorem fragM14 : k1_pay82 (k1_pay78 v24) = chanM v24 14 := by
  unfold k1_pay82 k1_pay80 k1_pay78 chanM k1_pay12 nVec chan; rfl
theorem pay1_eq (v75 v118 v161 v204 v247 v290 v333 v376 v419 v462 v505 v548 v591 v634 v677 : FVec F S1 .f32) :
    k1_pay1 v75 v118 v161 v204 v247 v290 v333 v376 v419 v462 v505 v548 v591 v634 v677 (k1_pay87 (k1_pay85 v24)) =
      concatenate S16 0 [⟨S1, v75⟩, ⟨S1, v118⟩, ⟨S1, v161⟩, ⟨S1, v204⟩, ⟨S1, v247⟩, ⟨S1, v290⟩, ⟨S1, v333⟩, ⟨S1, v376⟩, ⟨S1, v419⟩, ⟨S1, v462⟩, ⟨S1, v505⟩, ⟨S1, v548⟩, ⟨S1, v591⟩, ⟨S1, v634⟩, ⟨S1, v677⟩, ⟨S1, chanM v24 15⟩] concatenates_S1_S1_S1_S1_S1_S1_S1_S1_S1_S1_S1_S1_S1_S1_S1_S1_S16_d0 := by
  unfold k1_pay1 k1_pay87 k1_pay85 k1_pay83 chanM k1_pay12 nVec chan; rfl

end Fragments

/-- What the body stores, with each channel's fragments replaced by the per-channel terms. -/
theorem out1_3_eq (x0 : Vec F S1x16x16x16 .f32) (x1 : Vec F S1x16x16x256 .f32) (x2 : Vec F S1x1x1 .f32) :
    out1_3 (F := F) x0 x1 x2 =
      View.canon [⟨r1_3, k1_pay2 (k1_pay7 (View.ld x2 r1_2))
        (concatenate S16 0 [⟨S1, chanJ (k1_pay3 (View.ld x0 r1_0)) (k1_pay5 (View.ld x1 r1_1)) (k1_pay6 (View.ld x1 r1_1)) 0⟩, ⟨S1, chanJ (k1_pay3 (View.ld x0 r1_0)) (k1_pay5 (View.ld x1 r1_1)) (k1_pay6 (View.ld x1 r1_1)) 1⟩, ⟨S1, chanJ (k1_pay3 (View.ld x0 r1_0)) (k1_pay5 (View.ld x1 r1_1)) (k1_pay6 (View.ld x1 r1_1)) 2⟩, ⟨S1, chanJ (k1_pay3 (View.ld x0 r1_0)) (k1_pay5 (View.ld x1 r1_1)) (k1_pay6 (View.ld x1 r1_1)) 3⟩, ⟨S1, chanJ (k1_pay3 (View.ld x0 r1_0)) (k1_pay5 (View.ld x1 r1_1)) (k1_pay6 (View.ld x1 r1_1)) 4⟩, ⟨S1, chanJ (k1_pay3 (View.ld x0 r1_0)) (k1_pay5 (View.ld x1 r1_1)) (k1_pay6 (View.ld x1 r1_1)) 5⟩, ⟨S1, chanJ (k1_pay3 (View.ld x0 r1_0)) (k1_pay5 (View.ld x1 r1_1)) (k1_pay6 (View.ld x1 r1_1)) 6⟩, ⟨S1, chanJ (k1_pay3 (View.ld x0 r1_0)) (k1_pay5 (View.ld x1 r1_1)) (k1_pay6 (View.ld x1 r1_1)) 7⟩, ⟨S1, chanJ (k1_pay3 (View.ld x0 r1_0)) (k1_pay5 (View.ld x1 r1_1)) (k1_pay6 (View.ld x1 r1_1)) 8⟩, ⟨S1, chanJ (k1_pay3 (View.ld x0 r1_0)) (k1_pay5 (View.ld x1 r1_1)) (k1_pay6 (View.ld x1 r1_1)) 9⟩, ⟨S1, chanJ (k1_pay3 (View.ld x0 r1_0)) (k1_pay5 (View.ld x1 r1_1)) (k1_pay6 (View.ld x1 r1_1)) 10⟩, ⟨S1, chanJ (k1_pay3 (View.ld x0 r1_0)) (k1_pay5 (View.ld x1 r1_1)) (k1_pay6 (View.ld x1 r1_1)) 11⟩, ⟨S1, chanJ (k1_pay3 (View.ld x0 r1_0)) (k1_pay5 (View.ld x1 r1_1)) (k1_pay6 (View.ld x1 r1_1)) 12⟩, ⟨S1, chanJ (k1_pay3 (View.ld x0 r1_0)) (k1_pay5 (View.ld x1 r1_1)) (k1_pay6 (View.ld x1 r1_1)) 13⟩, ⟨S1, chanJ (k1_pay3 (View.ld x0 r1_0)) (k1_pay5 (View.ld x1 r1_1)) (k1_pay6 (View.ld x1 r1_1)) 14⟩, ⟨S1, chanJ (k1_pay3 (View.ld x0 r1_0)) (k1_pay5 (View.ld x1 r1_1)) (k1_pay6 (View.ld x1 r1_1)) 15⟩] concatenates_S1_S1_S1_S1_S1_S1_S1_S1_S1_S1_S1_S1_S1_S1_S1_S1_S16_d0)
        (concatenate S16 0 [⟨S1, chanM (k1_pay3 (View.ld x0 r1_0)) 0⟩, ⟨S1, chanM (k1_pay3 (View.ld x0 r1_0)) 1⟩, ⟨S1, chanM (k1_pay3 (View.ld x0 r1_0)) 2⟩, ⟨S1, chanM (k1_pay3 (View.ld x0 r1_0)) 3⟩, ⟨S1, chanM (k1_pay3 (View.ld x0 r1_0)) 4⟩, ⟨S1, chanM (k1_pay3 (View.ld x0 r1_0)) 5⟩, ⟨S1, chanM (k1_pay3 (View.ld x0 r1_0)) 6⟩, ⟨S1, chanM (k1_pay3 (View.ld x0 r1_0)) 7⟩, ⟨S1, chanM (k1_pay3 (View.ld x0 r1_0)) 8⟩, ⟨S1, chanM (k1_pay3 (View.ld x0 r1_0)) 9⟩, ⟨S1, chanM (k1_pay3 (View.ld x0 r1_0)) 10⟩, ⟨S1, chanM (k1_pay3 (View.ld x0 r1_0)) 11⟩, ⟨S1, chanM (k1_pay3 (View.ld x0 r1_0)) 12⟩, ⟨S1, chanM (k1_pay3 (View.ld x0 r1_0)) 13⟩, ⟨S1, chanM (k1_pay3 (View.ld x0 r1_0)) 14⟩, ⟨S1, chanM (k1_pay3 (View.ld x0 r1_0)) 15⟩] concatenates_S1_S1_S1_S1_S1_S1_S1_S1_S1_S1_S1_S1_S1_S1_S1_S1_S16_d0)⟩] := by
  unfold out1_3
  rw [fragJ0, fragJ1, fragJ2, fragJ3, fragJ4, fragJ5, fragJ6, fragJ7, fragJ8, fragJ9, fragJ10, fragJ11, fragJ12, fragJ13, fragJ14, fragJ15, fragM0, fragM1, fragM2, fragM3, fragM4, fragM5, fragM6, fragM7, fragM8, fragM9, fragM10, fragM11, fragM12, fragM13, fragM14, pay1_eq]

end Generic

end Cert.KernelIdeal.BodyValue
-- ==== Proof.LibChannelMath.lean ====
/-
  General lemmas that read one channel's arithmetic at the extended reals.

  A 16×16 map's maximum and minimum over its two pixel axes are the lattice's sup and inf over the pixels; a sum
  over the two pixel axes, over a row, and over a one-row table are the plain finite sums; the contraction of two
  pixel-by-level tables over the pixel axis is the sum over the pixels of the products of their entries; the 0/1
  indicator of an integer equality, summed over the pixels, is a level count, and the contraction of two such
  indicators is a pair count; and the entropy sums written with the reciprocal powers of two as factors are the
  same sums written with quotients by 256 and by 65536.
-/
import Idealize.ShloMosaic.PureOps.Ideal.Laws
import Idealize.ShloMosaic.Lib.ValueIdx
import Idealize.ShloMosaic.Lib.Pipeline.Value
import Idealize.ShloMosaic.Lib.ValueLayout
import proofs.«139526_j23605140259217_2_alg».proof.Proof.Spec

noncomputable section

namespace Cert.ChannelMath

open Idealize.ShloMosaic Idealize.ShloMosaic.ValueIdx
open Cert.MISpec

/-! ## The infinities' words -/

/-- The f32 word of minus infinity denotes the bottom of the extended reals. -/
theorem ofBits_negInf : Ideal.ofBits .f32 0xFF800000#32 = ⊥ := by simp [Ideal.ofBits, Ideal.ieee]

/-- The f32 word of plus infinity denotes the top of the extended reals. -/
theorem ofBits_posInf : Ideal.ofBits .f32 0x7F800000#32 = ⊤ := by simp [Ideal.ofBits, Ideal.ieee]

/-! ## A maximum and a minimum over the two pixel axes -/

/-- An index of a 16×16×16 block reduces, over its two trailing axes, to the channel `j` exactly when its leading
    coordinate is `j`. -/
theorem drop_trailing_iff (h : Shape.Reduces ⟨3, ![16, 16, 16]⟩ [1, 2] ⟨1, ![16]⟩)
    (i : (⟨3, ![16, 16, 16]⟩ : Shape).Idx) (j : Fin 16) : h.drop i = ix1 j ↔ (i 0).val = j.val := by
  constructor
  · intro e
    have h0 := h.drop_apply_val_of_eq i 0 0
    rw [e] at h0
    exact h0.symm
  · intro e
    funext b
    apply Fin.ext
    match b with
    | ⟨0, _⟩ => exact (h.drop_apply_val_of_eq i 0 0).trans e

/-- The maximum of a 16×16×16 block over its two trailing axes, from minus infinity, is at channel `j` the
    supremum over the pixels of the channel's map. -/
theorem multiReduction_maximumf_trailing (v : FVec Ideal ⟨3, ![16, 16, 16]⟩ .f32)
    (h : Shape.Reduces ⟨3, ![16, 16, 16]⟩ [1, 2] ⟨1, ![16]⟩) (hφ : FKind.Formats .f32)
    (hacc : (0xFF800000#32 : BitVec 32) = FKind.maximumf.neutral .f32 hφ) (j : Fin 16) :
    multiReduction .maximumf [1, 2] ⟨1, ![16]⟩ v 0xFF800000#32 h hφ hacc (ix1 j)
      = mapMax (fun p => v (ix3 j p.1 p.2)) := by
  rw [multiReduction_maximumf_eq_fold]
  show (Finset.univ.filter fun i => h.drop i = ix1 j).fold max (Ideal.ofBits .f32 0xFF800000#32) v = _
  rw [ofBits_negInf]
  apply le_antisymm
  · refine (Finset.fold_max_le _).2 ⟨bot_le, fun i hi => ?_⟩
    have hi0 := (drop_trailing_iff h i j).1 (Finset.mem_filter.1 hi).2
    have e : i = ix3 j (i 1) (i 2) := by
      funext a; apply Fin.ext
      match a with
      | ⟨0, _⟩ => exact hi0
      | ⟨1, _⟩ => rfl
      | ⟨2, _⟩ => rfl
    rw [e]
    exact Finset.le_sup (f := fun p : Pix => v (ix3 j p.1 p.2)) (Finset.mem_univ ((i 1, i 2) : Pix))
  · refine Finset.sup_le fun p _ => (Finset.le_fold_max _).2 (Or.inr ⟨ix3 j p.1 p.2, ?_, le_rfl⟩)
    exact Finset.mem_filter.2 ⟨Finset.mem_univ _, (drop_trailing_iff h _ j).2 rfl⟩

/-- The minimum of a 16×16×16 block over its two trailing axes, from plus infinity, is at channel `j` the
    infimum over the pixels of the channel's map. -/
theorem multiReduction_minimumf_trailing (v : FVec Ideal ⟨3, ![16, 16, 16]⟩ .f32)
    (h : Shape.Reduces ⟨3, ![16, 16, 16]⟩ [1, 2] ⟨1, ![16]⟩) (hφ : FKind.Formats .f32)
    (hacc : (0x7F800000#32 : BitVec 32) = FKind.minimumf.neutral .f32 hφ) (j : Fin 16) :
    multiReduction .minimumf [1, 2] ⟨1, ![16]⟩ v 0x7F800000#32 h hφ hacc (ix1 j)
      = mapMin (fun p => v (ix3 j p.1 p.2)) := by
  rw [multiReduction_minimumf_eq_fold]
  show (Finset.univ.filter fun i => h.drop i = ix1 j).fold min (Ideal.ofBits .f32 0x7F800000#32) v = _
  rw [ofBits_posInf]
  apply le_antisymm
  · refine Finset.le_inf fun p _ => (Finset.fold_min_le _).2 (Or.inr ⟨ix3 j p.1 p.2, ?_, le_rfl⟩)
    exact Finset.mem_filter.2 ⟨Finset.mem_univ _, (drop_trailing_iff h _ j).2 rfl⟩
  · refine (Finset.le_fold_min _).2 ⟨le_top, fun i hi => ?_⟩
    have hi0 := (drop_trailing_iff h i j).1 (Finset.mem_filter.1 hi).2
    have e : i = ix3 j (i 1) (i 2) := by
      funext a; apply Fin.ext
      match a with
      | ⟨0, _⟩ => exact hi0
      | ⟨1, _⟩ => rfl
      | ⟨2, _⟩ => rfl
    rw [e]
    exact Finset.inf_le (f := fun p : Pix => v (ix3 j p.1 p.2)) (Finset.mem_univ ((i 1, i 2) : Pix))

/-! ## Sums over the pixel axes, over a row, and over a one-row table -/

/-- An index of a 16×16×256 table reduces, over its two leading axes, to the level `k` exactly when its trailing
    coordinate is `k`. -/
theorem drop_leading_iff (h : Shape.Reduces ⟨3, ![16, 16, 256]⟩ [0, 1] ⟨1, ![256]⟩)
    (i : (⟨3, ![16, 16, 256]⟩ : Shape).Idx) (k : Fin 256) : h.drop i = ix1 k ↔ (i 2).val = k.val := by
  constructor
  · intro e
    have h0 := h.drop_apply_val_of_eq i 0 2
    rw [e] at h0
    exact h0.symm
  · intro e
    funext b
    apply Fin.ext
    match b with
    | ⟨0, _⟩ => exact (h.drop_apply_val_of_eq i 0 2).trans e

/-- The sum of a 16×16×256 table over its two leading axes is, at level `k`, the sum over the pixels of the
    table's entries at that level. -/
theorem multiReduction_add_leading (v : FVec Ideal ⟨3, ![16, 16, 256]⟩ .f32)
    (h : Shape.Reduces ⟨3, ![16, 16, 256]⟩ [0, 1] ⟨1, ![256]⟩) (hφ : FKind.Formats .f32)
    (hacc : (0x00000000#32 : BitVec 32) = FKind.add.neutral .f32 hφ) (k : Fin 256) :
    multiReduction .add [0, 1] ⟨1, ![256]⟩ v 0x00000000#32 h hφ hacc (ix1 k) = ∑ p : Pix, v (ix3 p.1 p.2 k) := by
  show ∑ i ∈ Finset.univ.filter (fun i => h.drop i = ix1 k), v i = _
  have key : ∀ i ∈ Finset.univ.filter (fun i => h.drop i = ix1 k), ix3 (i 0) (i 1) k = i := by
    intro i hi
    have hi2 := (drop_leading_iff h i k).1 (Finset.mem_filter.1 hi).2
    funext a; apply Fin.ext
    match a with
    | ⟨0, _⟩ => rfl
    | ⟨1, _⟩ => rfl
    | ⟨2, _⟩ => exact hi2.symm
  refine Finset.sum_nbij' (fun i => ((i 0, i 1) : Pix)) (fun p => ix3 p.1 p.2 k) ?_ ?_ ?_ ?_ ?_
  · intro i _; exact Finset.mem_univ _
  · intro p _; exact Finset.mem_filter.2 ⟨Finset.mem_univ _, (drop_leading_iff h _ k).2 rfl⟩
  · intro i hi; exact key i hi
  · intro p _; rfl
  · intro i hi; exact congrArg v (key i hi).symm

/-- An index of a 256×256 table reduces, over its trailing axis, to the row `r` exactly when its leading
    coordinate is `r`. -/
theorem drop_row_iff (h : Shape.Reduces ⟨2, ![256, 256]⟩ [1] ⟨1, ![256]⟩)
    (i : (⟨2, ![256, 256]⟩ : Shape).Idx) (r : Fin 256) : h.drop i = ix1 r ↔ (i 0).val = r.val := by
  constructor
  · intro e
    have h0 := h.drop_apply_val_of_eq i 0 0
    rw [e] at h0
    exact h0.symm
  · intro e
    funext b
    apply Fin.ext
    match b with
    | ⟨0, _⟩ => exact (h.drop_apply_val_of_eq i 0 0).trans e

/-- The sum of a 256×256 table over its trailing axis is, at row `r`, the sum of the row's entries. -/
theorem multiReduction_add_row (v : FVec Ideal ⟨2, ![256, 256]⟩ .f32)
    (h : Shape.Reduces ⟨2, ![256, 256]⟩ [1] ⟨1, ![256]⟩) (hφ : FKind.Formats .f32)
    (hacc : (0x00000000#32 : BitVec 32) = FKind.add.neutral .f32 hφ) (r : Fin 256) :
    multiReduction .add [1] ⟨1, ![256]⟩ v 0x00000000#32 h hφ hacc (ix1 r) = ∑ c : Fin 256, v (ix2 r c) := by
  show ∑ i ∈ Finset.univ.filter (fun i => h.drop i = ix1 r), v i = _
  have key : ∀ i ∈ Finset.univ.filter (fun i => h.drop i = ix1 r), ix2 r (i 1) = i := by
    intro i hi
    have hi0 := (drop_row_iff h i r).1 (Finset.mem_filter.1 hi).2
    funext a; apply Fin.ext
    match a with
    | ⟨0, _⟩ => exact hi0.symm
    | ⟨1, _⟩ => rfl
  refine Finset.sum_nbij' (fun i => (i 1 : Fin 256)) (fun c => ix2 r c) ?_ ?_ ?_ ?_ ?_
  · intro i _; exact Finset.mem_univ _
  · intro c _; exact Finset.mem_filter.2 ⟨Finset.mem_univ _, (drop_row_iff h _ r).2 rfl⟩
  · intro i hi; exact key i hi
  · intro c _; rfl
  · intro i hi; exact congrArg v (key i hi).symm

/-- An index of a 1×256 table reduces, over its trailing axis, to the one row. -/
theorem drop_oneRow_iff (h : Shape.Reduces ⟨2, ![1, 256]⟩ [1] ⟨1, ![1]⟩)
    (i : (⟨2, ![1, 256]⟩ : Shape).Idx) (r : Fin 1) : h.drop i = ix1 r ↔ (i 0).val = r.val := by
  constructor
  · intro e
    have h0 := h.drop_apply_val_of_eq i 0 0
    rw [e] at h0
    exact h0.symm
  · intro e
    funext b
    apply Fin.ext
    match b with
    | ⟨0, _⟩ => exact (h.drop_apply_val_of_eq i 0 0).trans e

/-- The sum of a 1×256 table over its trailing axis is, at its one index, the sum of its entries. -/
theorem multiReduction_add_oneRow (v : FVec Ideal ⟨2, ![1, 256]⟩ .f32)
    (h : Shape.Reduces ⟨2, ![1, 256]⟩ [1] ⟨1, ![1]⟩) (hφ : FKind.Formats .f32)
    (hacc : (0x00000000#32 : BitVec 32) = FKind.add.neutral .f32 hφ) (r : Fin 1) :
    multiReduction .add [1] ⟨1, ![1]⟩ v 0x00000000#32 h hφ hacc (ix1 r) = ∑ c : Fin 256, v (ix2 r c) := by
  show ∑ i ∈ Finset.univ.filter (fun i => h.drop i = ix1 r), v i = _
  have key : ∀ i ∈ Finset.univ.filter (fun i => h.drop i = ix1 r), ix2 r (i 1) = i := by
    intro i hi
    have hi0 := (drop_oneRow_iff h i r).1 (Finset.mem_filter.1 hi).2
    funext a; apply Fin.ext
    match a with
    | ⟨0, _⟩ => exact hi0.symm
    | ⟨1, _⟩ => rfl
  refine Finset.sum_nbij' (fun i => (i 1 : Fin 256)) (fun c => ix2 r c) ?_ ?_ ?_ ?_ ?_
  · intro i _; exact Finset.mem_univ _
  · intro c _; exact Finset.mem_filter.2 ⟨Finset.mem_univ _, (drop_oneRow_iff h _ r).2 rfl⟩
  · intro i hi; exact key i hi
  · intro c _; rfl
  · intro i hi; exact congrArg v (key i hi).symm

/-! ## The contraction over the pixel axis -/

/-- Pixel (p, q) sits at position 16 p + q of the flattened pixel axis. -/
def pixOfPos : Fin 256 ≃ Pix where
  toFun c := (⟨c.val / 16, by omega⟩, ⟨c.val % 16, by omega⟩)
  invFun p := ⟨p.1.val * 16 + p.2.val, by omega⟩
  left_inv c := Fin.ext (by show c.val / 16 * 16 + c.val % 16 = c.val; omega)
  right_inv p := by
    apply Prod.ext <;> apply Fin.ext
    · show (p.1.val * 16 + p.2.val) / 16 = p.1.val; omega
    · show (p.1.val * 16 + p.2.val) % 16 = p.2.val; omega

/-- The position of pixel (p, q). -/
theorem pixOfPos_symm_val (p : Pix) : (pixOfPos.symm p).val = p.1.val * 16 + p.2.val := rfl

/-- A product of two 256×256 tables that contracts the leading axis of both, into the zero table: entry (i, j) is the
    sum over the contracted coordinate of the products of column `i` of the left table and column `j` of the right. -/
theorem matmul_contract_leading {φ₁ φ₂ : FTy} (d : DotDims ⟨2, ![256, 256]⟩ ⟨2, ![256, 256]⟩ ⟨2, ![256, 256]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![256, 256]⟩ φ₁) (rhs : FVec Ideal ⟨2, ![256, 256]⟩ φ₂)
    (i j : Fin 256) :
    matmul d prec lhs rhs (constant ⟨2, ![256, 256]⟩ .f32 0x00000000#32) (ix2 i j)
      = ∑ c : Fin 256, lhs (ix2 c i) * rhs (ix2 c j) := by
  obtain ⟨lc, rc, ln, rn, lb, rb, w⟩ := d
  dsimp only at hlc hrc hln hrn hlb hrb
  subst hlc hrc hln hrn hlb hrb
  show FloatOps.matmul _ prec lhs rhs _ (ix2 i j) = _
  rw [Ideal.matmul_constant_zero_apply,
    ← Equiv.sum_comp (contrEquiv1 (⟨[0], [0], [1], [1], [], [], w⟩ : DotDims _ _ _) 256 rfl rfl).symm]
  refine Finset.sum_congr rfl fun c _ => ?_
  have c2 := contrEquiv1_symm_val
    (⟨[0], [0], [1], [1], [], [], w⟩ : DotDims ⟨2, ![256, 256]⟩ ⟨2, ![256, 256]⟩ ⟨2, ![256, 256]⟩) 256 rfl rfl c
  have l2 : (⟨[0], [0], [1], [1], [], [], w⟩ : DotDims ⟨2, ![256, 256]⟩ ⟨2, ![256, 256]⟩ ⟨2, ![256, 256]⟩).lhsIdx (ix2 i j)
      ((contrEquiv1 _ 256 rfl rfl).symm c) = ix2 c i := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![256, 256]⟩ ⟨2, ![256, 256]⟩ ⟨2, ![256, 256]⟩).rhsIdx (ix2 i j)
      ((contrEquiv1 _ 256 rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- A 16×16×256 table viewed as a 256×256 one reads, at (flattened pixel, level), the table at (pixel, level). -/
theorem shapeCast_pixels_apply {α : Type} (a : (⟨3, ![16, 16, 256]⟩ : Shape).Idx → α)
    (hc : Shape.ShapeCasts ⟨3, ![16, 16, 256]⟩ ⟨2, ![256, 256]⟩) (p : Pix) (k : Fin 256) :
    shapeCast ⟨2, ![256, 256]⟩ a hc (ix2 (pixOfPos.symm p) k) = a (ix3 p.1 p.2 k) := by
  refine shapeCast_apply a hc _ (ix3 p.1 p.2 k) ?_
  rw [Shape.rowMajor_val_three, Shape.rowMajor_val_two]
  rfl

/-- The same view read at any position `r` of the flattened pixel axis: the table at pixel (r / 16, r % 16). -/
theorem shapeCast_pixels_apply' {α : Type} (a : (⟨3, ![16, 16, 256]⟩ : Shape).Idx → α)
    (hc : Shape.ShapeCasts ⟨3, ![16, 16, 256]⟩ ⟨2, ![256, 256]⟩) (r k : Fin 256) :
    shapeCast ⟨2, ![256, 256]⟩ a hc (ix2 r k) = a (ix3 (pixOfPos r).1 (pixOfPos r).2 k) := by
  rw [← shapeCast_pixels_apply a hc (pixOfPos r) k, Equiv.symm_apply_apply]

/-- The contraction over the pixel axis of two 16×16×256 tables, each narrowed and viewed as 256×256: entry (i, j) is
    the sum over the pixels of the products of the first table at level `i` and the second at level `j`. -/
theorem matmul_pixels (d : DotDims ⟨2, ![256, 256]⟩ ⟨2, ![256, 256]⟩ ⟨2, ![256, 256]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (a b : FVec Ideal ⟨3, ![16, 16, 256]⟩ .f32)
    (hw : FTy.bf16.bits < FTy.f32.bits) (hc : Shape.ShapeCasts ⟨3, ![16, 16, 256]⟩ ⟨2, ![256, 256]⟩) (i j : Fin 256) :
    matmul d prec (shapeCast ⟨2, ![256, 256]⟩ (truncf .bf16 a hw) hc) (shapeCast ⟨2, ![256, 256]⟩ (truncf .bf16 b hw) hc)
        (constant ⟨2, ![256, 256]⟩ .f32 0x00000000#32) (ix2 i j)
      = ∑ p : Pix, a (ix3 p.1 p.2 i) * b (ix3 p.1 p.2 j) := by
  rw [matmul_contract_leading d hlc hrc hln hrn hlb hrb, ← Equiv.sum_comp pixOfPos.symm]
  refine Finset.sum_congr rfl fun p _ => ?_
  rw [shapeCast_pixels_apply, shapeCast_pixels_apply]
  rfl

/-! ## The indicator of an integer equality, the level counts and the pair counts -/

/-- The one-bit word of an equality of two 32-bit integers, widened to 32 bits and converted to a float, is the 0/1
    indicator of the equality. -/
theorem indicator_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases e : a = b
  · have hb : (a == b) = true := by simpa using e
    have hc : IntOp.cmpi .eq a b = 1#1 := by simp [IntOp.cmpi, hb]
    have h1 : ((1#1 : BitVec 1).setWidth 32).toInt = 1 := by decide
    rw [if_pos e, hc, h1]
    simp
  · have hb : (a == b) = false := by simpa using e
    have hc : IntOp.cmpi .eq a b = 0#1 := by simp [IntOp.cmpi, hb]
    have h0 : ((0#1 : BitVec 1).setWidth 32).toInt = 0 := by decide
    rw [if_neg e, hc, h0]
    simp

/-- The same over vectors, read at an index. -/
theorem indicator_apply {s : Shape} (a b : IVec s 32) (hw : 1 < 32) (i : s.Idx) :
    (sitofp .f32 (extui 32 (cmpi .eq a b) hw) : FVec Ideal s .f32) i = if a i = b i then (1 : EReal) else 0 :=
  indicator_word (a i) (b i)

/-- The level numbering along the trailing axis of a 1×1×1×256 vector reads, at level `k`, the 32-bit word of `k`. -/
theorem iota_levels_apply (κ : Kind) (h : Shape.Iotas ⟨4, ![1, 1, 1, 256]⟩ κ 32 [3]) (k : Fin 256) :
    iota κ ⟨4, ![1, 1, 1, 256]⟩ 32 [3] h (ix4 0 0 0 k) = BitVec.ofNat 32 k.val := by
  rw [iota_single_apply]

/-- The sum over the pixels of the one-hot table of a quantised map `B` is, at level `k`, the number of pixels of
    `B` at level `k`. -/
theorem sum_oneHot_eq_count (B : Pix → BitVec 32) (v : FVec Ideal ⟨3, ![16, 16, 256]⟩ .f32)
    (hv : ∀ (p q : Fin 16) (k : Fin 256), v (ix3 p q k) = if B (p, q) = BitVec.ofNat 32 k.val then (1 : EReal) else 0)
    (h : Shape.Reduces ⟨3, ![16, 16, 256]⟩ [0, 1] ⟨1, ![256]⟩) (hφ : FKind.Formats .f32)
    (hacc : (0x00000000#32 : BitVec 32) = FKind.add.neutral .f32 hφ) (k : Fin 256) :
    multiReduction .add [0, 1] ⟨1, ![256]⟩ v 0x00000000#32 h hφ hacc (ix1 k) = MISpec.count B k := by
  rw [multiReduction_add_leading]
  unfold MISpec.count
  exact Finset.sum_congr rfl fun p _ => hv p.1 p.2 k

/-- The contraction over the pixel axis of the one-hot tables of two quantised maps `B` and `Bp` is, at levels
    (i, j), the number of pixels at level `i` in `B` and at level `j` in `Bp`. -/
theorem matmul_oneHot_eq_countJ (B Bp : Pix → BitVec 32) (a b : FVec Ideal ⟨3, ![16, 16, 256]⟩ .f32)
    (ha : ∀ (p q : Fin 16) (k : Fin 256), a (ix3 p q k) = if B (p, q) = BitVec.ofNat 32 k.val then (1 : EReal) else 0)
    (hb : ∀ (p q : Fin 16) (k : Fin 256), b (ix3 p q k) = if Bp (p, q) = BitVec.ofNat 32 k.val then (1 : EReal) else 0)
    (d : DotDims ⟨2, ![256, 256]⟩ ⟨2, ![256, 256]⟩ ⟨2, ![256, 256]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (hw : FTy.bf16.bits < FTy.f32.bits)
    (hc : Shape.ShapeCasts ⟨3, ![16, 16, 256]⟩ ⟨2, ![256, 256]⟩) (i j : Fin 256) :
    matmul d prec (shapeCast ⟨2, ![256, 256]⟩ (truncf .bf16 a hw) hc) (shapeCast ⟨2, ![256, 256]⟩ (truncf .bf16 b hw) hc)
        (constant ⟨2, ![256, 256]⟩ .f32 0x00000000#32) (ix2 i j)
      = countJ B Bp i j := by
  rw [matmul_pixels d hlc hrc hln hrn hlb hrb]
  unfold MISpec.countJ
  exact Finset.sum_congr rfl fun p _ => by rw [ha p.1 p.2 i, hb p.1 p.2 j]

/-! ## The constants' words and the entropy sums -/

/-- The word of 256.0 denotes the real 256. -/
theorem c256_eq : c256 = ((256 : ℝ) : EReal) := by
  unfold c256; simp [Ideal.ofBits, Ideal.ieee, -EReal.coe_mul]; norm_num

/-- The word of 65536.0 denotes the real 65536. -/
theorem c65536_eq : c65536 = ((65536 : ℝ) : EReal) := by
  unfold c65536; simp [Ideal.ofBits, Ideal.ieee, -EReal.coe_mul]; norm_num

/-- The word of 2⁻⁸ denotes the real 1/256. -/
theorem ofBits_inv256 : Ideal.ofBits .f32 0x3B800000#32 = ((1 / 256 : ℝ) : EReal) := by
  simp [Ideal.ofBits, Ideal.ieee, -EReal.coe_mul]; norm_num

/-- The word of 2⁻¹⁶ denotes the real 1/65536. -/
theorem ofBits_inv65536 : Ideal.ofBits .f32 0x37800000#32 = ((1 / 65536 : ℝ) : EReal) := by
  simp [Ideal.ofBits, Ideal.ieee, -EReal.coe_mul]; norm_num

/-- A product with 2⁻⁸ is the quotient by 256, on every extended real. -/
theorem mul_inv256 (x : EReal) : x * Ideal.ofBits .f32 0x3B800000#32 = Ideal.div x c256 := by
  rw [c256_eq, Ideal.div_coe (by norm_num), ofBits_inv256]

/-- A product with 2⁻¹⁶ is the quotient by 65536, on every extended real. -/
theorem mul_inv65536 (x : EReal) : x * Ideal.ofBits .f32 0x37800000#32 = Ideal.div x c65536 := by
  rw [c65536_eq, Ideal.div_coe (by norm_num), ofBits_inv65536]

/-- Zero minus an extended real is its negation. -/
theorem zero_sub_eq_neg (x : EReal) : Ideal.ofBits .f32 0x00000000#32 - x = -x := by
  rw [Ideal.ofBits_zero_f32, sub_eq_add_neg, zero_add]

/-- The marginal entropy sum written with the factor 2⁻⁸ is the one written with the quotient by 256. -/
theorem entropy_marginal (n : Fin 256 → EReal) :
    Ideal.ofBits .f32 0x00000000#32
        - ∑ i : Fin 256, (n i * Ideal.ofBits .f32 0x3B800000#32)
            * Ideal.log (n i * Ideal.ofBits .f32 0x3B800000#32 + eps)
      = -(∑ i : Fin 256, Ideal.div (n i) c256 * Ideal.log (Ideal.div (n i) c256 + eps)) := by
  rw [zero_sub_eq_neg]
  simp only [mul_inv256]

/-- With the level counts of a quantised map, that sum is the entropy of its level frequencies. -/
theorem entropy_marginal_count (B : Pix → BitVec 32) :
    Ideal.ofBits .f32 0x00000000#32
        - ∑ i : Fin 256, (MISpec.count B i * Ideal.ofBits .f32 0x3B800000#32)
            * Ideal.log (MISpec.count B i * Ideal.ofBits .f32 0x3B800000#32 + eps)
      = entropyMs B :=
  entropy_marginal (MISpec.count B)

/-- The joint entropy sum, rows first, written with the factor 2⁻¹⁶ is the one written with the quotient by 65536. -/
theorem entropy_joint (n m : Fin 256 → EReal) (J : Fin 256 → Fin 256 → EReal) :
    Ideal.ofBits .f32 0x00000000#32
        - ∑ i : Fin 256, ∑ j : Fin 256, ((((c256 - n i) - m j) + c2 * J i j) * Ideal.ofBits .f32 0x37800000#32)
            * Ideal.log ((((c256 - n i) - m j) + c2 * J i j) * Ideal.ofBits .f32 0x37800000#32 + eps)
      = -(∑ i : Fin 256, ∑ j : Fin 256, Ideal.div (((c256 - n i) - m j) + c2 * J i j) c65536
            * Ideal.log (Ideal.div (((c256 - n i) - m j) + c2 * J i j) c65536 + eps)) := by
  rw [zero_sub_eq_neg]
  simp only [mul_inv65536]

/-- With the level counts and the pair counts of two quantised maps, that sum is the entropy of their scaled agreement
    table. -/
theorem entropy_joint_count (B Bp : Pix → BitVec 32) :
    Ideal.ofBits .f32 0x00000000#32
        - ∑ i : Fin 256, ∑ j : Fin 256,
            ((((c256 - MISpec.count B i) - MISpec.count Bp j) + c2 * countJ B Bp i j) * Ideal.ofBits .f32 0x37800000#32)
            * Ideal.log ((((c256 - MISpec.count B i) - MISpec.count Bp j) + c2 * countJ B Bp i j) * Ideal.ofBits .f32 0x37800000#32 + eps)
      = entropyJoint B Bp :=
  entropy_joint (MISpec.count B) (MISpec.count Bp) (countJ B Bp)

end Cert.ChannelMath

end
-- ==== Proof.BodyValue.lean ====
import proofs.«139526_j23605140259217_2_alg».proof.Proof.BodyFrag
import proofs.«139526_j23605140259217_2_alg».proof.Proof.Spec
import proofs.«139526_j23605140259217_2_alg».proof.Proof.LibChannelMath
import Idealize.ShloMosaic.PureOps.Ideal.Laws
import Idealize.ShloMosaic.Lib.Pipeline.Value
import Idealize.ShloMosaic.Lib.ValueIdx
import Idealize.ShloMosaic.Lib.ValueLayout

/-! The second kernel's body, part two: what it stores, read at the extended reals. Each channel's entry of the stored
    block is the mutual-information score of that channel's 16×16 map against the reference map: the stack of one-hot
    maps is the indicator of each channel's grey levels; a one-hot map summed over the pixels is the level counts,
    contracted with the reference's one-hot table over the pixels the pair counts; the two entropies follow, and the
    sixteen results laid end to end are read at the channel. -/

noncomputable section

namespace Cert.KernelIdeal.BodyValue

open Idealize.ShloMosaic Idealize.ShloMosaic.ValueIdx Cert.KernelIdeal Cert.KernelIdeal.Gen

section Stages2
variable {F : FTy → Type} [FloatOps F]

/-- Each channel's maximum and minimum over its pixels. -/
def mxVec (v0 : Vec F S1x16x16x16 .f32) : FVec F S16 .f32 :=
  multiReduction .maximumf [1, 2] S16 (shapeCast S16x16x16 v0 shapeCasts_S1x16x16x16_S16x16x16) 0xFF800000#32 reduces_S16x16x16_S16 (.inl rfl) rfl
def mnVec (v0 : Vec F S1x16x16x16 .f32) : FVec F S16 .f32 :=
  multiReduction .minimumf [1, 2] S16 (shapeCast S16x16x16 v0 shapeCasts_S1x16x16x16_S16x16x16) 0x7F800000#32 reduces_S16x16x16_S16 (.inl rfl) rfl

/-- The sixteen channels' grey levels: rescale between minimum and maximum, truncate, clip. -/
def quantLevels (v0 : Vec F S1x16x16x16 .f32) : IVec S16x16x16 32 :=
  minsi (broadcast S16x16x16 255#32) (maxsi (broadcast S16x16x16 0#32) (fptosi 32
    (mulf (divf (subf (shapeCast S16x16x16 v0 shapeCasts_S1x16x16x16_S16x16x16)
                      (broadcastTo S16x16x16 (shapeCast S16x1x1 (mnVec v0) shapeCasts_S16_S16x1x1) broadcasts_S16x1x1_S16x16x16))
                (broadcastTo S16x16x16 (subf (shapeCast S16x1x1 (mxVec v0) shapeCasts_S16_S16x1x1) (shapeCast S16x1x1 (mnVec v0) shapeCasts_S16_S16x1x1)) broadcasts_S16x1x1_S16x16x16))
          (broadcast S16x16x16 (Scalar.ofBits .f32 0x437F0000#32)))))

theorem pay3_eq (v0 : Vec F S1x16x16x16 .f32) :
    k1_pay3 v0 = sitofp .f32 (extui 32 (cmpi .eq
      (broadcastTo S16x16x16x256 (shapeCast S16x16x16x1 (quantLevels v0) shapeCasts_S16x16x16_S16x16x16x1) broadcasts_S16x16x16x1_S16x16x16x256)
      (broadcastTo S16x16x16x256 (iota .tc S1x1x1x256 32 [3] iota_S1x1x1x256_d3_w32) broadcasts_S1x1x1x256_S16x16x16x256)) natLt_1_32) := by
  unfold k1_pay3 quantLevels mxVec mnVec; rfl

theorem pay2_eq (v32 : F .f32) (v721 v722 : FVec F S16 .f32) :
    k1_pay2 v32 v721 v722 = shapeCast S1x16x1 (subf (addf (broadcast S16 v32) v722) v721) shapeCasts_S16_S1x16x1 := by
  unfold k1_pay2; rfl

end Stages2

/-! ## The per-channel term in named stages -/

section Stages
variable {F : FTy → Type} [FloatOps F]

/-- Minus the total of a 256-vector, as the body forms it: one row, summed, read at its one entry, subtracted from zero. -/
def negTotal (W : FVec F S256 .f32) : FVec F S1 .f32 :=
  subf (broadcast S1 (Scalar.ofBits .f32 0x00000000#32))
    (broadcast S1 (extractAt ![0, 0] (shapeCast S1x1 (multiReduction .add [1] S1 (shapeCast S1x256 W shapeCasts_S256_S1x256) 0x00000000#32 reduces_S1x256_S1 (.inl rfl) rfl) shapeCasts_S1_S1x1) inpos_S1x1_p0_0))

/-- The marginal entropy's summand `p log (p + ε)` with `p = n · 2⁻⁸`. -/
def msTerm (n : FVec F S256 .f32) : FVec F S256 .f32 :=
  mulf (mulf n (broadcast S256 (Scalar.ofBits .f32 0x3B800000#32)))
    (log (addf (mulf n (broadcast S256 (Scalar.ofBits .f32 0x3B800000#32))) (broadcast S256 (Scalar.ofBits .f32 0x322BCC77#32))))

/-- The scaled agreement table `((256 − n_i) − m_k + 2 J_ik) · 2⁻¹⁶`. -/
def jP (v29 : FVec F S256 .f32) (J : FVec F S256x256 .f32) (n : FVec F S256 .f32) : FVec F S256x256 .f32 :=
  mulf (addf (subf (broadcastTo S256x256 (subf (broadcast S256x1 (Scalar.ofBits .f32 0x43800000#32)) (shapeCast S256x1 n shapeCasts_S256_S256x1)) broadcasts_S256x1_S256x256)
                   (broadcastTo S256x256 (shapeCast S1x256 v29 shapeCasts_S256_S1x256) broadcasts_S1x256_S256x256))
             (mulf (broadcast S256x256 (Scalar.ofBits .f32 0x40000000#32)) J))
       (broadcast S256x256 (Scalar.ofBits .f32 0x37800000#32))

/-- The joint entropy's summand `p log (p + ε)`. -/
def jTerm (P : FVec F S256x256 .f32) : FVec F S256x256 .f32 :=
  mulf P (log (addf P (broadcast S256x256 (Scalar.ofBits .f32 0x322BCC77#32))))

/-- The row sums of a 256×256 table. -/
def rowSums (T : FVec F S256x256 .f32) : FVec F S256 .f32 :=
  multiReduction .add [1] S256 T 0x00000000#32 reduces_S256x256_S256 (.inl rfl) rfl

theorem pay12_eq (n : FVec F S256 .f32) : k1_pay12 n = negTotal (msTerm n) := by
  unfold k1_pay12 negTotal msTerm; rfl
theorem pay11_eq (v29 : FVec F S256 .f32) (J : FVec F S256x256 .f32) (n : FVec F S256 .f32) :
    k1_pay11 v29 J n = negTotal (rowSums (jTerm (jP v29 J n))) := by
  unfold k1_pay11 negTotal rowSums jTerm jP; rfl

end Stages

/-! ## Reading at the extended reals -/

section AtIdeal
open Cert.ChannelMath Cert.MISpec

/-- Sixteen one-element pieces laid end to end, read at `j`: piece `j`. -/
theorem concat16_apply {α : Type} (f : Fin 16 → (S1.Idx → α))
    (h : Shape.Concatenates (([⟨S1, f 0⟩, ⟨S1, f 1⟩, ⟨S1, f 2⟩, ⟨S1, f 3⟩, ⟨S1, f 4⟩, ⟨S1, f 5⟩, ⟨S1, f 6⟩, ⟨S1, f 7⟩, ⟨S1, f 8⟩, ⟨S1, f 9⟩, ⟨S1, f 10⟩, ⟨S1, f 11⟩, ⟨S1, f 12⟩, ⟨S1, f 13⟩, ⟨S1, f 14⟩, ⟨S1, f 15⟩] : List ((s : Shape) × (s.Idx → α))).map (·.1)) S16 0) (j : Fin 16) :
    concatenate S16 0 [⟨S1, f 0⟩, ⟨S1, f 1⟩, ⟨S1, f 2⟩, ⟨S1, f 3⟩, ⟨S1, f 4⟩, ⟨S1, f 5⟩, ⟨S1, f 6⟩, ⟨S1, f 7⟩, ⟨S1, f 8⟩, ⟨S1, f 9⟩, ⟨S1, f 10⟩, ⟨S1, f 11⟩, ⟨S1, f 12⟩, ⟨S1, f 13⟩, ⟨S1, f 14⟩, ⟨S1, f 15⟩] h (ix1 j) = f j (ix1 (0 : Fin 1)) := by
  have hl : ([⟨S1, f 0⟩, ⟨S1, f 1⟩, ⟨S1, f 2⟩, ⟨S1, f 3⟩, ⟨S1, f 4⟩, ⟨S1, f 5⟩, ⟨S1, f 6⟩, ⟨S1, f 7⟩, ⟨S1, f 8⟩, ⟨S1, f 9⟩, ⟨S1, f 10⟩, ⟨S1, f 11⟩, ⟨S1, f 12⟩, ⟨S1, f 13⟩, ⟨S1, f 14⟩, ⟨S1, f 15⟩] : List ((s : Shape) × (s.Idx → α))) = List.ofFn fun n : Fin 16 => ⟨S1, f n⟩ := rfl
  revert h
  rw [hl]
  intro h
  exact concatenate_ofFn_unit_apply (t := S16) (s₁ := S1) 0 f h rfl rfl (ix1 j) j rfl (ix1 (0 : Fin 1))
    (fun b hb => absurd (Subsingleton.elim _ _) hb)

/-- Minus the total, read: zero less the sum. -/
theorem negTotal_read (W : FVec Ideal S256 .f32) :
    negTotal W (ix1 (0 : Fin 1)) = Ideal.ofBits .f32 0x00000000#32 - ∑ i : Fin 256, W (ix1 i) := by
  unfold negTotal
  show Ideal.ofBits .f32 0x00000000#32 - shapeCast S1x1 _ shapeCasts_S1_S1x1 (fun a => ⟨![0, 0] a, inpos_S1x1_p0_0 a⟩) = _
  rw [shapeCast_apply _ _ _ (ix1 (0 : Fin 1)) (by rw [Shape.rowMajor_val_one, Shape.rowMajor_val_two]; rfl)]
  refine congrArg (fun t => Ideal.ofBits .f32 0x00000000#32 - t) ?_
  refine (multiReduction_add_oneRow _ _ _ _ (0 : Fin 1)).trans ?_
  exact Finset.sum_congr rfl fun c _ => shapeCast_a_1a_apply W _ (0 : Fin 1) c

/-- The row sums, read. -/
theorem rowSums_read (T : FVec Ideal S256x256 .f32) (i : Fin 256) : rowSums T (ix1 i) = ∑ k : Fin 256, T (ix2 i k) :=
  multiReduction_add_row _ _ _ _ i

/-- The marginal summand, read. -/
theorem msTerm_read (n : FVec Ideal S256 .f32) (i : Fin 256) :
    msTerm n (ix1 i) = (n (ix1 i) * Ideal.ofBits .f32 0x3B800000#32) * Ideal.log (n (ix1 i) * Ideal.ofBits .f32 0x3B800000#32 + eps) := rfl

/-- The joint summand, read. -/
theorem jTerm_read (P : FVec Ideal S256x256 .f32) (i k : Fin 256) :
    jTerm P (ix2 i k) = P (ix2 i k) * Ideal.log (P (ix2 i k) + eps) := rfl

/-- The scaled agreement table, read. -/
theorem jP_read (v29 : FVec Ideal S256 .f32) (J : FVec Ideal S256x256 .f32) (n : FVec Ideal S256 .f32) (i k : Fin 256) :
    jP v29 J n (ix2 i k) = (((c256 - n (ix1 i)) - v29 (ix1 k)) + c2 * J (ix2 i k)) * Ideal.ofBits .f32 0x37800000#32 := by
  unfold jP
  show ((broadcastTo S256x256 _ broadcasts_S256x1_S256x256 (ix2 i k) - broadcastTo S256x256 _ broadcasts_S1x256_S256x256 (ix2 i k)) + c2 * J (ix2 i k)) * Ideal.ofBits .f32 0x37800000#32 = _
  rw [broadcastTo_1b_ab_apply, shapeCast_a_1a_apply]
  rw [broadcastTo_apply _ _ (ix2 i k) (ix2 i (0 : Fin 1)) (fun ax => by
    match ax with
    | ⟨0, _⟩ => rfl
    | ⟨1, _⟩ => rfl)]
  show (((c256 - shapeCast S256x1 n shapeCasts_S256_S256x1 (ix2 i (0 : Fin 1))) - v29 (ix1 k)) + c2 * J (ix2 i k)) * Ideal.ofBits .f32 0x37800000#32 = _
  rw [shapeCast_apply n _ (ix2 i (0 : Fin 1)) (ix1 i) (by rw [Shape.rowMajor_val_one, Shape.rowMajor_val_two]; show i.val = i.val * 1 + 0; omega)]

/-! ### The layout operations of the body, read at an index -/

theorem bcast_c11_apply {α : Type} (v : S16x1x1.Idx → α) (hb : S16x1x1.Broadcasts S16x16x16) (c h w : Fin 16) :
    broadcastTo S16x16x16 v hb (ix3 c h w) = v (ix3 c (0 : Fin 1) (0 : Fin 1)) :=
  broadcastTo_apply v hb (ix3 c h w) (ix3 c (0 : Fin 1) (0 : Fin 1)) fun ax => by
    match ax with
    | ⟨0, _⟩ => rfl
    | ⟨1, _⟩ => rfl
    | ⟨2, _⟩ => rfl

theorem bcast_chw1_apply {α : Type} (v : S16x16x16x1.Idx → α) (hb : S16x16x16x1.Broadcasts S16x16x16x256) (c h w : Fin 16) (k : Fin 256) :
    broadcastTo S16x16x16x256 v hb (ix4 c h w k) = v (ix4 c h w (0 : Fin 1)) :=
  broadcastTo_apply v hb (ix4 c h w k) (ix4 c h w (0 : Fin 1)) fun ax => by
    match ax with
    | ⟨0, _⟩ => rfl
    | ⟨1, _⟩ => rfl
    | ⟨2, _⟩ => rfl
    | ⟨3, _⟩ => rfl

theorem bcast_111k_apply {α : Type} (v : S1x1x1x256.Idx → α) (hb : S1x1x1x256.Broadcasts S16x16x16x256) (c h w : Fin 16) (k : Fin 256) :
    broadcastTo S16x16x16x256 v hb (ix4 c h w k) = v (ix4 (0 : Fin 1) (0 : Fin 1) (0 : Fin 1) k) :=
  broadcastTo_apply v hb (ix4 c h w k) (ix4 (0 : Fin 1) (0 : Fin 1) (0 : Fin 1) k) fun ax => by
    match ax with
    | ⟨0, _⟩ => rfl
    | ⟨1, _⟩ => rfl
    | ⟨2, _⟩ => rfl
    | ⟨3, _⟩ => rfl

theorem cast_c_c11_apply {α : Type} (v : S16.Idx → α) (hc : S16.ShapeCasts S16x1x1) (c : Fin 16) :
    shapeCast S16x1x1 v hc (ix3 c (0 : Fin 1) (0 : Fin 1)) = v (ix1 c) :=
  shapeCast_apply v hc _ _ (by
    rw [Shape.rowMajor_val_one, Shape.rowMajor_val_three]
    show c.val = (c.val * 1 + 0) * 1 + 0
    omega)

theorem cast_chw_chw1_apply {α : Type} (v : S16x16x16.Idx → α) (hc : S16x16x16.ShapeCasts S16x16x16x1) (c h w : Fin 16) :
    shapeCast S16x16x16x1 v hc (ix4 c h w (0 : Fin 1)) = v (ix3 c h w) :=
  shapeCast_apply v hc _ _ (by
    rw [Shape.rowMajor_val_three, Shape.rowMajor_val_four]
    show (c.val * 16 + h.val) * 16 + w.val = ((c.val * 16 + h.val) * 16 + w.val) * 1 + 0
    omega)

/-- A channel's one-hot map read: the stack at that channel. -/
theorem chan_read (o : Fin 16) (v24 : FVec Ideal S16x16x16x256 .f32) (h w : Fin 16) (k : Fin 256) :
    chan o.val o.isLt v24 (ix3 h w k) = v24 (ix4 o h w k) := by
  unfold chan
  rw [shapeCast_1abc_abc_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm
    | ⟨3, _⟩ => exact (Nat.zero_add _).symm)

/-! ### The quantisation, read -/

/-- The grey levels the body computes are the specification's `levels` of each channel's map. -/
theorem quantLevels_read (x0 : Vec Ideal S1x16x16x16 .f32) (c h w : Fin 16) :
    quantLevels x0 (ix3 c h w) = MISpec.levels (fun p => x0 (ix4 (0 : Fin 1) c p.1 p.2)) (h, w) := by
  have hmx : mxVec x0 (ix1 c) = mapMax (fun p => x0 (ix4 (0 : Fin 1) c p.1 p.2)) := by
    unfold mxVec
    refine (multiReduction_maximumf_trailing _ _ _ _ c).trans ?_
    exact congrArg mapMax (funext fun p => shapeCast_1abc_abc_apply x0 _ c p.1 p.2)
  have hmn : mnVec x0 (ix1 c) = mapMin (fun p => x0 (ix4 (0 : Fin 1) c p.1 p.2)) := by
    unfold mnVec
    refine (multiReduction_minimumf_trailing _ _ _ _ c).trans ?_
    exact congrArg mapMin (funext fun p => shapeCast_1abc_abc_apply x0 _ c p.1 p.2)
  unfold quantLevels MISpec.levels MISpec.level
  show IntOp.minsi 255#32 (IntOp.maxsi 0#32 (Ideal.fptosi 32 (Ideal.div
      (shapeCast S16x16x16 x0 shapeCasts_S1x16x16x16_S16x16x16 (ix3 c h w)
        - broadcastTo S16x16x16 (shapeCast S16x1x1 (mnVec x0) shapeCasts_S16_S16x1x1) broadcasts_S16x1x1_S16x16x16 (ix3 c h w))
      (broadcastTo S16x16x16 (subf (shapeCast S16x1x1 (mxVec x0) shapeCasts_S16_S16x1x1) (shapeCast S16x1x1 (mnVec x0) shapeCasts_S16_S16x1x1)) broadcasts_S16x1x1_S16x16x16 (ix3 c h w)) * c255))) = _
  rw [bcast_c11_apply, bcast_c11_apply, shapeCast_1abc_abc_apply]
  show IntOp.minsi 255#32 (IntOp.maxsi 0#32 (Ideal.fptosi 32 (Ideal.div
      (x0 (ix4 (0 : Fin 1) c h w) - shapeCast S16x1x1 (mnVec x0) shapeCasts_S16_S16x1x1 (ix3 c (0 : Fin 1) (0 : Fin 1)))
      (shapeCast S16x1x1 (mxVec x0) shapeCasts_S16_S16x1x1 (ix3 c (0 : Fin 1) (0 : Fin 1)) - shapeCast S16x1x1 (mnVec x0) shapeCasts_S16_S16x1x1 (ix3 c (0 : Fin 1) (0 : Fin 1))) * c255))) = _
  rw [cast_c_c11_apply, cast_c_c11_apply, hmx, hmn]

/-- The stack of one-hot maps, read: the indicator of the channel's level at the pixel. -/
theorem stack_read (x0 : Vec Ideal S1x16x16x16 .f32) (c h w : Fin 16) (k : Fin 256) :
    k1_pay3 x0 (ix4 c h w k) =
      if MISpec.levels (fun p => x0 (ix4 (0 : Fin 1) c p.1 p.2)) (h, w) = BitVec.ofNat 32 k.val then (1 : EReal) else 0 := by
  rw [pay3_eq, indicator_apply, bcast_chw1_apply, bcast_111k_apply, cast_chw_chw1_apply, iota_levels_apply, quantLevels_read]

/-- The reference's one-hot table, read. -/
theorem table_read (x1 : Vec Ideal S1x16x16x256 .f32) (h w : Fin 16) (k : Fin 256) :
    k1_pay4 x1 (ix3 h w k) = x1 (ix4 (0 : Fin 1) h w k) := by
  unfold k1_pay4
  exact shapeCast_1abc_abc_apply x1 _ h w k

/-! ### The counts -/

section Counts
variable (x0 : Vec Ideal S1x16x16x16 .f32) (x1 : Vec Ideal S1x16x16x256 .f32) (Bp : Pix → BitVec 32)

/-- The table summed over the pixels: the reference map's level counts. -/
theorem table_count (hx1 : ∀ (h w : Fin 16) (k : Fin 256), x1 (ix4 (0 : Fin 1) h w k) = if Bp (h, w) = BitVec.ofNat 32 k.val then (1 : EReal) else 0) (k : Fin 256) : k1_pay6 x1 (ix1 k) = MISpec.count Bp k := by
  unfold k1_pay6
  exact sum_oneHot_eq_count Bp (k1_pay4 x1) (fun p q k => by rw [table_read, hx1]) _ _ _ k

/-- A channel's one-hot map summed over the pixels: its level counts. -/
theorem chan_count (j : Fin 16) (i : Fin 256) :
    nVec (chan j.val j.isLt (k1_pay3 x0)) (ix1 i) = MISpec.count (MISpec.levels fun p => x0 (ix4 (0 : Fin 1) j p.1 p.2)) i := by
  unfold nVec
  exact sum_oneHot_eq_count _ _ (fun p q k => by rw [chan_read, stack_read]) _ _ _ i

/-- A channel's one-hot map contracted with the table over the pixels: the pair counts. -/
theorem chan_countJ (hx1 : ∀ (h w : Fin 16) (k : Fin 256), x1 (ix4 (0 : Fin 1) h w k) = if Bp (h, w) = BitVec.ofNat 32 k.val then (1 : EReal) else 0)
    (j : Fin 16) (i k : Fin 256) :
    jMat (chan j.val j.isLt (k1_pay3 x0)) (k1_pay5 x1) (ix2 i k)
      = MISpec.countJ (MISpec.levels fun p => x0 (ix4 (0 : Fin 1) j p.1 p.2)) Bp i k := by
  unfold jMat k1_pay5
  exact matmul_oneHot_eq_countJ _ Bp _ _ (fun p q k => by rw [chan_read, stack_read]) (fun p q k => by rw [table_read, hx1])
    _ rfl rfl rfl rfl rfl rfl none _ _ i k

/-- A channel's marginal entropy. -/
theorem chanM_read (j : Fin 16) :
    chanM (k1_pay3 x0) j (ix1 (0 : Fin 1)) = MISpec.entropyMs (MISpec.levels fun p => x0 (ix4 (0 : Fin 1) j p.1 p.2)) := by
  unfold chanM
  rw [pay12_eq, negTotal_read]
  refine Eq.trans ?_ (entropy_marginal_count _)
  refine congrArg (fun t => Ideal.ofBits .f32 0x00000000#32 - t) ?_
  exact Finset.sum_congr rfl fun i _ => by rw [msTerm_read, chan_count]

/-- A channel's joint entropy against the reference map. -/
theorem chanJ_read (hx1 : ∀ (h w : Fin 16) (k : Fin 256), x1 (ix4 (0 : Fin 1) h w k) = if Bp (h, w) = BitVec.ofNat 32 k.val then (1 : EReal) else 0)
    (j : Fin 16) :
    chanJ (k1_pay3 x0) (k1_pay5 x1) (k1_pay6 x1) j (ix1 (0 : Fin 1))
      = MISpec.entropyJoint (MISpec.levels fun p => x0 (ix4 (0 : Fin 1) j p.1 p.2)) Bp := by
  unfold chanJ
  rw [pay11_eq, negTotal_read]
  refine Eq.trans ?_ (entropy_joint_count _ Bp)
  refine congrArg (fun t => Ideal.ofBits .f32 0x00000000#32 - t) ?_
  refine Finset.sum_congr rfl fun i _ => ?_
  rw [rowSums_read]
  refine Finset.sum_congr rfl fun k _ => ?_
  rw [jTerm_read, jP_read, chan_count, table_count x1 Bp hx1, chan_countJ x0 x1 Bp hx1]

end Counts

theorem hzA : (![0, 0, 0, 0] : Fin S1x16x16x16.rank → Nat) = fun _ => 0 := funext fun a => by fin_cases a <;> rfl
theorem hzB : (![0, 0, 0, 0] : Fin S1x16x16x256.rank → Nat) = fun _ => 0 := funext fun a => by fin_cases a <;> rfl
theorem hzC : (![0, 0, 0] : Fin S1x1x1.rank → Nat) = fun _ => 0 := funext fun a => by fin_cases a <;> rfl
theorem hzD : (![0, 0, 0] : Fin S1x16x1.rank → Nat) = fun _ => 0 := funext fun a => by fin_cases a <;> rfl

/-- The reference map's entropy, read off its one-entry block. -/
theorem hp_read (x2 : Vec Ideal S1x1x1 .f32) : k1_pay7 x2 = x2 (ix3 (0 : Fin 1) (0 : Fin 1) (0 : Fin 1)) := by
  unfold k1_pay7
  show shapeCast S1x1 x2 shapeCasts_S1x1x1_S1x1 (fun a => ⟨![0, 0] a, inpos_S1x1_p0_0 a⟩) = _
  exact shapeCast_apply x2 _ _ _ (by rw [Shape.rowMajor_val_three, Shape.rowMajor_val_two]; rfl)

/-- **What the body stores, per channel**: the mutual-information score of the channel's map against the reference map. -/
theorem out1_3_apply (x0 : Vec Ideal S1x16x16x16 .f32) (x1 : Vec Ideal S1x16x16x256 .f32) (x2 : Vec Ideal S1x1x1 .f32)
    (Bp : Cert.MISpec.Pix → BitVec 32)
    (hx1 : ∀ (h w : Fin 16) (k : Fin 256), x1 (ix4 (0 : Fin 1) h w k) = if Bp (h, w) = BitVec.ofNat 32 k.val then (1 : EReal) else 0)
    (j : Fin 16) :
    out1_3 (F := Ideal) x0 x1 x2 (ix3 (0 : Fin 1) j (0 : Fin 1)) =
      Cert.MISpec.mi (x2 (ix3 (0 : Fin 1) (0 : Fin 1) (0 : Fin 1))) (Cert.MISpec.levels fun p => x0 (ix4 (0 : Fin 1) j p.1 p.2)) Bp := by
  rw [out1_3_eq, View.canon_unit_zero (S := S1x16x1) hzD, View.ld_unit_zero (S := S1x16x16x16) hzA,
    View.ld_unit_zero (S := S1x16x16x256) hzB, View.ld_unit_zero (S := S1x1x1) hzC, pay2_eq]
  rw [shapeCast_apply _ _ (ix3 (0 : Fin 1) j (0 : Fin 1)) (ix1 j) (by
    rw [Shape.rowMajor_val_one, Shape.rowMajor_val_three]; show j.val = (0 * 16 + j.val) * 1 + 0; omega)]
  show (k1_pay7 x2 + concatenate S16 0 _ _ (ix1 j)) - concatenate S16 0 _ _ (ix1 j) = _
  rw [concat16_apply (fun n => chanM (k1_pay3 x0) n), concat16_apply (fun n => chanJ (k1_pay3 x0) (k1_pay5 x1) (k1_pay6 x1) n)]
  rw [chanM_read, chanJ_read x0 x1 Bp hx1, hp_read]
  rfl

end AtIdeal

end Cert.KernelIdeal.BodyValue
-- ==== Proof.RefStages.lean ====
/-
  The reference program's stages as the kernel program's host functions.

  The reference computes its grey levels, its reference-map entropy and its tail with the same array operations
  the kernel program runs on the host, applied to the reference's own channel mean and pooled mean. Each equation
  below is that identity of terms: the generated stage unfolds to the named function of an earlier stage.
-/
import proofs.«139526_j23605140259217_2_alg».proof.Proof.Gen.ReferenceIdeal.Read
import proofs.«139526_j23605140259217_2_alg».proof.Proof.HostValue

set_option maxRecDepth 16384

noncomputable section

namespace Cert.ReferenceIdeal.Stages

open Idealize.ShloMosaic Cert.ReferenceIdeal Cert.ReferenceIdeal.Read Cert.KernelIdeal.HostValue

variable {F : FTy → Type} [FloatOps F] [Cert.KernelIdeal.Facts] [Cert.ReferenceIdeal.Facts]

/-- The reference's result is the tail of its second argument and its score array. -/
theorem v173_tail (x0 : (⟨S4x512x64x64, .f32⟩ : BufTy).Contents (Elt F)) (x1 : (⟨S4x512x16x16, .f32⟩ : BufTy).Contents (Elt F)) :
    val_main_v173 (F := F) x0 x1 = tail4 x1 (val_main_v159 (F := F) x0 x1) := rfl

/-- The reference map's grey levels are the pooled mean's. -/
theorem v50_norm (x0 : (⟨S4x512x64x64, .f32⟩ : BufTy).Contents (Elt F)) :
    val_main_v50 (F := F) x0 = norm16 (val_main_v11 (F := F) x0) := rfl

/-- The reference map's entropy is that of the channel mean's grey levels. -/
theorem v94_entropy (x0 : (⟨S4x512x64x64, .f32⟩ : BufTy).Contents (Elt F)) :
    val_main_v94 (F := F) x0 = entropy64 (norm64 (val_main_v3 (F := F) x0)) := rfl

end Cert.ReferenceIdeal.Stages

end
-- ==== Proof.LibRowIndexing.lean ====
/-
  Row gathers and accumulating row scatters of the host, read at an index.

  `x[idx]` of a flat array or of a matrix by rows lowers to a gather whose start indices are a column `[E, 1]`:
  result row `e` is the operand's row `idx[e, 0]`, the index read as a signed integer and clamped into the operand's
  rows. `segment_sum` and `.at[idx].add` lower to a scatter with an additive body over the same column of indices:
  at the extended reals, operand row `i` ends as itself plus the sum of the update rows `e` whose index, read signed
  and NOT clamped, is exactly `i`; an update whose index is negative or past the last row lands nowhere.
  Stated for dimension numbers given as literal records over the extents, so that a program's own record is one
  of them by `rfl`.
-/
import Idealize.ShloMosaic.Lib.ValueIdx

noncomputable section

open scoped BigOperators

namespace Idealize.ShloMosaic.RowIndexing

open Idealize.ShloMosaic Idealize.ShloMosaic.ValueIdx

/-! ## A flat array gathered at a column of indices -/

section GatherFlat
variable {α : Type}

/-- The dimension numbers of `x[idx]` for `x : [N]`, `idx : [E, 1]`, result `[E]`. -/
abbrev gatherFlat (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` is the operand at `idx[e, 0]`, read signed and clamped into `[0, N - 1]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherFlat N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gatherFlat N E wf).start y idx 0 + (gatherFlat N E wf).batchCoord y 0 + (gatherFlat N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlat N E wf).startIndexMap from List.mem_singleton.mpr rfl)]
  have hsi : (gatherFlat N E wf).siIdx y ⟨List.idxOf (0 : Fin 1) (gatherFlat N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at an index given by its coordinate. -/
theorem gatherFlat_apply_ix {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlat N E wf) x idx (ix1 e)
      = x (ix1 ⟨min (idx (ix2 e (0 : Fin 1))).toInt.toNat (N - 1), by omega⟩) :=
  gatherFlat_apply hN wf x idx (ix1 e)

end GatherFlat

/-! ## A flat array accumulated at a column of indices -/

section ScatterFlat

/-- The dimension numbers of `x.at[idx].add(u)` for `x : [N]`, `idx : [E, 1]`, `u : [E]`. -/
abbrev scatterFlat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at its index `idx[e, 0]`, read signed. -/
theorem scatterFlat_start (j : (⟨1, ![E]⟩ : Shape).Idx) (idx : IVec ⟨2, ![E, 1]⟩ w) (a : Fin 1) :
    (scatterFlat N E wf).start j idx a = (idx (ix2 (j 0) (0 : Fin 1))).toInt := by
  obtain rfl : a = 0 := Subsingleton.elim _ _
  unfold ScatterDims.start
  rw [dif_pos (show (0 : Fin 1) ∈ (scatterFlat N E wf).scatterDimsToOperandDims from List.mem_singleton.mpr rfl)]
  have hsi : (scatterFlat N E wf).siIdx j ⟨List.idxOf (0 : Fin 1) (scatterFlat N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: the window has no coordinate on it. -/
theorem scatterFlat_window (j : (⟨1, ![E]⟩ : Shape).Idx) (a : Fin 1) : (scatterFlat N E wf).window j a = 0 := by
  obtain rfl : a = 0 := Subsingleton.elim _ _
  unfold ScatterDims.window
  rw [dif_neg]
  simp [ScatterDims.sKept, Shape.kept]

/-- Update `e` lands on element `i` exactly when its signed index is `i`. -/
theorem scatterFlat_resultIdx_iff (j : (⟨1, ![E]⟩ : Shape).Idx) (idx : IVec ⟨2, ![E, 1]⟩ w) (i : (⟨1, ![N]⟩ : Shape).Idx) :
    (scatterFlat N E wf).resultIdx? j idx = some i ↔ (idx (ix2 (j 0) (0 : Fin 1))).toInt = ((i 0).val : Int) := by
  have hi : (i 0).val < N := (i 0).isLt
  unfold ScatterDims.resultIdx?
  simp only [scatterFlat_start, scatterFlat_window, Nat.cast_zero, Int.add_zero]
  by_cases h : 0 ≤ (idx (ix2 (j 0) (0 : Fin 1))).toInt ∧ (idx (ix2 (j 0) (0 : Fin 1))).toInt < (N : Int)
  · rw [dif_pos (fun a => by obtain rfl : a = 0 := Subsingleton.elim _ _; exact h)]
    constructor
    · intro e
      have e0 := congrArg Fin.val (congrFun (Option.some.inj e) 0)
      simp only at e0
      omega
    · intro e
      refine congrArg some (funext fun a => ?_)
      obtain rfl : a = 0 := Subsingleton.elim _ _
      refine Fin.ext ?_
      simp only
      omega
  · rw [dif_neg (fun hh => h (hh 0))]
    constructor
    · intro e; exact absurd e (by simp)
    · intro e; exact absurd ⟨by omega, by omega⟩ h

/-- Element `i` ends as itself plus the sum of the updates whose signed index is `i`. -/
theorem scatterAddFlat_apply (x : (⟨1, ![N]⟩ : Shape).Idx → EReal) (idx : IVec ⟨2, ![E, 1]⟩ w)
    (upd : (⟨1, ![E]⟩ : Shape).Idx → EReal) (i : (⟨1, ![N]⟩ : Shape).Idx) :
    Ideal.hostScatterAdd (scatterFlat N E wf) x idx upd i
      = x i + ∑ j ∈ Finset.univ.filter (fun j : (⟨1, ![E]⟩ : Shape).Idx => (idx (ix2 (j 0) (0 : Fin 1))).toInt = ((i 0).val : Int)), upd j := by
  unfold Ideal.hostScatterAdd
  congr 2
  ext j
  simp only [Finset.mem_filter, Finset.mem_univ, true_and]
  exact scatterFlat_resultIdx_iff wf j idx i

end ScatterFlat

/-! ## A matrix gathered by rows at a column of indices -/

section GatherRows
variable {α : Type}

/-- The dimension numbers of `x[idx]` for `x : [N, C]`, `idx : [E, 1]`, result `[E, C]`. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, k)` is the operand at row `idx[e, 0]`, read signed and clamped into `[0, N - 1]`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N C E wf) x idx y
      = x (ix2 ⟨min (idx (ix2 (y 0) (0 : Fin 1))).toInt.toNat (N - 1), by omega⟩ (y 1)) := by
  have h10 : (1 : Fin 2) ∉ ([0] : List (Fin 2)) := List.mem_singleton.not.mpr (Fin.ne_of_val_ne Nat.one_ne_zero)
  -- the row axis: the clamped start, no batching, the axis collapsed
  have h0 : (gatherRows N C E wf).start y idx (0 : Fin 2) + (gatherRows N C E wf).batchCoord y (0 : Fin 2)
      + (gatherRows N C E wf).offCoord y (0 : Fin 2) = min (idx (ix2 (y 0) (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx y ⟨List.idxOf (0 : Fin 2) (gatherRows N C E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  -- the column axis: no start index, no batching, the result's column
  have h1 : (gatherRows N C E wf).start y idx (1 : Fin 2) + (gatherRows N C E wf).batchCoord y (1 : Fin 2)
      + (gatherRows N C E wf).offCoord y (1 : Fin 2) = (y 1).val := by
    have hst : (gatherRows N C E wf).start y idx (1 : Fin 2) = 0 := by
      unfold GatherDims.start
      rw [dif_neg (show (1 : Fin 2) ∉ (gatherRows N C E wf).startIndexMap from h10)]
    have hk : (1 : Fin 2) ∈ (gatherRows N C E wf).sKept :=
      (GatherDims.mem_sKept _ _).mpr ⟨h10, List.not_mem_nil⟩
    rw [GatherDims.batchCoord_eq_zero _ _ _ List.not_mem_nil, hst]
    simp only [Nat.zero_add, Nat.add_zero]
    unfold GatherDims.offCoord
    rw [dif_pos hk]
    rfl
  unfold Host.gather
  congr 1
  funext a
  refine Fin.ext ?_
  match a with
  | ⟨0, _⟩ => exact h0
  | ⟨1, _⟩ => exact h1

/-- The same at an index given by its coordinates. -/
theorem gatherRows_apply_ix {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k)
      = x (ix2 ⟨min (idx (ix2 e (0 : Fin 1))).toInt.toNat (N - 1), by omega⟩ k) :=
  gatherRows_apply hN wf x idx (ix2 e k)

end GatherRows

/-! ## A matrix accumulated by rows at a column of indices -/

section ScatterRows

/-- The dimension numbers of `x.at[idx].add(u)` for `x : [N, C]`, `idx : [E, 1]`, `u : [E, C]`. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis update `(e, k)`'s window starts at its index `idx[e, 0]`, read signed … -/
theorem scatterRows_start0 (j : (⟨2, ![E, C]⟩ : Shape).Idx) (idx : IVec ⟨2, ![E, 1]⟩ w) :
    (scatterRows N C E wf).start j idx (0 : Fin 2) = (idx (ix2 (j 0) (0 : Fin 1))).toInt := by
  unfold ScatterDims.start
  rw [dif_pos (show (0 : Fin 2) ∈ (scatterRows N C E wf).scatterDimsToOperandDims from List.mem_singleton.mpr rfl)]
  have hsi : (scatterRows N C E wf).siIdx j ⟨List.idxOf (0 : Fin 2) (scatterRows N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and on the column axis at `0`. -/
theorem scatterRows_start1 (j : (⟨2, ![E, C]⟩ : Shape).Idx) (idx : IVec ⟨2, ![E, 1]⟩ w) :
    (scatterRows N C E wf).start j idx (1 : Fin 2) = 0 := by
  unfold ScatterDims.start
  rw [dif_neg (show (1 : Fin 2) ∉ (scatterRows N C E wf).scatterDimsToOperandDims from
    List.mem_singleton.not.mpr (Fin.ne_of_val_ne Nat.one_ne_zero))]

/-- The row axis is inserted: the window has no coordinate on it … -/
theorem scatterRows_window0 (j : (⟨2, ![E, C]⟩ : Shape).Idx) : (scatterRows N C E wf).window j (0 : Fin 2) = 0 := by
  unfold ScatterDims.window
  rw [dif_neg]
  simp [ScatterDims.sKept, Shape.kept]

/-- … and on the column axis it is the update's column. -/
theorem scatterRows_window1 (j : (⟨2, ![E, C]⟩ : Shape).Idx) : (scatterRows N C E wf).window j (1 : Fin 2) = (j 1).val := by
  have hk : (1 : Fin 2) ∈ (scatterRows N C E wf).sKept := by simp [ScatterDims.sKept, Shape.kept]
  unfold ScatterDims.window
  rw [dif_pos hk]
  rfl

/-- Update `(e, k)` lands on element `(i, k')` exactly when its signed index is `i` and `k = k'`. -/
theorem scatterRows_resultIdx_iff (j : (⟨2, ![E, C]⟩ : Shape).Idx) (idx : IVec ⟨2, ![E, 1]⟩ w) (i : (⟨2, ![N, C]⟩ : Shape).Idx) :
    (scatterRows N C E wf).resultIdx? j idx = some i
      ↔ (idx (ix2 (j 0) (0 : Fin 1))).toInt = ((i 0).val : Int) ∧ (j 1).val = (i 1).val := by
  have hi0 : (i 0).val < N := (i 0).isLt
  have hi1 : (i 1).val < C := (i 1).isLt
  have hj1 : (j 1).val < C := (j 1).isLt
  -- the in-range condition, axis by axis
  have hcond : (∀ a, 0 ≤ (scatterRows N C E wf).start j idx a + ((scatterRows N C E wf).window j a : Int)
        ∧ (scatterRows N C E wf).start j idx a + ((scatterRows N C E wf).window j a : Int) < ((⟨2, ![N, C]⟩ : Shape).size a : Int))
      ↔ (0 ≤ (idx (ix2 (j 0) (0 : Fin 1))).toInt ∧ (idx (ix2 (j 0) (0 : Fin 1))).toInt < (N : Int)) := by
    constructor
    · intro hh
      have h0 := hh (0 : Fin 2)
      rw [scatterRows_start0, scatterRows_window0] at h0
      have hsz : ((⟨2, ![N, C]⟩ : Shape).size (0 : Fin 2) : Int) = (N : Int) := rfl
      rw [hsz] at h0
      exact ⟨by omega, by omega⟩
    · intro h a
      match a with
      | ⟨0, _⟩ =>
        show 0 ≤ (scatterRows N C E wf).start j idx (0 : Fin 2) + ((scatterRows N C E wf).window j (0 : Fin 2) : Int)
          ∧ (scatterRows N C E wf).start j idx (0 : Fin 2) + ((scatterRows N C E wf).window j (0 : Fin 2) : Int) < (N : Int)
        rw [scatterRows_start0, scatterRows_window0]
        exact ⟨by omega, by omega⟩
      | ⟨1, _⟩ =>
        show 0 ≤ (scatterRows N C E wf).start j idx (1 : Fin 2) + ((scatterRows N C E wf).window j (1 : Fin 2) : Int)
          ∧ (scatterRows N C E wf).start j idx (1 : Fin 2) + ((scatterRows N C E wf).window j (1 : Fin 2) : Int) < (C : Int)
        rw [scatterRows_start1, scatterRows_window1]
        exact ⟨by omega, by omega⟩
  unfold ScatterDims.resultIdx?
  by_cases h : 0 ≤ (idx (ix2 (j 0) (0 : Fin 1))).toInt ∧ (idx (ix2 (j 0) (0 : Fin 1))).toInt < (N : Int)
  · rw [dif_pos (hcond.mpr h)]
    constructor
    · intro e
      have e0 : ((scatterRows N C E wf).start j idx (0 : Fin 2) + ((scatterRows N C E wf).window j (0 : Fin 2) : Int)).toNat = (i 0).val :=
        congrArg Fin.val (congrFun (Option.some.inj e) (0 : Fin 2))
      have e1 : ((scatterRows N C E wf).start j idx (1 : Fin 2) + ((scatterRows N C E wf).window j (1 : Fin 2) : Int)).toNat = (i 1).val :=
        congrArg Fin.val (congrFun (Option.some.inj e) (1 : Fin 2))
      rw [scatterRows_start0, scatterRows_window0] at e0
      rw [scatterRows_start1, scatterRows_window1] at e1
      exact ⟨by omega, by omega⟩
    · rintro ⟨e0, e1⟩
      refine congrArg some (funext fun a => ?_)
      refine Fin.ext ?_
      match a with
      | ⟨0, _⟩ =>
        show ((scatterRows N C E wf).start j idx (0 : Fin 2) + ((scatterRows N C E wf).window j (0 : Fin 2) : Int)).toNat = (i 0).val
        rw [scatterRows_start0, scatterRows_window0]; omega
      | ⟨1, _⟩ =>
        show ((scatterRows N C E wf).start j idx (1 : Fin 2) + ((scatterRows N C E wf).window j (1 : Fin 2) : Int)).toNat = (i 1).val
        rw [scatterRows_start1, scatterRows_window1]; omega
  · rw [dif_neg (fun hh => h (hcond.mp hh))]
    constructor
    · intro e; exact absurd e (by simp)
    · rintro ⟨e0, -⟩; exact absurd ⟨by omega, by omega⟩ h

/-- Element `(i, k)` ends as itself plus the sum, over the updates `e` whose signed index is `i`, of update `(e, k)`. -/
theorem scatterAddRows_apply (x : (⟨2, ![N, C]⟩ : Shape).Idx → EReal) (idx : IVec ⟨2, ![E, 1]⟩ w)
    (upd : (⟨2, ![E, C]⟩ : Shape).Idx → EReal) (i : (⟨2, ![N, C]⟩ : Shape).Idx) :
    Ideal.hostScatterAdd (scatterRows N C E wf) x idx upd i
      = x i + ∑ e ∈ Finset.univ.filter (fun e : Fin E => (idx (ix2 e (0 : Fin 1))).toInt = ((i 0).val : Int)), upd (ix2 e (i 1)) := by
  unfold Ideal.hostScatterAdd
  congr 1
  symm
  refine Finset.sum_bij (fun e _ => (ix2 e (i 1) : (⟨2, ![E, C]⟩ : Shape).Idx)) ?_ ?_ ?_ ?_
  · intro e he
    have he' : (idx (ix2 e (0 : Fin 1))).toInt = ((i 0).val : Int) := (Finset.mem_filter.mp he).2
    exact Finset.mem_filter.mpr ⟨Finset.mem_univ _, (scatterRows_resultIdx_iff wf _ idx i).mpr ⟨he', rfl⟩⟩
  · intro e1 _ e2 _ h
    exact congrFun h (0 : Fin 2)
  · intro j hj
    have hj' := (scatterRows_resultIdx_iff wf j idx i).mp (Finset.mem_filter.mp hj).2
    refine ⟨j 0, Finset.mem_filter.mpr ⟨Finset.mem_univ _, hj'.1⟩, ?_⟩
    have h1 : j 1 = i 1 := Fin.ext hj'.2
    funext a
    match a with
    | ⟨0, _⟩ => rfl
    | ⟨1, _⟩ => exact h1.symm
  · intro e _; rfl

/-- The same at an index given by its coordinates. -/
theorem scatterAddRows_apply_ix (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (scatterRows N C E wf) x idx upd (ix2 p q)
      = x (ix2 p q) + ∑ e ∈ Finset.univ.filter (fun e : Fin E => (idx (ix2 e (0 : Fin 1))).toInt = ((p.val : ℕ) : Int)), upd (ix2 e q) :=
  scatterAddRows_apply wf x idx upd (ix2 p q)

end ScatterRows

end Idealize.ShloMosaic.RowIndexing

end
-- ==== Proof.RefHistBase.lean ====
/-
  The reference's histograms as counts: the general part.

  The reference builds each histogram by a scatter that adds a one, for every pixel, into a zero array at the
  position "row * 256 + grey level" (for the pair histogram "row * 65536 + level * 256 + reference level"),
  all in 32-bit integers. Grey levels are clipped into [0, 255], so the position never wraps and determines the
  row and the level(s). Read at an index, at the extended reals, the scatter is therefore the number of the row's
  256 pixels that sit at the level: the sum of 0/1 indicators the specification calls count and countJ.
-/
import proofs.«139526_j23605140259217_2_alg».proof.Proof.Gen.ReferenceIdeal.Read
import proofs.«139526_j23605140259217_2_alg».proof.Proof.Spec
import proofs.«139526_j23605140259217_2_alg».proof.Proof.LibRowIndexing
import Idealize.ShloMosaic.Lib.IdealHost

noncomputable section

open scoped BigOperators

namespace Cert.ReferenceIdeal.Hist

open Idealize.ShloMosaic Idealize.ShloMosaic.ValueIdx Idealize.ShloMosaic.RowIndexing
open Cert.ReferenceIdeal Cert.ReferenceIdeal.Read Cert.MISpec

/-! ## The integer side -/

/-- A word clipped, as a signed integer, into [0, 255] is below 256 as a natural number. -/
theorem clip_toNat_lt (z : BitVec 32) : (IntOp.minsi 255#32 (IntOp.maxsi 0#32 z)).toNat < 256 := by
  unfold IntOp.minsi IntOp.maxsi
  have hz : z.toNat < 2 ^ 32 := z.isLt
  have h0 : (0#32 : BitVec 32).toInt = 0 := by decide
  have h255 : (255#32 : BitVec 32).toInt = 255 := by decide
  have hzi := BitVec.toInt_eq_toNat_cond z
  by_cases h1 : z.slt 0#32 = true
  · rw [if_pos h1]
    have h3 : ¬ ((255#32 : BitVec 32).slt 0#32 = true) := by decide
    rw [if_neg h3]; decide
  · rw [if_neg h1]
    by_cases h2 : (255#32 : BitVec 32).slt z = true
    · rw [if_pos h2]; decide
    · rw [if_neg h2]
      rw [BitVec.slt_iff_toInt_lt] at h1 h2
      rw [h0] at h1
      rw [h255] at h2
      omega

/-- Two numbers "row * M + offset" with offsets below M agree only when rows and offsets agree. -/
theorem row_offset_inj {M a k r t : Nat} (hk : k < M) (ht : t < M) (h : a * M + k = r * M + t) : a = r ∧ k = t := by
  rcases Nat.lt_trichotomy a r with hlt | heq | hgt
  · have h1 : (a + 1) * M ≤ r * M := Nat.mul_le_mul_right M hlt
    rw [Nat.add_mul, Nat.one_mul] at h1
    omega
  · subst heq; exact ⟨rfl, by omega⟩
  · have h1 : (r + 1) * M ≤ a * M := Nat.mul_le_mul_right M hgt
    rw [Nat.add_mul, Nat.one_mul] at h1
    omega

/-- "row * M + offset" computed in 32-bit words does not wrap, and is not negative read signed, when every row's
    window lies below 2^31. -/
theorem rowWord_toInt {R M a : Nat} (k : BitVec 32) (ha : a < R) (hk : k.toNat < M) (hRM : R * M ≤ 2 ^ 31) :
    (BitVec.ofNat 32 a * BitVec.ofNat 32 M + k).toInt = ((a * M + k.toNat : Nat) : Int) := by
  have h1 : (a + 1) * M ≤ R * M := Nat.mul_le_mul_right M ha
  rw [Nat.add_mul, Nat.one_mul] at h1
  have hM : 0 < M := by omega
  have h2 : a ≤ a * M := Nat.le_mul_of_pos_right a hM
  have e1 : (BitVec.ofNat 32 a).toNat = a := by
    rw [BitVec.toNat_ofNat]; exact Nat.mod_eq_of_lt (by omega)
  have e2 : (BitVec.ofNat 32 M).toNat = M := by
    rw [BitVec.toNat_ofNat]; exact Nat.mod_eq_of_lt (by omega)
  have e3 : (BitVec.ofNat 32 a * BitVec.ofNat 32 M + k).toNat = a * M + k.toNat := by
    rw [BitVec.toNat_add, BitVec.toNat_mul, e1, e2, Nat.mod_eq_of_lt (a := a * M) (by omega),
      Nat.mod_eq_of_lt (by omega)]
  rw [BitVec.toInt_eq_toNat_of_lt (by rw [e3]; omega), e3]

/-- A 32-bit word is the word of a small number exactly when that number is its value. -/
theorem toNat_eq_iff_eq_ofNat (z : BitVec 32) {n : Nat} (hn : n < 2 ^ 32) : z.toNat = n ↔ z = BitVec.ofNat 32 n := by
  constructor
  · intro h
    apply BitVec.eq_of_toNat_eq
    rw [BitVec.toNat_ofNat, Nat.mod_eq_of_lt hn, h]
  · intro h
    rw [h, BitVec.toNat_ofNat, Nat.mod_eq_of_lt hn]

/-! ## A scatter of ones into zeros, by rows of 256 pixels -/

/-- At the extended reals the host's accumulating scatter is the ideal instance's. -/
theorem hostScatterAdd_ideal {s si su : Shape} {w : Nat} (d : ScatterDims s si su) (x : FVec Ideal s .f32)
    (idx : IVec si w) (upd : FVec Ideal su .f32) :
    Host.scatterAdd d x idx upd = Ideal.hostScatterAdd d x idx upd := rfl

/-- Ones scattered into zeros at the positions "row * M + K", one update per pixel of each row of 256: the element
    at "r * M + t" counts the pixels of row r whose K is t. -/
theorem scatterOnes_rows {R M N E : Nat} (hE : E = R * 256) (hRM : R * M ≤ 2 ^ 31)
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal)
    (hx : ∀ i, x i = 0) (hu : ∀ j, upd j = 1)
    (K : Fin E → BitVec 32) (hK : ∀ e, (K e).toNat < M)
    (hidx : ∀ e : Fin E, idx (ix2 e (0 : Fin 1)) = BitVec.ofNat 32 (e.val / 256) * BitVec.ofNat 32 M + K e)
    (r t : Nat) (hr : r < R) (ht : t < M) (q : (⟨1, ![N]⟩ : Shape).Idx) (hq : (q 0).val = r * M + t)
    (φ : Pix → Fin E) (hφ : ∀ p, (φ p).val = r * 256 + p.1.val * 16 + p.2.val) :
    Ideal.hostScatterAdd (scatterFlat N E wf) x idx upd q
      = ∑ p : Pix, if (K (φ p)).toNat = t then (1 : EReal) else 0 := by
  have hrow : ∀ e : Fin E, e.val / 256 < R := fun e => by have := e.isLt; omega
  have hread : ∀ e : Fin E, (idx (ix2 e (0 : Fin 1))).toInt = ((e.val / 256 * M + (K e).toNat : Nat) : Int) :=
    fun e => by rw [hidx, rowWord_toInt (K e) (hrow e) (hK e) hRM]
  rw [scatterAddFlat_apply, hx, zero_add, ← Finset.sum_filter]
  symm
  refine Finset.sum_bij (fun p _ => (ix1 (φ p) : (⟨1, ![E]⟩ : Shape).Idx)) ?_ ?_ ?_ ?_
  · intro p hp
    have hp' : (K (φ p)).toNat = t := (Finset.mem_filter.mp hp).2
    have h16a : p.1.val < 16 := p.1.isLt
    have h16b : p.2.val < 16 := p.2.isLt
    have hrp : (φ p).val / 256 = r := by rw [hφ]; omega
    refine Finset.mem_filter.mpr ⟨Finset.mem_univ _, ?_⟩
    show (idx (ix2 (φ p) (0 : Fin 1))).toInt = ((q 0).val : Int)
    rw [hread, hrp, hp', hq]
  · intro p1 _ p2 _ h
    have h0 : φ p1 = φ p2 := congrFun h (0 : Fin 1)
    have h1 := congrArg Fin.val h0
    rw [hφ, hφ] at h1
    have a1 : p1.1.val < 16 := p1.1.isLt
    have a2 : p1.2.val < 16 := p1.2.isLt
    have b1 : p2.1.val < 16 := p2.1.isLt
    have b2 : p2.2.val < 16 := p2.2.isLt
    exact Prod.ext (Fin.ext (by omega)) (Fin.ext (by omega))
  · intro j hj
    have hj' : (idx (ix2 (j 0) (0 : Fin 1))).toInt = ((q 0).val : Int) := (Finset.mem_filter.mp hj).2
    have hjE : (j 0).val < E := (j 0).isLt
    rw [hread (j 0), hq] at hj'
    have hj'' : (j 0).val / 256 * M + (K (j 0)).toNat = r * M + t := by exact_mod_cast hj'
    obtain ⟨hrow', hlev⟩ := row_offset_inj (hK (j 0)) ht hj''
    have hφj : φ (⟨(j 0).val % 256 / 16, by omega⟩, ⟨(j 0).val % 16, by omega⟩) = j 0 := by
      apply Fin.ext
      rw [hφ]
      show r * 256 + (j 0).val % 256 / 16 * 16 + (j 0).val % 16 = (j 0).val
      omega
    refine ⟨(⟨(j 0).val % 256 / 16, by omega⟩, ⟨(j 0).val % 16, by omega⟩), ?_, ?_⟩
    · refine Finset.mem_filter.mpr ⟨Finset.mem_univ _, ?_⟩
      show (K (φ (⟨(j 0).val % 256 / 16, _⟩, ⟨(j 0).val % 16, _⟩))).toNat = t
      rw [hφj]; exact hlev
    · show (ix1 (φ (⟨(j 0).val % 256 / 16, _⟩, ⟨(j 0).val % 16, _⟩)) : (⟨1, ![E]⟩ : Shape).Idx) = j
      rw [hφj]; exact (eq_ix1 j).symm
  · intro p _; exact (hu _).symm

/-- "level * 256 + reference level" of two levels below 256 does not wrap. -/
theorem pairWord_toNat (a c : BitVec 32) (ha : a.toNat < 256) (hc : c.toNat < 256) :
    (a * BitVec.ofNat 32 256 + c).toNat = a.toNat * 256 + c.toNat := by
  have e2 : (BitVec.ofNat 32 256).toNat = 256 := by decide
  rw [BitVec.toNat_add, BitVec.toNat_mul, e2]
  omega

/-- The indicator of a conjunction is the product of the indicators. -/
theorem ite_and_mul (P Q : Prop) [Decidable P] [Decidable Q] :
    (if P ∧ Q then (1 : EReal) else 0) = (if P then 1 else 0) * (if Q then 1 else 0) := by
  by_cases hP : P <;> by_cases hQ : Q <;> simp [hP, hQ]

/-! ## The levels are clipped -/

/-- The map's grey levels lie in [0, 255]. -/
theorem v24_lt (x1 : FVec Ideal S4x512x16x16 .f32) (i : S4x512x16x16.Idx) :
    (val_main_v24 (F := Ideal) x1 i).toNat < 256 := by
  rw [val_main_v24_apply, val_main_call0_v4_apply, val_main_call0_v3_apply, val_main_c_8_apply,
    val_main_call0_v2_apply, val_main_call0_v1_apply, val_main_call0_v0_apply, val_main_c_apply]
  exact clip_toNat_lt _

/-- The reference map's grey levels lie in [0, 255]. -/
theorem v50_lt (x0 : FVec Ideal S4x512x64x64 .f32) (i : S4x1x16x16.Idx) :
    (val_main_v50 (F := Ideal) x0 i).toNat < 256 := by
  rw [val_main_v50_apply, val_main_call2_v4_apply, val_main_call2_v3_apply, val_main_c_18_apply,
    val_main_call2_v2_apply, val_main_call2_v1_apply, val_main_call2_v0_apply, val_main_c_17_apply]
  exact clip_toNat_lt _

/-! ## The map's level histogram -/

/-- The flat position, among the 2048 * 256 updates, of pixel p of the map of batch b, channel c. -/
def pos (b : Fin 4) (c : Fin 512) (p : Pix) : Fin 524288 :=
  ⟨(b.val * 512 + c.val) * 256 + p.1.val * 16 + p.2.val, by
    have := b.isLt; have := c.isLt; have := p.1.isLt; have := p.2.isLt; omega⟩

end Cert.ReferenceIdeal.Hist

end
-- ==== Proof.RefHistJoint.lean ====
/-
  The reference's joint histogram as pair counts.

  The reference forms, for every pixel of every (batch, channel) map, the 32-bit word
  65536 · row + 256 · (level of the map) + (level of the reference map), with row = 512 · batch + channel, and scatters
  a one at that position of a zero array of 4 · 512 · 256 · 256 entries. The levels are below 256 and the rows below
  2048, so the word does not wrap and decodes to (row, level, level); entry (row, i, j) of the array is therefore the
  number of pixels of the row's map at level i whose reference pixel is at level j.
-/
import Idealize.ShloMosaic.PureOps.Ideal.Laws
import Idealize.ShloMosaic.Lib.ValueIdx
import proofs.«139526_j23605140259217_2_alg».proof.Proof.Spec
import proofs.«139526_j23605140259217_2_alg».proof.Proof.LibChannelMath
import proofs.«139526_j23605140259217_2_alg».proof.Proof.LibRowIndexing
import proofs.«139526_j23605140259217_2_alg».proof.Proof.Gen.ReferenceIdeal.Read
import proofs.«139526_j23605140259217_2_alg».proof.Proof.RefHistBase

noncomputable section

namespace Cert.JointHist

open Idealize.ShloMosaic Idealize.ShloMosaic.ValueIdx Idealize.ShloMosaic.RowIndexing
open Cert.MISpec Cert.ChannelMath

/-! ## The combined word -/

/-- The word `65536 · r + (256 · l + m)` as the 32-bit operations form it. -/
def jointWord (r : Nat) (l m : BitVec 32) : BitVec 32 :=
  IntOp.addi (IntOp.muli (BitVec.ofNat 32 r) 65536#32) (IntOp.addi (IntOp.muli l 256#32) m)

/-- For a row below 2048 and levels below 256 the word does not wrap: read signed it is `65536 r + 256 l + m`. -/
theorem jointWord_toInt (r : Nat) (hr : r < 2048) (l m : BitVec 32) (hl : l.toNat < 256) (hm : m.toNat < 256) :
    (jointWord r l m).toInt = ((r * 65536 + l.toNat * 256 + m.toNat : Nat) : Int) := by
  unfold jointWord IntOp.addi IntOp.muli
  rw [BitVec.toInt_eq_toNat_cond]
  simp only [BitVec.toNat_add, BitVec.toNat_mul, BitVec.toNat_ofNat]
  omega

/-- A 32-bit word below 256 is the word of `i` exactly when its value is `i`. -/
theorem eq_ofNat_iff (x : BitVec 32) (i : Fin 256) : x = BitVec.ofNat 32 i.val ↔ x.toNat = i.val := by
  constructor
  · intro e; rw [e, BitVec.toNat_ofNat]; omega
  · intro e; apply BitVec.eq_of_toNat_eq; rw [BitVec.toNat_ofNat, e]; omega

/-- The word decodes: it is `(256 r₀ + i) · 256 + j` exactly when the row is `r₀` and the levels are `i` and `j`. -/
theorem jointWord_toInt_eq_iff (r : Nat) (hr : r < 2048) (l m : BitVec 32) (hl : l.toNat < 256) (hm : m.toNat < 256)
    (r0 : Nat) (i j : Fin 256) :
    (jointWord r l m).toInt = (((r0 * 256 + i.val) * 256 + j.val : Nat) : Int)
      ↔ r = r0 ∧ l = BitVec.ofNat 32 i.val ∧ m = BitVec.ofNat 32 j.val := by
  rw [jointWord_toInt r hr l m hl hm, eq_ofNat_iff, eq_ofNat_iff]
  have := i.isLt; have := j.isLt
  omega

/-! ## The scatter of ones at the combined words -/

/-- The row of a position of the flattened (row, pixel) axis. -/
def rowAt (e : Fin 524288) : Fin 2048 := ⟨e.val / 256, by have := e.isLt; omega⟩

/-- The pixel of a position of the flattened (row, pixel) axis. -/
def pixAt (e : Fin 524288) : Pix := pixOfPos ⟨e.val % 256, Nat.mod_lt _ (by decide)⟩

/-- The position of pixel `p` of row `r`. -/
def posOf (r : Fin 2048) (p : Pix) : Fin 524288 :=
  ⟨r.val * 256 + (pixOfPos.symm p).val, by have := (pixOfPos.symm p).isLt; have := r.isLt; omega⟩

theorem rowAt_posOf (r : Fin 2048) (p : Pix) : rowAt (posOf r p) = r := by
  apply Fin.ext
  show (r.val * 256 + (pixOfPos.symm p).val) / 256 = r.val
  have := (pixOfPos.symm p).isLt; omega

theorem pixAt_posOf (r : Fin 2048) (p : Pix) : pixAt (posOf r p) = p := by
  unfold pixAt
  have h : (⟨(posOf r p).val % 256, Nat.mod_lt _ (by decide)⟩ : Fin 256) = pixOfPos.symm p := by
    apply Fin.ext
    show (r.val * 256 + (pixOfPos.symm p).val) % 256 = (pixOfPos.symm p).val
    have := (pixOfPos.symm p).isLt; omega
  rw [h, Equiv.apply_symm_apply]

theorem posOf_pixAt (e : Fin 524288) : posOf (rowAt e) (pixAt e) = e := by
  apply Fin.ext
  show e.val / 256 * 256 + (pixOfPos.symm (pixAt e)).val = e.val
  unfold pixAt
  rw [Equiv.symm_apply_apply]
  show e.val / 256 * 256 + e.val % 256 = e.val
  omega

/-- The two coordinates of the pixel of a position. -/
theorem pixAt_fst_val (e : Fin 524288) : (pixAt e).1.val = e.val % 256 / 16 := rfl
theorem pixAt_snd_val (e : Fin 524288) : (pixAt e).2.val = e.val % 256 % 16 := rfl

/-- A zero array of 4·512·256·256 entries accumulating a one at the combined word of every (row, pixel): the entry at
    position `(256 r₀ + i) · 256 + j` ends as the number of pixels of row `r₀` at levels `(i, j)`. -/
theorem scatter_joint (d : ScatterDims ⟨1, ![134217728]⟩ ⟨2, ![524288, 1]⟩ ⟨1, ![524288]⟩)
    (wf : ScatterDims.WF ⟨1, ![134217728]⟩ ⟨2, ![524288, 1]⟩ ⟨1, ![524288]⟩ [] [0] [0] 1)
    (hd : d = scatterFlat 134217728 524288 wf)
    (x : (⟨1, ![134217728]⟩ : Shape).Idx → EReal) (idx : IVec ⟨2, ![524288, 1]⟩ 32)
    (upd : (⟨1, ![524288]⟩ : Shape).Idx → EReal) (hx : ∀ q, x q = 0) (hu : ∀ e, upd e = 1)
    (L M : Fin 2048 → Pix → BitVec 32)
    (hL : ∀ r p, (L r p).toNat < 256) (hM : ∀ r p, (M r p).toNat < 256)
    (hidx : ∀ e : Fin 524288, idx (ix2 e (0 : Fin 1))
      = jointWord (rowAt e).val (L (rowAt e) (pixAt e)) (M (rowAt e) (pixAt e)))
    (r0 : Fin 2048) (i j : Fin 256) (q : (⟨1, ![134217728]⟩ : Shape).Idx)
    (hq : (q 0).val = (r0.val * 256 + i.val) * 256 + j.val) :
    Ideal.hostScatterAdd d x idx upd q = countJ (L r0) (M r0) i j := by
  subst hd
  rw [scatterAddFlat_apply, hx q, zero_add, Finset.sum_congr rfl (fun e _ => hu e)]
  unfold MISpec.countJ
  have hprod : ∀ (a b : Prop) [Decidable a] [Decidable b],
      (if a then (1 : EReal) else 0) * (if b then (1 : EReal) else 0) = if a ∧ b then (1 : EReal) else 0 := by
    intro a b _ _; by_cases ha : a <;> by_cases hb : b <;> simp [ha, hb]
  simp only [hprod]
  rw [← Finset.sum_filter]
  have key : ∀ e : Fin 524288, (idx (ix2 e (0 : Fin 1))).toInt = (((q 0).val : Nat) : Int)
      ↔ rowAt e = r0 ∧ L (rowAt e) (pixAt e) = BitVec.ofNat 32 i.val ∧ M (rowAt e) (pixAt e) = BitVec.ofNat 32 j.val := by
    intro e
    rw [hidx e, hq, jointWord_toInt_eq_iff _ (rowAt e).isLt _ _ (hL _ _) (hM _ _) r0.val i j, Fin.val_inj]
  refine Finset.sum_nbij' (fun e => pixAt (e 0)) (fun p => ix1 (posOf r0 p)) ?_ ?_ ?_ ?_ ?_
  · intro e he
    have h := (key (e 0)).1 (Finset.mem_filter.1 he).2
    refine Finset.mem_filter.2 ⟨Finset.mem_univ _, ?_⟩
    rw [h.1] at h
    exact ⟨h.2.1, h.2.2⟩
  · intro p hp
    have h := (Finset.mem_filter.1 hp).2
    refine Finset.mem_filter.2 ⟨Finset.mem_univ _, ?_⟩
    show (idx (ix2 (posOf r0 p) (0 : Fin 1))).toInt = _
    refine (key (posOf r0 p)).2 ?_
    rw [rowAt_posOf, pixAt_posOf]
    exact ⟨rfl, h.1, h.2⟩
  · intro e he
    have h := (key (e 0)).1 (Finset.mem_filter.1 he).2
    show ix1 (posOf r0 (pixAt (e 0))) = e
    rw [← h.1, posOf_pixAt (e 0)]
    exact (eq_ix1 e).symm
  · intro p _
    show pixAt (posOf r0 p) = p
    exact pixAt_posOf r0 p
  · intro e _; rfl

/-! ## The reference's operations at the extended reals -/

/-- The host's accumulating scatter, at the extended reals, is the exact sum. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The f32 word of one denotes 1. -/
theorem ofBits_one : Ideal.ofBits .f32 0x3F800000#32 = 1 := by
  simp [Ideal.ofBits, Ideal.ieee, -EReal.coe_mul]; norm_num

/-- The batch element and the channel of a row. -/
def rowBatch (r : Fin 2048) : Fin 4 := ⟨r.val / 512, by have := r.isLt; omega⟩
def rowChan (r : Fin 2048) : Fin 512 := ⟨r.val % 512, Nat.mod_lt _ (by decide)⟩

end Cert.JointHist

namespace Cert.ReferenceIdeal.Hist

open Idealize.ShloMosaic Idealize.ShloMosaic.ValueIdx Idealize.ShloMosaic.RowIndexing
open Cert.ReferenceIdeal Cert.ReferenceIdeal.Gen Cert.ReferenceIdeal.Read Cert.MISpec Cert.ChannelMath Cert.JointHist

/-- The reference's joint histogram, read at (batch, channel, level, level): the number of pixels of the (batch,
    channel) map at the first level whose reference pixel is at the second. -/
theorem v137_apply (x0 : FVec Ideal S4x512x64x64 .f32) (x1 : FVec Ideal S4x512x16x16 .f32)
    (b : Fin 4) (c : Fin 512) (i j : Fin 256) :
    val_main_v137 (F := Ideal) x0 x1 (ix4 b c i j)
      = MISpec.countJ (fun p => val_main_v24 (F := Ideal) x1 (ix4 b c p.1 p.2))
          (fun p => val_main_v50 (F := Ideal) x0 (ix4 b (0 : Fin 1) p.1 p.2)) i j := by
  rw [val_main_v137_apply]
  unfold val_main_v136
  rw [hostScatterAdd_eq]
  have hx : ∀ q, val_main_v134 (F := Ideal) q = 0 := by
    intro q
    rw [val_main_v134_apply, val_main_cst_40_apply]
    exact Ideal.ofBits_zero_f32
  have hu : ∀ e, val_main_v133 (F := Ideal) e = 1 := by
    intro e
    rw [val_main_v133_apply, val_main_cst_39_apply]
    exact ofBits_one
  have hidx : ∀ e : Fin 524288, val_main_v135 (F := Ideal) x0 x1 (ix2 e (0 : Fin 1))
      = jointWord (rowAt e).val
          (val_main_v24 (F := Ideal) x1 (ix4 (rowBatch (rowAt e)) (rowChan (rowAt e)) (pixAt e).1 (pixAt e).2))
          (val_main_v50 (F := Ideal) x0 (ix4 (rowBatch (rowAt e)) (0 : Fin 1) (pixAt e).1 (pixAt e).2)) := by
    intro e
    rw [val_main_v135_apply, val_main_v132_apply, val_main_v131_apply, val_main_v130_apply, val_main_v129_apply,
      val_main_v127_apply, val_main_v126_apply, val_main_v128_apply, val_main_c_38_apply, val_main_v125_apply,
      val_main_v124_apply, val_main_v122_apply, val_main_v121_apply, val_main_c_37_apply, val_main_v123_apply]
    have he := e.isLt
    have e1 : idx_main_v125 (idx_main_v132 (idx_main_v135 (ix2 e (0 : Fin 1))))
        = ix4 (rowBatch (rowAt e)) (rowChan (rowAt e)) (pixAt e).1 (pixAt e).2 := by
      funext a; apply Fin.ext
      match a with
      | ⟨0, _⟩ => show (e.val / 256 * 256 + e.val % 256) / 131072 = e.val / 256 / 512; omega
      | ⟨1, _⟩ => show (e.val / 256 * 256 + e.val % 256) / 256 % 512 = e.val / 256 % 512; omega
      | ⟨2, _⟩ => show (e.val / 256 * 256 + e.val % 256) / 16 % 16 = e.val % 256 / 16; omega
      | ⟨3, _⟩ => show (e.val / 256 * 256 + e.val % 256) % 16 = e.val % 256 % 16; omega
    have e2 : idx_main_v123 (idx_main_v125 (idx_main_v132 (idx_main_v135 (ix2 e (0 : Fin 1)))))
        = ix4 (rowBatch (rowAt e)) (0 : Fin 1) (pixAt e).1 (pixAt e).2 := by
      funext a; apply Fin.ext
      match a with
      | ⟨0, _⟩ => show (e.val / 256 * 256 + e.val % 256) / 131072 = e.val / 256 / 512; omega
      | ⟨1, _⟩ => rfl
      | ⟨2, _⟩ => show (e.val / 256 * 256 + e.val % 256) / 16 % 16 = e.val % 256 / 16; omega
      | ⟨3, _⟩ => show (e.val / 256 * 256 + e.val % 256) % 16 = e.val % 256 % 16; omega
    rw [e2, e1]
    rfl
  have r0lt : b.val * 512 + c.val < 2048 := by have := b.isLt; have := c.isLt; omega
  have main := scatter_joint scatter_S134217728_S524288x1_S524288_n_0_0_1 scatter_S134217728_S524288x1_S524288_n_0_0_1_wf rfl
    (val_main_v134 (F := Ideal)) (val_main_v135 (F := Ideal) x0 x1) (val_main_v133 (F := Ideal)) hx hu
    (fun r p => val_main_v24 (F := Ideal) x1 (ix4 (rowBatch r) (rowChan r) p.1 p.2))
    (fun r p => val_main_v50 (F := Ideal) x0 (ix4 (rowBatch r) (0 : Fin 1) p.1 p.2))
    (fun _ _ => v24_lt x1 _) (fun _ _ => v50_lt x0 _) hidx ⟨b.val * 512 + c.val, r0lt⟩ i j (idx_main_v137 (ix4 b c i j)) rfl
  refine main.trans ?_
  have hb : rowBatch ⟨b.val * 512 + c.val, r0lt⟩ = b := by
    apply Fin.ext; show (b.val * 512 + c.val) / 512 = b.val; have := c.isLt; omega
  have hc : rowChan ⟨b.val * 512 + c.val, r0lt⟩ = c := by
    apply Fin.ext; show (b.val * 512 + c.val) % 512 = c.val; have := c.isLt; omega
  simp only [hb, hc]

end Cert.ReferenceIdeal.Hist

end
-- ==== Proof.RefHist.lean ====
/-
  The reference's histograms as counts.

  The reference builds each histogram by a scatter that adds a one, for every pixel, into a zero array at the
  position "row * 256 + grey level" (for the pair histogram "row * 65536 + level * 256 + reference level"),
  all in 32-bit integers. Grey levels are clipped into [0, 255], so the position never wraps and determines the
  row and the level(s). Read at an index, at the extended reals, the scatter is therefore the number of the row's
  256 pixels that sit at the level: the sum of 0/1 indicators the specification calls count and countJ.
  This file reads the three level histograms; the pair histogram is read in the module imported beside the
  general part.
-/
import proofs.«139526_j23605140259217_2_alg».proof.Proof.RefHistBase
import proofs.«139526_j23605140259217_2_alg».proof.Proof.RefHistJoint

noncomputable section

open scoped BigOperators

namespace Cert.ReferenceIdeal.Hist

open Idealize.ShloMosaic Idealize.ShloMosaic.ValueIdx Idealize.ShloMosaic.RowIndexing
open Cert.ReferenceIdeal Cert.ReferenceIdeal.Read Cert.MISpec

/-! ## The map's level histogram -/
/-- The scatter position of update e: its row times 256 plus its pixel's level. -/
theorem v61_read (x1 : FVec Ideal S4x512x16x16 .f32) (e : Fin 524288) :
    val_main_v61 (F := Ideal) x1 (ix2 e (0 : Fin 1))
      = BitVec.ofNat 32 (e.val / 256) * BitVec.ofNat 32 256
        + val_main_v24 (F := Ideal) x1 (idx_main_v51 (idx_main_v58 (idx_main_v61 (ix2 e (0 : Fin 1))))) := by
  rw [val_main_v61_apply, val_main_v58_apply, val_main_v57_apply, val_main_v56_apply, val_main_v55_apply,
    val_main_v53_apply, val_main_v52_apply, val_main_v54_apply, val_main_c_19_apply, val_main_v51_apply]
  rfl

/-- The update at pos b c p carries pixel p of map (b, c). -/
theorem v51_pos (b : Fin 4) (c : Fin 512) (p : Pix) :
    idx_main_v51 (idx_main_v58 (idx_main_v61 (ix2 (pos b c p) (0 : Fin 1)))) = ix4 b c p.1 p.2 := by
  have hb := b.isLt; have hc := c.isLt; have h1 := p.1.isLt; have h2 := p.2.isLt
  funext a
  apply Fin.ext
  match a with
  | ⟨0, _⟩ =>
    show (((b.val * 512 + c.val) * 256 + p.1.val * 16 + p.2.val) / 256 * 256
      + ((b.val * 512 + c.val) * 256 + p.1.val * 16 + p.2.val) % 256) / 131072 = b.val
    omega
  | ⟨1, _⟩ =>
    show (((b.val * 512 + c.val) * 256 + p.1.val * 16 + p.2.val) / 256 * 256
      + ((b.val * 512 + c.val) * 256 + p.1.val * 16 + p.2.val) % 256) / 256 % 512 = c.val
    omega
  | ⟨2, _⟩ =>
    show (((b.val * 512 + c.val) * 256 + p.1.val * 16 + p.2.val) / 256 * 256
      + ((b.val * 512 + c.val) * 256 + p.1.val * 16 + p.2.val) % 256) / 16 % 16 = p.1.val
    omega
  | ⟨3, _⟩ =>
    show (((b.val * 512 + c.val) * 256 + p.1.val * 16 + p.2.val) / 256 * 256
      + ((b.val * 512 + c.val) * 256 + p.1.val * 16 + p.2.val) % 256) % 16 = p.2.val
    omega

set_option maxHeartbeats 400000 in
/-- The first level histogram of the map, at (b, c, i): the number of pixels of map (b, c) at level i. -/
theorem v63_apply (x1 : FVec Ideal S4x512x16x16 .f32) (b : Fin 4) (c : Fin 512) (i : Fin 256) :
    val_main_v63 (F := Ideal) x1 (ix3 b c i)
      = Cert.MISpec.count (fun p => val_main_v24 (F := Ideal) x1 (ix4 b c p.1 p.2)) i := by
  have hb := b.isLt; have hc := c.isLt; have hi := i.isLt
  rw [val_main_v63_apply]
  unfold val_main_v62
  rw [hostScatterAdd_ideal]
  refine (scatterOnes_rows (R := 2048) (M := 256) (N := 524288) (E := 524288) (by norm_num) (by norm_num) _
      (val_main_v60 (F := Ideal)) (val_main_v61 (F := Ideal) x1) (val_main_v59 (F := Ideal))
      (fun j => by rw [val_main_v60_apply, val_main_cst_21_apply, Ideal.ofBits_def, Ideal.ofBits_zero_f32])
      (fun j => by rw [val_main_v59_apply, val_main_cst_20_apply, Ideal.ofBits_def, Ideal.ofBits_one_f32])
      (fun e => val_main_v24 (F := Ideal) x1 (idx_main_v51 (idx_main_v58 (idx_main_v61 (ix2 e (0 : Fin 1))))))
      (fun e => v24_lt x1 _) (v61_read x1)
      (b.val * 512 + c.val) i.val (by omega) hi (idx_main_v63 (ix3 b c i)) rfl (pos b c) (fun p => rfl)).trans ?_
  unfold Cert.MISpec.count
  refine Finset.sum_congr rfl (fun p _ => ?_)
  simp only [v51_pos]
  exact if_congr (toNat_eq_iff_eq_ofNat _ (by omega)) rfl rfl

/-! ## Its second copy -/

set_option maxHeartbeats 400000 in
/-- The program computes the map's level histogram a second time, by the same operations on the same levels. -/
theorem v107_eq_v63 (x1 : FVec Ideal S4x512x16x16 .f32) :
    val_main_v107 (F := Ideal) x1 = val_main_v63 (F := Ideal) x1 := rfl

/-- The second level histogram of the map, at (b, c, i): the number of pixels of map (b, c) at level i. -/
theorem v107_apply (x1 : FVec Ideal S4x512x16x16 .f32) (b : Fin 4) (c : Fin 512) (i : Fin 256) :
    val_main_v107 (F := Ideal) x1 (ix3 b c i)
      = Cert.MISpec.count (fun p => val_main_v24 (F := Ideal) x1 (ix4 b c p.1 p.2)) i := by
  rw [v107_eq_v63]
  exact v63_apply x1 b c i

/-! ## The reference map's level histogram -/

/-- The flat position, among the 4 * 256 updates, of pixel p of the reference map of batch b. -/
def pos4 (b : Fin 4) (p : Pix) : Fin 1024 :=
  ⟨b.val * 256 + p.1.val * 16 + p.2.val, by
    have := b.isLt; have := p.1.isLt; have := p.2.isLt; omega⟩

/-- The scatter position of update e: its row times 256 plus its pixel's level. -/
theorem v118_read (x0 : FVec Ideal S4x512x64x64 .f32) (e : Fin 1024) :
    val_main_v118 (F := Ideal) x0 (ix2 e (0 : Fin 1))
      = BitVec.ofNat 32 (e.val / 256) * BitVec.ofNat 32 256
        + val_main_v50 (F := Ideal) x0 (idx_main_v108 (idx_main_v115 (idx_main_v118 (ix2 e (0 : Fin 1))))) := by
  rw [val_main_v118_apply, val_main_v115_apply, val_main_v114_apply, val_main_v113_apply, val_main_v112_apply,
    val_main_v110_apply, val_main_v109_apply, val_main_v111_apply, val_main_c_34_apply, val_main_v108_apply]
  rfl

/-- The update at pos4 b p carries pixel p of the reference map of batch b. -/
theorem v108_pos (b : Fin 4) (p : Pix) :
    idx_main_v108 (idx_main_v115 (idx_main_v118 (ix2 (pos4 b p) (0 : Fin 1)))) = ix4 b (0 : Fin 1) p.1 p.2 := by
  have hb := b.isLt; have h1 := p.1.isLt; have h2 := p.2.isLt
  funext a
  apply Fin.ext
  match a with
  | ⟨0, _⟩ =>
    show ((b.val * 256 + p.1.val * 16 + p.2.val) / 256 * 256
      + (b.val * 256 + p.1.val * 16 + p.2.val) % 256) / 256 = b.val
    omega
  | ⟨1, _⟩ => rfl
  | ⟨2, _⟩ =>
    show ((b.val * 256 + p.1.val * 16 + p.2.val) / 256 * 256
      + (b.val * 256 + p.1.val * 16 + p.2.val) % 256) / 16 % 16 = p.1.val
    omega
  | ⟨3, _⟩ =>
    show ((b.val * 256 + p.1.val * 16 + p.2.val) / 256 * 256
      + (b.val * 256 + p.1.val * 16 + p.2.val) % 256) % 16 = p.2.val
    omega

set_option maxHeartbeats 400000 in
/-- The level histogram of the reference map, at (b, 0, j): the number of pixels of the reference map of batch b
    at level j. -/
theorem v120_apply (x0 : FVec Ideal S4x512x64x64 .f32) (b : Fin 4) (j : Fin 256) :
    val_main_v120 (F := Ideal) x0 (ix3 b (0 : Fin 1) j)
      = Cert.MISpec.count (fun p => val_main_v50 (F := Ideal) x0 (ix4 b (0 : Fin 1) p.1 p.2)) j := by
  have hb := b.isLt; have hj := j.isLt
  rw [val_main_v120_apply]
  unfold val_main_v119
  rw [hostScatterAdd_ideal]
  refine (scatterOnes_rows (R := 4) (M := 256) (N := 1024) (E := 1024) (by norm_num) (by norm_num) _
      (val_main_v117 (F := Ideal)) (val_main_v118 (F := Ideal) x0) (val_main_v116 (F := Ideal))
      (fun j => by rw [val_main_v117_apply, val_main_cst_36_apply, Ideal.ofBits_def, Ideal.ofBits_zero_f32])
      (fun j => by rw [val_main_v116_apply, val_main_cst_35_apply, Ideal.ofBits_def, Ideal.ofBits_one_f32])
      (fun e => val_main_v50 (F := Ideal) x0 (idx_main_v108 (idx_main_v115 (idx_main_v118 (ix2 e (0 : Fin 1))))))
      (fun e => v50_lt x0 _) (v118_read x0)
      b.val j.val hb hj (idx_main_v120 (ix3 b (0 : Fin 1) j))
      (by show (b.val * 1 + 0) * 256 + j.val = b.val * 256 + j.val; omega) (pos4 b) (fun p => rfl)).trans ?_
  unfold Cert.MISpec.count
  refine Finset.sum_congr rfl (fun p _ => ?_)
  simp only [v108_pos]
  exact if_congr (toNat_eq_iff_eq_ofNat _ (by omega)) rfl rfl

end Cert.ReferenceIdeal.Hist

end
-- ==== Proof.RefScore.lean ====
/-
  The reference's score per (batch, channel), read as the shared specification.

  The reference quantises each 16×16 map of f_ms to 256 grey levels between the map's minimum and maximum (two
  reductions over the last two axes of a rank-4 array, read here as the infimum and the supremum over the map's
  pixels), takes the histogram n of those levels, the histogram m of the reference map's levels and their joint
  histogram J, and returns hp + (-∑_k p_k log (p_k + ε)) - (-∑_i ∑_j P_ij log (P_ij + ε)) with p_k = n_k / 256 and
  P_ij = ((256 - n_i) - m_j + 2 J_ij) / 65536. The sum over the two level axes is a reduction over the last two axes
  of a rank-4 array, read here as a double sum. Each stage is read at explicit coordinates and the stages are chained
  outermost first; the float constants are the specification's named words.
-/
import proofs.«139526_j23605140259217_2_alg».proof.Proof.Gen.ReferenceIdeal.Read
import proofs.«139526_j23605140259217_2_alg».proof.Proof.Spec
import proofs.«139526_j23605140259217_2_alg».proof.Proof.RefHist
import proofs.«139526_j23605140259217_2_alg».proof.Proof.RefHistJoint

noncomputable section

namespace Cert.ReferenceIdeal.Score

open Idealize.ShloMosaic Idealize.ShloMosaic.ValueIdx Cert.ReferenceIdeal Cert.ReferenceIdeal.Read

/-! ## A reduction over the last two axes of a rank-4 array -/

section TwoAxes

variable {n0 n1 n2 n3 : Nat}

/-- Removing the last two axes keeps the first two coordinates. -/
theorem drop_val0 (h : Shape.ReducesTo ⟨4, ![n0, n1, n2, n3]⟩ [2, 3] ⟨2, ![n0, n1]⟩) (i : (⟨4, ![n0, n1, n2, n3]⟩ : Shape).Idx) :
    (h.drop i 0).val = (i 0).val := rfl
theorem drop_val1 (h : Shape.ReducesTo ⟨4, ![n0, n1, n2, n3]⟩ [2, 3] ⟨2, ![n0, n1]⟩) (i : (⟨4, ![n0, n1, n2, n3]⟩ : Shape).Idx) :
    (h.drop i 1).val = (i 1).val := rfl

/-- The indices of a rank-4 array that drop to (b, c) when its last two axes are removed are the
    (b, c, p, q), one per pair (p, q). -/
theorem filter_drop_eq_image (h : Shape.ReducesTo ⟨4, ![n0, n1, n2, n3]⟩ [2, 3] ⟨2, ![n0, n1]⟩) (b : Fin n0) (c : Fin n1) :
    (Finset.univ.filter fun i : (⟨4, ![n0, n1, n2, n3]⟩ : Shape).Idx => h.drop i = ix2 b c)
      = (Finset.univ : Finset (Fin n2 × Fin n3)).image (fun p => ix4 b c p.1 p.2) := by
  ext i
  simp only [Finset.mem_filter, Finset.mem_univ, true_and, Finset.mem_image]
  constructor
  · intro e
    have e0 : (i 0).val = b.val := by
      rw [← drop_val0 h i, e]; rfl
    have e1 : (i 1).val = c.val := by
      rw [← drop_val1 h i, e]; rfl
    refine ⟨(i 2, i 3), ?_⟩
    funext a
    match a with
    | ⟨0, _⟩ => exact Fin.ext e0.symm
    | ⟨1, _⟩ => exact Fin.ext e1.symm
    | ⟨2, _⟩ => rfl
    | ⟨3, _⟩ => rfl
  · rintro ⟨p, rfl⟩
    funext a
    match a with
    | ⟨0, _⟩ => exact Fin.ext (drop_val0 h _)
    | ⟨1, _⟩ => exact Fin.ext (drop_val1 h _)

theorem ix4_pair_injective (b : Fin n0) (c : Fin n1) :
    Function.Injective (fun p : Fin n2 × Fin n3 => (ix4 b c p.1 p.2 : (⟨4, ![n0, n1, n2, n3]⟩ : Shape).Idx)) :=
  fun p q e => Prod.ext (congrFun e 2) (congrFun e 3)

/-- The host's sum over the last two axes, at the exact values: the initial value plus the double sum. -/
theorem hostReduceAdd_two (h : Shape.ReducesTo ⟨4, ![n0, n1, n2, n3]⟩ [2, 3] ⟨2, ![n0, n1]⟩)
    (x : (⟨4, ![n0, n1, n2, n3]⟩ : Shape).Idx → EReal) (init : EReal) (b : Fin n0) (c : Fin n1) :
    Ideal.hostReduceAdd h x init (ix2 b c) = init + ∑ p : Fin n2, ∑ q : Fin n3, x (ix4 b c p q) := by
  unfold Ideal.hostReduceAdd
  rw [filter_drop_eq_image h b c, Finset.sum_image (fun p _ q _ e => ix4_pair_injective b c e),
    Fintype.sum_prod_type]

/-- The host's maximum over the last two axes from -∞: the supremum over the pairs. -/
theorem hostReduce_max_two (h : Shape.ReducesTo ⟨4, ![n0, n1, n2, n3]⟩ [2, 3] ⟨2, ![n0, n1]⟩) {u : Shape} (hu : 0 < u.numel)
    (x : (⟨4, ![n0, n1, n2, n3]⟩ : Shape).Idx → EReal) (init : u.Idx → EReal) (hinit : init (Shape.Idx.first hu) = ⊥)
    (b : Fin n0) (c : Fin n1) :
    Host.reduce (FloatOps.maximumf (F := Ideal) (φ := .f32)) x init h hu (ix2 b c)
      = (Finset.univ : Finset (Fin n2 × Fin n3)).sup (fun p => x (ix4 b c p.1 p.2)) := by
  rw [Host.reduce_eq_fold, filter_drop_eq_image h b c, hinit]
  exact Finset.sup_image _ _ _

/-- The host's minimum over the last two axes from +∞: the infimum over the pairs. -/
theorem hostReduce_min_two (h : Shape.ReducesTo ⟨4, ![n0, n1, n2, n3]⟩ [2, 3] ⟨2, ![n0, n1]⟩) {u : Shape} (hu : 0 < u.numel)
    (x : (⟨4, ![n0, n1, n2, n3]⟩ : Shape).Idx → EReal) (init : u.Idx → EReal) (hinit : init (Shape.Idx.first hu) = ⊤)
    (b : Fin n0) (c : Fin n1) :
    Host.reduce (FloatOps.minimumf (F := Ideal) (φ := .f32)) x init h hu (ix2 b c)
      = (Finset.univ : Finset (Fin n2 × Fin n3)).inf (fun p => x (ix4 b c p.1 p.2)) := by
  rw [Host.reduce_eq_fold, filter_drop_eq_image h b c, hinit]
  exact Finset.inf_image _ _ _

end TwoAxes

/-! ## The grey levels of f_ms -/

/-- The f32 words of -∞ and +∞, the folds' neutral elements. -/
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The largest value of the (b, c) map of f_ms. -/
theorem v12_apply (x1 : FVec Ideal S4x512x16x16 .f32) (b : Fin 4) (c : Fin 512) :
    val_main_v12 (F := Ideal) x1 (ix2 b c) = Cert.MISpec.mapMax (fun q => x1 (ix4 b c q.1 q.2)) := by
  unfold val_main_v12
  exact hostReduce_max_two Gen.reducesTo_S4x512x16x16_S4x512_d2_3 Gen.h_S_ x1 _ ofBits_neg_inf b c

/-- The smallest value of the (b, c) map of f_ms. -/
theorem v14_apply (x1 : FVec Ideal S4x512x16x16 .f32) (b : Fin 4) (c : Fin 512) :
    val_main_v14 (F := Ideal) x1 (ix2 b c) = Cert.MISpec.mapMin (fun q => x1 (ix4 b c q.1 q.2)) := by
  unfold val_main_v14
  exact hostReduce_min_two Gen.reducesTo_S4x512x16x16_S4x512_d2_3 Gen.h_S_ x1 _ ofBits_pos_inf b c

theorem idx_v15_v16 (b : Fin 4) (c : Fin 512) (p q : Fin 16) :
    idx_main_v15 (idx_main_v16 (ix4 b c p q)) = ix2 b c := by
  funext a; match a with | ⟨0, _⟩ => rfl | ⟨1, _⟩ => rfl
theorem idx_v15_v19 (b : Fin 4) (c : Fin 512) (p q : Fin 16) :
    idx_main_v15 (idx_main_v19 (ix4 b c p q)) = ix2 b c := by
  funext a; match a with | ⟨0, _⟩ => rfl | ⟨1, _⟩ => rfl
theorem idx_v13_v19 (b : Fin 4) (c : Fin 512) (p q : Fin 16) :
    idx_main_v13 (idx_main_v19 (ix4 b c p q)) = ix2 b c := by
  funext a; match a with | ⟨0, _⟩ => rfl | ⟨1, _⟩ => rfl

/-- the grey levels of f_ms, read at an index -/
theorem v24_read (x1 : FVec Ideal S4x512x16x16 .f32) (b : Fin 4) (c : Fin 512) (p : Cert.MISpec.Pix) :
    val_main_v24 (F := Ideal) x1 (ix4 b c p.1 p.2) = Cert.MISpec.levels (fun q => x1 (ix4 b c q.1 q.2)) p := by
  rw [val_main_v24_apply, val_main_call0_v4_apply, val_main_call0_v3_apply, val_main_c_8_apply,
    val_main_call0_v2_apply, val_main_call0_v1_apply, val_main_call0_v0_apply, val_main_c_apply,
    val_main_v23_apply, val_main_v22_apply, val_main_v21_apply, val_main_cst_7_apply,
    val_main_v20_apply, val_main_v17_apply, val_main_v16_apply, val_main_v15_apply, idx_v15_v16, v14_apply,
    val_main_v19_apply, val_main_v18_apply, val_main_v13_apply, idx_v13_v19, v12_apply,
    val_main_v15_apply, idx_v15_v19, v14_apply]
  rfl

/-! ## The two entropies and the score -/

/-- The grey levels of the (b, c) map of f_ms, as a function of the pixel. -/
theorem levels_eq (x1 : FVec Ideal S4x512x16x16 .f32) (b : Fin 4) (c : Fin 512) :
    (fun p : Cert.MISpec.Pix => val_main_v24 (F := Ideal) x1 (ix4 b c p.1 p.2))
      = Cert.MISpec.levels (fun q => x1 (ix4 b c q.1 q.2)) :=
  funext (v24_read x1 b c)

theorem idx_v72 (b : Fin 4) (c : Fin 512) : idx_main_v72 (ix4 b c (0 : Fin 1) (0 : Fin 1)) = ix2 b c := by
  funext a; match a with | ⟨0, _⟩ => rfl | ⟨1, _⟩ => rfl
theorem idx_v70 (b : Fin 4) (c : Fin 512) (k : Fin 256) : idx_main_v70 (ix2 b c) k = ix3 b c k := by
  funext a; match a with | ⟨0, _⟩ => rfl | ⟨1, _⟩ => rfl | ⟨2, _⟩ => rfl
theorem idx_v156 (b : Fin 4) (c : Fin 512) : idx_main_v156 (ix4 b c (0 : Fin 1) (0 : Fin 1)) = ix2 b c := by
  funext a; match a with | ⟨0, _⟩ => rfl | ⟨1, _⟩ => rfl
theorem idx_v157 (b : Fin 4) (c : Fin 512) :
    idx_main_v157 (ix4 b c (0 : Fin 1) (0 : Fin 1)) = ix4 b (0 : Fin 1) (0 : Fin 1) (0 : Fin 1) := by
  funext a; match a with | ⟨0, _⟩ => rfl | ⟨1, _⟩ => rfl | ⟨2, _⟩ => rfl | ⟨3, _⟩ => rfl
theorem idx_v138_v142 (b : Fin 4) (c : Fin 512) (i j : Fin 256) :
    idx_main_v138 (idx_main_v142 (ix4 b c i j)) = ix3 b c i := by
  funext a; match a with | ⟨0, _⟩ => rfl | ⟨1, _⟩ => rfl | ⟨2, _⟩ => rfl
theorem idx_v141_v143 (b : Fin 4) (c : Fin 512) (i j : Fin 256) :
    idx_main_v141 (idx_main_v143 (ix4 b c i j)) = ix3 b (0 : Fin 1) j := by
  funext a; match a with | ⟨0, _⟩ => rfl | ⟨1, _⟩ => rfl | ⟨2, _⟩ => rfl

/-- The level frequencies of f_ms: n_k / 256. -/
theorem v65_read (x1 : FVec Ideal S4x512x16x16 .f32) (b : Fin 4) (c : Fin 512) (k : Fin 256) :
    val_main_v65 (F := Ideal) x1 (ix3 b c k)
      = Ideal.div (Cert.MISpec.count (Cert.MISpec.levels fun q => x1 (ix4 b c q.1 q.2)) k) Cert.MISpec.c256 := by
  rw [val_main_v65_apply, val_main_v64_apply, val_main_cst_22_apply, Hist.v63_apply, levels_eq]
  rfl

/-- One term p log (p + ε) of the entropy of f_ms's levels. -/
theorem v69_read (x1 : FVec Ideal S4x512x16x16 .f32) (b : Fin 4) (c : Fin 512) (k : Fin 256) :
    val_main_v69 (F := Ideal) x1 (ix3 b c k)
      = Ideal.div (Cert.MISpec.count (Cert.MISpec.levels fun q => x1 (ix4 b c q.1 q.2)) k) Cert.MISpec.c256
        * Ideal.log (Ideal.div (Cert.MISpec.count (Cert.MISpec.levels fun q => x1 (ix4 b c q.1 q.2)) k) Cert.MISpec.c256
            + Cert.MISpec.eps) := by
  rw [val_main_v69_apply, val_main_v68_apply, val_main_v67_apply, val_main_v66_apply, val_main_cst_23_apply,
    v65_read]
  rfl

/-- The entropy of f_ms's level frequencies. -/
theorem v72_read (x1 : FVec Ideal S4x512x16x16 .f32) (b : Fin 4) (c : Fin 512) :
    val_main_v72 (F := Ideal) x1 (ix4 b c (0 : Fin 1) (0 : Fin 1))
      = Cert.MISpec.entropyMs (Cert.MISpec.levels fun q => x1 (ix4 b c q.1 q.2)) := by
  rw [val_main_v72_apply, val_main_v71_apply, idx_v72, val_main_v70_apply, val_main_cst_24_apply]
  simp only [idx_v70, v69_read]
  rw [Ideal.hostNegf_def, Ideal.negf_def, Ideal.ofBits_def, Ideal.ofBits_zero_f32, zero_add]
  rfl

/-- One entry of the scaled agreement table: ((256 - n_i) - m_j + 2 J_ij) / 65536. -/
theorem v149_read (x0 : FVec Ideal S4x512x64x64 .f32) (x1 : FVec Ideal S4x512x16x16 .f32) (b : Fin 4) (c : Fin 512)
    (i j : Fin 256) :
    val_main_v149 (F := Ideal) x0 x1 (ix4 b c i j)
      = Cert.MISpec.jointP (Cert.MISpec.levels fun q => x1 (ix4 b c q.1 q.2))
          (fun p => val_main_v50 (F := Ideal) x0 (ix4 b (0 : Fin 1) p.1 p.2)) i j := by
  rw [val_main_v149_apply, val_main_v148_apply, val_main_cst_43_apply, val_main_v147_apply,
    val_main_v144_apply, val_main_v142_apply, val_main_v140_apply, val_main_v139_apply, val_main_cst_41_apply,
    val_main_v138_apply, idx_v138_v142, Hist.v107_apply, levels_eq,
    val_main_v143_apply, val_main_v141_apply, idx_v141_v143, Hist.v120_apply,
    val_main_v146_apply, val_main_v145_apply, val_main_cst_42_apply, Hist.v137_apply, levels_eq]
  rfl

/-- One term p log (p + ε) of the entropy of the agreement table. -/
theorem v153_read (x0 : FVec Ideal S4x512x64x64 .f32) (x1 : FVec Ideal S4x512x16x16 .f32) (b : Fin 4) (c : Fin 512)
    (i j : Fin 256) :
    val_main_v153 (F := Ideal) x0 x1 (ix4 b c i j)
      = Cert.MISpec.jointP (Cert.MISpec.levels fun q => x1 (ix4 b c q.1 q.2))
          (fun p => val_main_v50 (F := Ideal) x0 (ix4 b (0 : Fin 1) p.1 p.2)) i j
        * Ideal.log (Cert.MISpec.jointP (Cert.MISpec.levels fun q => x1 (ix4 b c q.1 q.2))
            (fun p => val_main_v50 (F := Ideal) x0 (ix4 b (0 : Fin 1) p.1 p.2)) i j + Cert.MISpec.eps) := by
  rw [val_main_v153_apply, val_main_v152_apply, val_main_v151_apply, val_main_v150_apply, val_main_cst_44_apply,
    v149_read]
  rfl

/-- The entropy of the agreement table: minus the sum over both level axes. -/
theorem v156_read (x0 : FVec Ideal S4x512x64x64 .f32) (x1 : FVec Ideal S4x512x16x16 .f32) (b : Fin 4) (c : Fin 512) :
    val_main_v156 (F := Ideal) x0 x1 (ix4 b c (0 : Fin 1) (0 : Fin 1))
      = Cert.MISpec.entropyJoint (Cert.MISpec.levels fun q => x1 (ix4 b c q.1 q.2))
          (fun p => val_main_v50 (F := Ideal) x0 (ix4 b (0 : Fin 1) p.1 p.2)) := by
  rw [val_main_v156_apply, val_main_v155_apply, idx_v156]
  unfold val_main_v154
  generalize hy : val_main_v153 (F := Ideal) x0 x1 = y
  simp only [Host.reduceAdd, Ideal.hostReduceAdd_def]
  rw [hostReduceAdd_two Gen.reducesTo_S4x512x256x256_S4x512_d2_3, val_main_cst_45_apply]
  subst hy
  simp only [v153_read]
  rw [Ideal.hostNegf_def, Ideal.negf_def, Ideal.ofBits_def, Ideal.ofBits_zero_f32, zero_add]
  rfl

/-- The score h_p + h_ms - h_ms_p of the (b, c) map. -/
theorem v159_read (x0 : FVec Ideal S4x512x64x64 .f32) (x1 : FVec Ideal S4x512x16x16 .f32) (b : Fin 4) (c : Fin 512) :
    val_main_v159 (F := Ideal) x0 x1 (ix4 b c (0 : Fin 1) (0 : Fin 1)) =
      Cert.MISpec.mi (val_main_v94 (F := Ideal) x0 (ix4 b (0 : Fin 1) (0 : Fin 1) (0 : Fin 1)))
        (Cert.MISpec.levels fun p => x1 (ix4 b c p.1 p.2))
        (fun p => val_main_v50 (F := Ideal) x0 (ix4 b (0 : Fin 1) p.1 p.2)) := by
  rw [val_main_v159_apply, val_main_v158_apply, val_main_v157_apply, idx_v157, v72_read,
    v156_read]
  rfl

/-! ## The two readings -/

open Idealize.ShloMosaic Idealize.ShloMosaic.ValueIdx Cert.ReferenceIdeal Cert.ReferenceIdeal.Read
/-- the grey levels of f_ms, read at an index -/
theorem v24_apply (x1 : FVec Ideal S4x512x16x16 .f32) (b : Fin 4) (c : Fin 512) (p : Cert.MISpec.Pix) :
    val_main_v24 (F := Ideal) x1 (ix4 b c p.1 p.2) = Cert.MISpec.levels (fun q => x1 (ix4 b c q.1 q.2)) p :=
  v24_read x1 b c p
theorem v159_apply (x0 : FVec Ideal S4x512x64x64 .f32) (x1 : FVec Ideal S4x512x16x16 .f32) (b : Fin 4) (c : Fin 512) :
    val_main_v159 (F := Ideal) x0 x1 (ix4 b c (0 : Fin 1) (0 : Fin 1)) =
      Cert.MISpec.mi (val_main_v94 (F := Ideal) x0 (ix4 b (0 : Fin 1) (0 : Fin 1) (0 : Fin 1)))
        (Cert.MISpec.levels fun p => x1 (ix4 b c p.1 p.2))
        (fun p => val_main_v50 (F := Ideal) x0 (ix4 b (0 : Fin 1) p.1 p.2)) :=
  v159_read x0 x1 b c

end Cert.ReferenceIdeal.Score

end
-- ==== Proof.MeanPool.lean ====
/-
  The channel mean and the pooled mean, on both sides.

  The first region of the kernel's program computes, batch by batch, the mean over the 512 channels of a
  [4,512,64,64] array (`meanC`: the sum over the channel axis divided by 512, as a [4,1,64,64] array); the host
  operations that follow average it over 4×4 patches (`poolK`: reshape to [4,1,16,4,16,4], sum over axes 3 and 5
  from zero, divide by 16). The reference computes the same channel mean directly, and the pooled mean in the other
  order: it averages every channel over the 4×4 patches first and then over the channels.

  Proved here: the host operations' result is `poolK` of the array they read (`kernel_pool`); after the first
  region that array is `meanC` of the argument (`region0_value`: each grid point writes back the block of `meanC`
  of its batch, and the blocks cover the array); the reference's channel mean is `meanC` (`ref_mean`); the two
  pooled means agree when every entry of the argument is a real number (`pool_eq`: both are finite sums of reals
  scaled by 1/512 and 1/16, and finite sums commute); and the precondition gives that finiteness (`finite_of_pre`).
-/
import proofs.«139526_j23605140259217_2_alg».proof.Proof.Gen.KernelIdeal.Frame
import proofs.«139526_j23605140259217_2_alg».proof.Proof.Gen.ReferenceIdeal.Read
import Idealize.ShloMosaic.Lib.Pipeline.Value
import Idealize.ShloMosaic.Lib.ValueIdx
import Idealize.ShloMosaic.Lib.ValueIdxRank6
import Idealize.ShloMosaic.Lib.ValueLayout
import Idealize.ShloMosaic.Lib.IdealHost
import Idealize.ShloMosaic.PureOps.Ideal.Laws
import Idealize.ShloMosaic.Lib.ReduceAll
import proofs.«139526_j23605140259217_2_alg».proof.Proof.Gen.Pre_finite_inputs

noncomputable section

namespace Cert.MeanPool

open Idealize.ShloMosaic Idealize.ShloMosaic.ValueIdx Idealize.ShloMosaic.TcCoe Idealize.SL.Sem Idealize.ShloMosaic.StableHlo
open Idealize.ShloMosaic.Pipeline (Dat)
open Cert.KernelIdeal (S4x512x64x64 S4x1x64x64 S4x1x16x16 S4x1x16x4x16x4 S_ S1x512x64x64 S1x1x64x64 S1x64x64)

/-! ## The 4×4 pooling read at an index, and the law that the two orders of averaging agree on real entries -/

/-- 512 and 16 as the extended reals their f32 words denote. -/
theorem ofBits_512 : Ideal.ofBits .f32 0x44000000#32 = ((512 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

/-- Row (or column) `4 p + u` of the 64 that 16 groups of 4 make. -/
def sub4 (p : Fin 16) (u : Fin 4) : Fin 64 := ⟨4 * p.val + u.val, by have := p.isLt; have := u.isLt; omega⟩

/-- The reshape [n0,n1,64,64] → [n0,n1,16,4,16,4] read at an index: rows and columns split into 16 groups of 4. -/
theorem reshape6_apply {α : Type} {n0 n1 : Nat} (X : (⟨4, ![n0, n1, 64, 64]⟩ : Shape).Idx → α)
    (h : (⟨4, ![n0, n1, 64, 64]⟩ : Shape).ShapeCasts ⟨6, ![n0, n1, 16, 4, 16, 4]⟩)
    (b : Fin n0) (c : Fin n1) (p : Fin 16) (u : Fin 4) (q : Fin 16) (v : Fin 4) :
    shapeCast ⟨6, ![n0, n1, 16, 4, 16, 4]⟩ X h (ix6 b c p u q v) = X (ix4 b c (sub4 p u) (sub4 q v)) := by
  refine shapeCast_apply X h _ _ ?_
  rw [Shape.rowMajor_val_four, Shape.rowMajor_val_six]
  show ((b.val * n1 + c.val) * 64 + (4 * p.val + u.val)) * 64 + (4 * q.val + v.val)
    = ((((b.val * n1 + c.val) * 16 + p.val) * 4 + u.val) * 16 + q.val) * 4 + v.val
  generalize b.val * n1 + c.val = m
  omega

/-- The indices of [n0,n1,16,4,16,4] that drop to (b,c,p,q) when axes 3 and 5 are removed are the (b,c,p,u,q,v):
    a sum over them is the sum over the pairs (u,v). -/
theorem sum_filter_drop35 {n0 n1 : Nat}
    (h' : (⟨6, ![n0, n1, 16, 4, 16, 4]⟩ : Shape).ReducesTo [3, 5] ⟨4, ![n0, n1, 16, 16]⟩)
    (x : (⟨6, ![n0, n1, 16, 4, 16, 4]⟩ : Shape).Idx → EReal) (b : Fin n0) (c : Fin n1) (p q : Fin 16) :
    ∑ i ∈ Finset.univ.filter (fun i => h'.drop i = ix4 b c p q), x i
      = ∑ uv : Fin 4 × Fin 4, x (ix6 b c p uv.1 q uv.2) := by
  refine Finset.sum_nbij' (fun i => ((⟨(i 3).val, (i 3).isLt⟩ : Fin 4), (⟨(i 5).val, (i 5).isLt⟩ : Fin 4)))
    (fun uv => ix6 b c p uv.1 q uv.2) ?_ ?_ ?_ ?_ ?_
  · intro i _; exact Finset.mem_univ _
  · intro uv _
    refine Finset.mem_filter.2 ⟨Finset.mem_univ _, funext fun a => Fin.ext ?_⟩
    match a with
    | ⟨0, _⟩ => rfl
    | ⟨1, _⟩ => rfl
    | ⟨2, _⟩ => rfl
    | ⟨3, _⟩ => rfl
  · intro i hi
    have hj := (Finset.mem_filter.1 hi).2
    funext a
    apply Fin.ext
    match a with
    | ⟨0, _⟩ => exact (congrArg (fun j : (⟨4, ![n0, n1, 16, 16]⟩ : Shape).Idx => (j 0).val) hj).symm
    | ⟨1, _⟩ => exact (congrArg (fun j : (⟨4, ![n0, n1, 16, 16]⟩ : Shape).Idx => (j 1).val) hj).symm
    | ⟨2, _⟩ => exact (congrArg (fun j : (⟨4, ![n0, n1, 16, 16]⟩ : Shape).Idx => (j 2).val) hj).symm
    | ⟨3, _⟩ => rfl
    | ⟨4, _⟩ => exact (congrArg (fun j : (⟨4, ![n0, n1, 16, 16]⟩ : Shape).Idx => (j 3).val) hj).symm
    | ⟨5, _⟩ => rfl
  · intro uv _; rfl
  · intro i hi
    have hj := (Finset.mem_filter.1 hi).2
    refine congrArg x (funext fun a => Fin.ext ?_)
    match a with
    | ⟨0, _⟩ => exact congrArg (fun j : (⟨4, ![n0, n1, 16, 16]⟩ : Shape).Idx => (j 0).val) hj
    | ⟨1, _⟩ => exact congrArg (fun j : (⟨4, ![n0, n1, 16, 16]⟩ : Shape).Idx => (j 1).val) hj
    | ⟨2, _⟩ => exact congrArg (fun j : (⟨4, ![n0, n1, 16, 16]⟩ : Shape).Idx => (j 2).val) hj
    | ⟨3, _⟩ => rfl
    | ⟨4, _⟩ => exact congrArg (fun j : (⟨4, ![n0, n1, 16, 16]⟩ : Shape).Idx => (j 3).val) hj
    | ⟨5, _⟩ => rfl

/-- The host's sum over axes 3 and 5 of a [n0,n1,16,4,16,4] array, read at (b,c,p,q). -/
theorem hostReduceAdd35_apply {n0 n1 : Nat}
    (h' : (⟨6, ![n0, n1, 16, 4, 16, 4]⟩ : Shape).ReducesTo [3, 5] ⟨4, ![n0, n1, 16, 16]⟩)
    (x : (⟨6, ![n0, n1, 16, 4, 16, 4]⟩ : Shape).Idx → EReal) (init : EReal) (b : Fin n0) (c : Fin n1) (p q : Fin 16) :
    Ideal.hostReduceAdd h' x init (ix4 b c p q) = init + ∑ uv : Fin 4 × Fin 4, x (ix6 b c p uv.1 q uv.2) := by
  unfold Ideal.hostReduceAdd
  exact congrArg (init + ·) (sum_filter_drop35 h' x b c p q)

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Averaging over `K` then over `P` is averaging over `P` then over `K`, on real entries and nonzero real divisors. -/
theorem pool_law {K P : Type} [Fintype K] [Fintype P] (r : K → P → ℝ) (c d : ℝ) (hc : c ≠ 0) (hd : d ≠ 0) :
    Ideal.div (0 + ∑ p : P, Ideal.div (∑ k : K, (r k p : EReal)) (c : EReal)) (d : EReal)
      = Ideal.div (0 + ∑ k : K, Ideal.div (0 + ∑ p : P, (r k p : EReal)) (d : EReal)) (c : EReal) := by
  simp only [zero_add, Ideal.div_coe hc, Ideal.div_coe hd, ← coe_sum, ← EReal.coe_mul]
  congr 1
  rw [← Finset.sum_mul, ← Finset.sum_mul, Finset.sum_comm]
  ring

/-- the channel mean: (∑_c x[b,c,h,w]) / 512 at (b,0,h,w) -/
def meanC (x : FVec Ideal S4x512x64x64 .f32) : FVec Ideal S4x1x64x64 .f32 :=
  fun i => Ideal.div (∑ k : Fin 512, x (ix4 (i 0) k (i 2) (i 3))) (Ideal.ofBits .f32 0x44000000#32)

/-- the 4×4 average pooling of a [4,1,64,64] array, as the host computes it: reshape to [4,1,16,4,16,4],
    sum over axes 3 and 5 from zero, divide by 16 -/
def poolK (A : FVec Ideal S4x1x64x64 .f32) : FVec Ideal S4x1x16x16 .f32 :=
  Host.divf (F := Ideal)
    (Host.reduceAdd (F := Ideal)
      (fun i => shapeCast S4x1x16x4x16x4 A Cert.KernelIdeal.Gen.shapeCasts_S4x1x64x64_S4x1x16x4x16x4 i)
      (constant (F := Ideal) S_ .f32 0x00000000#32) Cert.KernelIdeal.Gen.reducesTo_S4x1x16x4x16x4_S4x1x16x16_d3_5 Cert.KernelIdeal.Gen.h_S_)
    (broadcastInDim S4x1x16x16 ![] Cert.KernelIdeal.Gen.bcast_S_S4x1x16x16 (constant (F := Ideal) S_ .f32 0x41800000#32))

/-- the host operations after the first region leave the pooled array in the fifth result buffer -/
theorem kernel_pool (W : Valuation Cert.KernelIdeal.τ Cert.KernelIdeal.sig (Elt Ideal)) :
    StableHlo.after (Cert.KernelIdeal.Gen.hostOps1 (F := Ideal)) W (Proc.devRef .tc Cert.KernelIdeal.main_v4)
      = poolK (W (Proc.devRef .tc Cert.KernelIdeal.main_v0)) := by
  after_results
  rfl

/-! ## The first region: the channel mean, block by block -/

theorem hz4 : (![0, 0, 0, 0] : Fin 4 → Nat) = fun _ => 0 := funext fun a => by fin_cases a <;> rfl

/-- The body's arithmetic at an index of the [1,1,64,64] block: the sum over the 512 channels of the loaded block, divided by 512. -/
theorem pay_apply (v0 : FVec Ideal S1x512x64x64 .f32) (z0 z1 : Fin 1) (h w : Fin 64) :
    Cert.KernelIdeal.Gen.k0_pay1 (F := Ideal) v0 (ix4 z0 z1 h w)
      = Ideal.div (∑ k : Fin 512, v0 (ix4 z0 k h w)) (Ideal.ofBits .f32 0x44000000#32) := by
  unfold Cert.KernelIdeal.Gen.k0_pay1
  show Ideal.div (shapeCast S1x1x64x64 (multiReduction (F := Ideal) .add [1] S1x64x64 v0 0x00000000#32 Cert.KernelIdeal.Gen.reduces_S1x512x64x64_S1x64x64 (.inl rfl) rfl) Cert.KernelIdeal.Gen.shapeCasts_S1x64x64_S1x1x64x64 (ix4 z0 z1 h w)) (Ideal.ofBits .f32 0x44000000#32) = _
  congr 1
  refine (shapeCast_apply _ _ (ix4 z0 z1 h w) (ix3 z0 h w) ?_).trans ?_
  · rw [Shape.rowMajor_val_three, Shape.rowMajor_val_four]
    show (z0.val * 64 + h.val) * 64 + w.val = ((z0.val * 1 + z1.val) * 64 + h.val) * 64 + w.val
    have := z0.isLt; have := z1.isLt; omega
  · refine (Ideal.multiReduction_add_single v0 0x00000000#32 Cert.KernelIdeal.Gen.reduces_S1x512x64x64_S1x64x64 (.inl rfl) rfl (ix3 z0 h w)).trans ?_
    refine Finset.sum_congr rfl fun k _ => ?_
    exact congrArg v0 (funext fun a => Fin.ext (by match a with | ⟨0, _⟩ => rfl | ⟨1, _⟩ => rfl | ⟨2, _⟩ => rfl | ⟨3, _⟩ => rfl))

/-- The body's result on a block that is batch `b` of an array `X` is the channel mean of `X` at batch `b`. -/
theorem pay_block (X : FVec Ideal S4x512x64x64 .f32) (x0 : FVec Ideal S1x512x64x64 .f32) (b : Fin 4)
    (hx : ∀ (z : Fin 1) (k : Fin 512) (h w : Fin 64), x0 (ix4 z k h w) = X (ix4 b k h w))
    (j : S1x1x64x64.Idx) (i : S4x1x64x64.Idx) (hi0 : (i 0).val = b.val) (hi2 : (i 2).val = (j 2).val) (hi3 : (i 3).val = (j 3).val) :
    Cert.KernelIdeal.Gen.k0_pay1 (F := Ideal) x0 j = meanC X i := by
  obtain ⟨z0, z1, h, w, rfl⟩ : ∃ (z0 z1 : Fin 1) (h w : Fin 64), j = ix4 z0 z1 h w := ⟨j 0, j 1, j 2, j 3, eq_ix4 j⟩
  rw [pay_apply]
  unfold meanC
  congr 1
  refine Finset.sum_congr rfl fun k _ => ?_
  refine (hx z0 k h w).trans (congrArg X (funext fun a => Fin.ext ?_))
  match a with
  | ⟨0, _⟩ => exact hi0.symm
  | ⟨1, _⟩ => rfl
  | ⟨2, _⟩ => exact hi2.symm
  | ⟨3, _⟩ => exact hi3.symm

/-- The two windows' block indices at point `t`: batch `t`, everything else whole. -/
theorem idx_facts0 : ∀ t : Fin Cert.KernelIdeal.cfg0.N,
    Cert.KernelIdeal.win0_0.index t (0 : Fin 4) = t.val ∧ Cert.KernelIdeal.win0_0.index t (1 : Fin 4) = 0
    ∧ Cert.KernelIdeal.win0_0.index t (2 : Fin 4) = 0 ∧ Cert.KernelIdeal.win0_0.index t (3 : Fin 4) = 0
    ∧ Cert.KernelIdeal.win0_1.index t (0 : Fin 4) = t.val ∧ Cert.KernelIdeal.win0_1.index t (1 : Fin 4) = 0
    ∧ Cert.KernelIdeal.win0_1.index t (2 : Fin 4) = 0 ∧ Cert.KernelIdeal.win0_1.index t (3 : Fin 4) = 0 :=
  (by decide +kernel : ∀ t : Fin Cert.KernelIdeal.grid0.N, _)

section Region
open Cert.KernelIdeal Cert.KernelIdeal.Gen
variable (V : (c : Dev nD) → (b : Ref sig .tc) → Buf (Elt Ideal) ((c : Thread nD τ).loc b))

/-- The input window's block at point `t` is batch `t` of the argument. -/
theorem iblk_apply (c : Dev nD) (t : Fin cfg0.N) (x : S1x512x64x64.Idx) (k : S4x512x64x64.Idx)
    (hk0 : (k 0).val = t.val) (hk1 : (k 1).val = (x 1).val) (hk2 : (k 2).val = (x 2).val) (hk3 : (k 3).val = (x 3).val) :
    (iblk0 (F := Ideal) V c 0 t : Vec Ideal S1x512x64x64 .f32) x = (V c main_arg0 : S4x512x64x64.Idx → Elt Ideal .f32) k := by
  obtain ⟨e0, e1, e2, e3, -⟩ := idx_facts0 t
  unfold iblk0
  rw [View.read_apply]
  show V c main_arg0 _ = V c main_arg0 _
  congr 1
  funext a
  apply Fin.ext
  have hx0 : (x 0).val < 1 := (x 0).isLt
  match a with
  | ⟨0, _⟩ => show win0_0.index t 0 * 1 + 1 * (x 0).val = (k 0).val; rw [e0, hk0]; omega
  | ⟨1, _⟩ => show win0_0.index t 1 * 512 + 1 * (x 1).val = (k 1).val; rw [e1, hk1]; omega
  | ⟨2, _⟩ => show win0_0.index t 2 * 64 + 1 * (x 2).val = (k 2).val; rw [e2, hk2]; omega
  | ⟨3, _⟩ => show win0_0.index t 3 * 64 + 1 * (x 3).val = (k 3).val; rw [e3, hk3]; omega

/-- What point `t` writes back is block `t` of the channel mean of the argument. -/
theorem flushed_eq (c : Dev nD) (t : Fin cfg0.N) :
    (dat0 (F := Ideal) V c).flushed 1 t = ((cfg0.win 1).blk t).view.read (Elt Ideal) (meanC (V c main_arg0)) := by
  show (cfg0.win 1).cut (grid0.coords t) ((dat0 V c).after 1 t) = _
  rw [after0_1]
  unfold out0_1
  rw [View.canon_unit_zero hz4]
  simp only [View.ld_unit_zero (S := S1x512x64x64) hz4]
  obtain ⟨-, -, -, -, e0, e1, e2, e3⟩ := idx_facts0 t
  have hN : cfg0.N = 4 := N_0
  funext j
  show k0_pay1 (F := Ideal) (iblk0 V c 0 t) j = meanC (V c main_arg0) (((cfg0.win 1).blk t).view.emb j)
  refine pay_block (V c main_arg0) (iblk0 V c 0 t) ⟨t.val, by omega⟩ (fun z k h w => ?_) j (((cfg0.win 1).blk t).view.emb j) ?_ ?_ ?_
  · exact iblk_apply V c t (ix4 z k h w) (ix4 ⟨t.val, by omega⟩ k h w) rfl rfl rfl rfl
  · have hj0 : (j 0).val < 1 := (j 0).isLt
    show win0_1.index t 0 * 1 + 1 * (j 0).val = t.val; rw [e0]; omega
  · show win0_1.index t 2 * 64 + 1 * (j 2).val = (j 2).val; rw [e2]; omega
  · show win0_1.index t 3 * 64 + 1 * (j 3).val = (j 3).val; rw [e3]; omega

/-- An index of the result array is in point `t`'s block iff each coordinate is in the block's range on its axis. -/
theorem mem_blk (t : Fin cfg0.N) (i : S4x1x64x64.Idx) :
    i ∈ ((cfg0.win 1).blk t).view.set ↔ ∀ a : Fin 4, win0_1.index t a * S1x1x64x64.size a ≤ (i a).val ∧ (i a).val < win0_1.index t a * S1x1x64x64.size a + S1x1x64x64.size a := by
  show i ∈ ((View.whole main_v0).slice (win0_1.rect t)).set ↔ _
  rw [View.set_slice_whole, Rect.mem_set_unit]
  exact Iff.rfl

/-- Every index of the result array is in the block of the point its batch coordinate names. -/
theorem cover (i : S4x1x64x64.Idx) : ∃ t : Fin cfg0.N, (cfg0.win 1).flush t = true ∧ i ∈ ((cfg0.win 1).blk t).view.set := by
  have hN : cfg0.N = 4 := N_0
  have h0 : (i 0).val < 4 := (i 0).isLt
  have h1 : (i 1).val < 1 := (i 1).isLt
  have h2 : (i 2).val < 64 := (i 2).isLt
  have h3 : (i 3).val < 64 := (i 3).isLt
  obtain ⟨t, ht⟩ : ∃ t : Fin cfg0.N, t.val = (i 0).val := ⟨⟨(i 0).val, by omega⟩, rfl⟩
  refine ⟨t, flush0_1 t, ?_⟩
  obtain ⟨-, -, -, -, e0, e1, e2, e3⟩ := idx_facts0 t
  rw [mem_blk]
  intro a
  match a with
  | ⟨0, _⟩ => show win0_1.index t 0 * 1 ≤ (i 0).val ∧ (i 0).val < win0_1.index t 0 * 1 + 1; rw [e0]; omega
  | ⟨1, _⟩ => show win0_1.index t 1 * 1 ≤ (i 1).val ∧ (i 1).val < win0_1.index t 1 * 1 + 1; rw [e1]; omega
  | ⟨2, _⟩ => show win0_1.index t 2 * 64 ≤ (i 2).val ∧ (i 2).val < win0_1.index t 2 * 64 + 64; rw [e2]; omega
  | ⟨3, _⟩ => show win0_1.index t 3 * 64 ≤ (i 3).val ∧ (i 3).val < win0_1.index t 3 * 64 + 64; rw [e3]; omega

/-- After the first region the result array holds the channel mean of the argument. -/
theorem region0_value (c : Dev nD) :
    (dat0 (F := Ideal) V c).arrAt 1 cfg0.N = meanC (V c main_arg0) :=
  (dat0 V c).arrAt_eq_of_cover 1 (meanC (V c main_arg0)) (fun t _ => flushed_eq V c t) cover

end Region

/-! ## The reference's first eleven operations, and the two pooled means -/

theorem meanC_apply (x : FVec Ideal S4x512x64x64 .f32) (b : Fin 4) (z : Fin 1) (h w : Fin 64) :
    meanC x (ix4 b z h w) = Ideal.div (∑ k : Fin 512, x (ix4 b k h w)) (Ideal.ofBits .f32 0x44000000#32) := rfl

/-- The reference's channel mean is `meanC`. -/
theorem ref_mean (x0 : FVec Ideal S4x512x64x64 .f32) : Cert.ReferenceIdeal.Read.val_main_v3 (F := Ideal) x0 = meanC x0 := by
  funext i
  obtain ⟨b, z, h, w, rfl⟩ : ∃ (b : Fin 4) (z : Fin 1) (h : Fin 64) (w : Fin 64), i = ix4 b z h w := ⟨i 0, i 1, i 2, i 3, eq_ix4 i⟩
  rw [Cert.ReferenceIdeal.Read.val_main_v3_apply, Cert.ReferenceIdeal.Read.val_main_v1_apply, Cert.ReferenceIdeal.Read.val_main_v0_apply, Cert.ReferenceIdeal.Read.val_main_v2_apply]
  have e : ∀ k : Fin 512, Cert.ReferenceIdeal.Read.idx_main_v0 (Cert.ReferenceIdeal.Read.idx_main_v1 (ix4 b z h w)) k = ix4 b k h w := fun k =>
    funext fun a => Fin.ext (by match a with | ⟨0, _⟩ => rfl | ⟨1, _⟩ => rfl | ⟨2, _⟩ => rfl | ⟨3, _⟩ => rfl)
  simp only [e, Cert.ReferenceIdeal.Read.val_main_cst_apply, Cert.ReferenceIdeal.Read.val_main_cst_0_apply, Ideal.hostDivf_def, Ideal.ofBits_def, Ideal.ofBits_zero_f32, zero_add]
  rfl

/-- The kernel side's pooling at an index: the 16 entries of the 4×4 patch summed from zero, divided by 16. -/
theorem poolK_apply (A : FVec Ideal S4x1x64x64 .f32) (b : Fin 4) (z : Fin 1) (p q : Fin 16) :
    poolK A (ix4 b z p q)
      = Ideal.div (Ideal.ofBits .f32 0x00000000#32 + ∑ uv : Fin 4 × Fin 4, A (ix4 b z (sub4 p uv.1) (sub4 q uv.2)))
          (Ideal.ofBits .f32 0x41800000#32) := by
  unfold poolK
  refine (hostDivf_apply _ _ _).trans (congrArg₂ Ideal.div ?_ ?_)
  · refine (hostReduceAdd_apply _ _ _ _ (ix4 b z p q)).trans ?_
    refine (hostReduceAdd35_apply _ _ _ b z p q).trans ?_
    exact congrArg₂ (· + ·) rfl (Finset.sum_congr rfl fun uv _ => reshape6_apply A _ b z p uv.1 q uv.2)
  · exact (broadcastInDim_scalar_apply _ _ _).trans rfl

/-- The reference's per-channel 4×4 patch sum at an index. -/
theorem v5_apply (x0 : FVec Ideal S4x512x64x64 .f32) (b : Fin 4) (k : Fin 512) (p q : Fin 16) :
    Cert.ReferenceIdeal.Read.val_main_v5 (F := Ideal) x0 (ix4 b k p q)
      = Ideal.ofBits .f32 0x00000000#32 + ∑ uv : Fin 4 × Fin 4, x0 (ix4 b k (sub4 p uv.1) (sub4 q uv.2)) := by
  unfold Cert.ReferenceIdeal.Read.val_main_v5 Cert.ReferenceIdeal.Read.val_main_v4
  refine (hostReduceAdd_apply _ _ _ _ (ix4 b k p q)).trans ?_
  refine (hostReduceAdd35_apply _ _ _ b k p q).trans ?_
  exact congrArg₂ (· + ·) rfl (Finset.sum_congr rfl fun uv _ => reshape6_apply x0 _ b k p uv.1 q uv.2)

/-- The kernel side's pooled mean at an index, over real witnesses of the entries. -/
theorem poolK_meanC_apply (x0 : FVec Ideal S4x512x64x64 .f32) (r : S4x512x64x64.Idx → ℝ) (hr : ∀ i, x0 i = (r i : EReal))
    (b : Fin 4) (z : Fin 1) (p q : Fin 16) :
    poolK (meanC x0) (ix4 b z p q)
      = Ideal.div (0 + ∑ uv : Fin 4 × Fin 4, Ideal.div (∑ k : Fin 512, ((r (ix4 b k (sub4 p uv.1) (sub4 q uv.2)) : ℝ) : EReal)) ((512 : ℝ) : EReal)) ((16 : ℝ) : EReal) := by
  rw [poolK_apply]
  simp only [meanC_apply, hr, Ideal.ofBits_zero_f32, ofBits_16, ofBits_512]

/-- The reference's pooled mean at an index, over real witnesses of the entries. -/
theorem ref_pool_apply (x0 : FVec Ideal S4x512x64x64 .f32) (r : S4x512x64x64.Idx → ℝ) (hr : ∀ i, x0 i = (r i : EReal))
    (b : Fin 4) (z : Fin 1) (p q : Fin 16) :
    Cert.ReferenceIdeal.Read.val_main_v11 (F := Ideal) x0 (ix4 b z p q)
      = Ideal.div (0 + ∑ k : Fin 512, Ideal.div (0 + ∑ uv : Fin 4 × Fin 4, ((r (ix4 b k (sub4 p uv.1) (sub4 q uv.2)) : ℝ) : EReal)) ((16 : ℝ) : EReal)) ((512 : ℝ) : EReal) := by
  have e8 : ∀ k : Fin 512, Cert.ReferenceIdeal.Read.idx_main_v8 (Cert.ReferenceIdeal.Read.idx_main_v9 (ix4 b z p q)) k = ix4 b k p q := fun k =>
    funext fun a => Fin.ext (by match a with | ⟨0, _⟩ => rfl | ⟨1, _⟩ => rfl | ⟨2, _⟩ => rfl | ⟨3, _⟩ => rfl)
  rw [Cert.ReferenceIdeal.Read.val_main_v11_apply, Cert.ReferenceIdeal.Read.val_main_v9_apply, Cert.ReferenceIdeal.Read.val_main_v8_apply, Cert.ReferenceIdeal.Read.val_main_v10_apply]
  simp only [e8, Cert.ReferenceIdeal.Read.val_main_v7_apply, Cert.ReferenceIdeal.Read.val_main_v6_apply, v5_apply,
    Cert.ReferenceIdeal.Read.val_main_cst_2_apply, Cert.ReferenceIdeal.Read.val_main_cst_3_apply, Cert.ReferenceIdeal.Read.val_main_cst_4_apply,
    Ideal.hostDivf_def, Ideal.ofBits_def, Ideal.ofBits_zero_f32, ofBits_16, ofBits_512, hr]

/-- The law between the two orders of averaging, at the pooled entry (b, ·, p, q) of real entries `r`. -/
theorem pool_law_at (r : S4x512x64x64.Idx → ℝ) (b : Fin 4) (p q : Fin 16) :
    Ideal.div (0 + ∑ uv : Fin 4 × Fin 4, Ideal.div (∑ k : Fin 512, ((r (ix4 b k (sub4 p uv.1) (sub4 q uv.2)) : ℝ) : EReal)) ((512 : ℝ) : EReal)) ((16 : ℝ) : EReal)
      = Ideal.div (0 + ∑ k : Fin 512, Ideal.div (0 + ∑ uv : Fin 4 × Fin 4, ((r (ix4 b k (sub4 p uv.1) (sub4 q uv.2)) : ℝ) : EReal)) ((16 : ℝ) : EReal)) ((512 : ℝ) : EReal) :=
  pool_law (K := Fin 512) (P := Fin 4 × Fin 4) (fun (k : Fin 512) (uv : Fin 4 × Fin 4) => r (ix4 b k (sub4 p uv.1) (sub4 q uv.2))) 512 16 (by norm_num) (by norm_num)

/-- The two pooled means agree on an argument whose entries are the reals `r`. -/
theorem pool_eq_of (x0 : FVec Ideal S4x512x64x64 .f32) (r : S4x512x64x64.Idx → ℝ) (hr : ∀ i, x0 i = (r i : EReal)) :
    poolK (meanC x0) = Cert.ReferenceIdeal.Read.val_main_v11 (F := Ideal) x0 := by
  funext j
  obtain ⟨b, z, p, q, rfl⟩ : ∃ (b : Fin 4) (z : Fin 1) (p q : Fin 16), j = ix4 b z p q := ⟨j 0, j 1, j 2, j 3, eq_ix4 j⟩
  exact (poolK_meanC_apply x0 r hr b z p q).trans ((pool_law_at r b p q).trans (ref_pool_apply x0 r hr b z p q).symm)

/-- Pooling the channel mean is the channel mean of the pooled channels, when every entry of the argument is a real number. -/
theorem pool_eq (x0 : FVec Ideal S4x512x64x64 .f32) (hfin : ∀ i, ∃ r : ℝ, x0 i = (r : EReal)) :
    poolK (meanC x0) = Cert.ReferenceIdeal.Read.val_main_v11 (F := Ideal) x0 :=
  pool_eq_of x0 (fun i => (hfin i).choose) (fun i => (hfin i).choose_spec)

/-! ## Finiteness of the first argument, from the precondition -/

instance : Subsingleton Cert.Pre_finite_inputs.S_.Idx := ⟨fun a b => funext fun d => d.elim0⟩

/-- When the precondition holds, every entry of the first argument is a real number: its absolute value is below +∞. -/
theorem finite_of_pre [Cert.Pre_finite_inputs.Facts] (a0 : FVec Ideal S4x512x64x64 .f32) (a1 : FVec Ideal Cert.Pre_finite_inputs.S4x512x16x16 .f32)
    (h : Cert.Pre_finite_inputs.fn (F := Ideal) a0 a1 = fun _ => 1#1) : ∀ i, ∃ r : ℝ, a0 i = (r : EReal) := by
  intro i
  have h0 := congrFun h ix0
  dsimp only [Cert.Pre_finite_inputs.fn] at h0
  have h1 := (IntOp.andi_eq_one.1 h0).1
  have h2 := Host.reduce_andi_all _ _ _ _ _ h1 i
  have h3 : Ideal.cmp .olt (max (a0 i) (-(a0 i))) (Ideal.ofBits .f32 0x7F800000#32) = 1#1 := h2
  have htop : Ideal.ofBits .f32 0x7F800000#32 = ⊤ := by simp [Ideal.ofBits, Ideal.ieee]
  rw [htop] at h3
  have h4 : max (a0 i) (-(a0 i)) < ⊤ := by
    by_contra hn
    simp [Ideal.cmp, hn] at h3
  induction hx : a0 i using EReal.rec with
  | bot => rw [hx] at h4; simp at h4
  | top => rw [hx] at h4; simp at h4
  | coe r => exact ⟨r, rfl⟩

/-! ## The two results in the run's fold of buffer contents -/

section Run
open Cert.KernelIdeal Cert.KernelIdeal.Gen
variable (m : (ℓ : Loc nD τ sig) → Buf (Elt Ideal) ℓ) (ρ : Dev nD → PrngReg)

/-- After the first region the result array holds the channel mean of the argument's launch contents. -/
theorem W1_main_v0 (c : Dev nD) :
    W1 (F := Ideal) m ρ c (Proc.devRef .tc main_v0) = meanC (V0 (F := Ideal) m ρ c main_arg0) :=
  (W1_arr m ρ c 1).trans (region0_value (V0 m ρ) c)

/-- After the host operations that follow it, the pooled buffer holds the 4×4 pooling of that channel mean. -/
theorem W2_main_v4 (c : Dev nD) :
    W2 (F := Ideal) m ρ c (Proc.devRef .tc main_v4) = poolK (meanC (V0 (F := Ideal) m ρ c main_arg0)) :=
  (kernel_pool (W1 m ρ c)).trans (congrArg poolK (W1_main_v0 m ρ c))

end Run

end Cert.MeanPool

end
-- ==== Proof.Bridge.lean ====
/-
  The two idealized programs compute one function.

  The kernel program's result is the tail of its second argument and its score array; so is the reference's. The
  score arrays agree element by element: at (b, ch) both are the score `mi` of channel ch of batch element b — the
  kernel's from its second region's body, the reference's from its three scatter histograms — against the same
  quantised reference map with the same entropy, because the first region's output is the reference's channel mean
  and, every entry of the first argument being a real number, the kernel's pooled mean of that channel mean is the
  reference's channel mean of pooled means (a finite sum exchanged with a finite sum and two exact quotients).
-/
import proofs.«139526_j23605140259217_2_alg».proof.Proof.KernelValue
import proofs.«139526_j23605140259217_2_alg».proof.Proof.BodyValue
import proofs.«139526_j23605140259217_2_alg».proof.Proof.RefStages
import proofs.«139526_j23605140259217_2_alg».proof.Proof.RefScore
import proofs.«139526_j23605140259217_2_alg».proof.Proof.MeanPool

set_option maxRecDepth 16384

noncomputable section

namespace Cert.Bridge

open Cert.KernelIdeal Cert.KernelIdeal.Gen Cert.KernelIdeal.HostValue
open Idealize.ShloMosaic Idealize.ShloMosaic.TcCoe Idealize.ShloMosaic.ValueIdx Idealize.SL.Sem

/-- The pooling function of the host stretch, in its two spellings. -/
theorem pool_poolK (A : FVec Ideal S4x1x64x64 .f32) : pool (F := Ideal) A = Cert.MeanPool.poolK A := rfl

set_option maxHeartbeats 4000000 in
/-- The kernel program's result buffer holds the reference's result term of the same arguments, when the first
    argument's entries are real numbers. -/
theorem result_eq (m : (ℓ : Loc nD τ sig) → Buf (Elt Ideal) ℓ) (ρ : Dev nD → PrngReg) (c : Dev nD)
    (hfin : ∀ i, ∃ r : ℝ, m ((c : Thread nD τ).loc main_arg0) i = (r : EReal)) :
    W8 m ρ c (Proc.devRef .tc main_v77)
      = Cert.ReferenceIdeal.Read.val_main_v173 (F := Ideal) (m ((c : Thread nD τ).loc main_arg0)) (m ((c : Thread nD τ).loc main_arg1)) := by
  rw [Cert.KernelIdeal.KernelValue.result_tail, Cert.ReferenceIdeal.Stages.v173_tail]
  refine congrArg (tail4 _) (funext fun i => ?_)
  obtain ⟨b, ch, u, v, rfl⟩ : ∃ (b : Fin 4) (ch : Fin 512) (u v : Fin 1), i = ix4 b ch u v := ⟨i 0, i 1, i 2, i 3, eq_ix4 i⟩
  obtain rfl : u = 0 := Subsingleton.elim _ _
  obtain rfl : v = 0 := Subsingleton.elim _ _
  have hA : Cert.KernelIdeal.KernelValue.A0 m ρ c = Cert.MeanPool.meanC (m ((c : Thread nD τ).loc main_arg0)) :=
    Cert.MeanPool.region0_value (V0 m ρ) c
  rw [shapeCast_4x512x1_4x512x1x1_apply,
    Cert.KernelIdeal.KernelValue.score m ρ (fun x0 x1 x2 Bp hx1 j => Cert.KernelIdeal.BodyValue.out1_3_apply x0 x1 x2 Bp hx1 j) c b ch,
    Cert.ReferenceIdeal.Score.v159_apply, Cert.ReferenceIdeal.Stages.v94_entropy, Cert.ReferenceIdeal.Stages.v50_norm,
    hA, Cert.MeanPool.ref_mean, pool_poolK, Cert.MeanPool.pool_eq _ hfin]

end Cert.Bridge

end
-- ==== Proof.lean ====
/-
  A mutual-information channel attention, as a Pallas kernel program and as its jnp reference, computes one
  function on finite inputs (at the extended reals).

  Both programs take f_p [4,512,64,64] and f_ms [4,512,16,16]. The channel mean of f_p is quantised to 256 grey
  levels (at full size, for its entropy h_p, and pooled to 16×16, as the reference map); every channel of f_ms is
  quantised likewise and scored against the reference map of its batch element by h_p + h_ms - h_joint, the
  entropies of its level histogram and of the "agreement" table N - n_i - m_j + 2 J_ij; the scores pass a softmax
  over the channels and the result is f_ms + f_ms · softmax. The kernel program takes the channel mean in a first
  region, builds the reference map's one-hot table on the host, and computes the scores in a second region with
  one-hot contractions; the reference builds every histogram by a scatter of ones.

  The three frames are the generated runs (the reference's with its result dropped). The ideal pass rewrote no
  operation, so `preserves` is trivial. `algebraic`: the kernel program's run names its result buffer
  (`ValueRun.run`), the reference's run names its result term, and the two are equal (`Bridge.result_eq`) once the
  precondition has made every entry of the first argument a real number (`MeanPool.finite_of_pre`).
-/
import proofs.«139526_j23605140259217_2_alg».proof.Defs
import proofs.«139526_j23605140259217_2_alg».proof.Proof.Gen.Kernel
import proofs.«139526_j23605140259217_2_alg».proof.Proof.Gen.Kernel.Skeleton
import proofs.«139526_j23605140259217_2_alg».proof.Proof.Gen.Kernel.Launch
import proofs.«139526_j23605140259217_2_alg».proof.Proof.Gen.Kernel.Points
import proofs.«139526_j23605140259217_2_alg».proof.Proof.Gen.Kernel.Frame
import proofs.«139526_j23605140259217_2_alg».proof.Proof.Gen.KernelIdeal
import proofs.«139526_j23605140259217_2_alg».proof.Proof.Gen.KernelIdeal.Skeleton
import proofs.«139526_j23605140259217_2_alg».proof.Proof.Gen.KernelIdeal.Launch
import proofs.«139526_j23605140259217_2_alg».proof.Proof.Gen.KernelIdeal.Points
import proofs.«139526_j23605140259217_2_alg».proof.Proof.Gen.KernelIdeal.Frame
import proofs.«139526_j23605140259217_2_alg».proof.Proof.Gen.ReferenceIdeal
import proofs.«139526_j23605140259217_2_alg».proof.Proof.Gen.Pre_finite_inputs
import proofs.«139526_j23605140259217_2_alg».proof.Proof.Gen.ReferenceIdeal.Run
import proofs.«139526_j23605140259217_2_alg».proof.Proof.Gen.ReferenceIdeal.Read
import proofs.«139526_j23605140259217_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two idealized programs, from memories agreeing on the arguments, end with equal results. -/
theorem algebraic : Cert.algebraic_KernelIdeal_ReferenceIdeal := by
  intro m ρ m' ρ' hpre hagree
  refine ⟨fun c => Cert.KernelIdeal.Gen.W8 m ρ c (Proc.devRef .tc Cert.KernelIdeal.main_v77),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v173_eq, (hagree c).1, (hagree c).2]
  exact (Cert.Bridge.result_eq m ρ c (Cert.MeanPool.finite_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
